-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S4096x1024 .f32) (main_arg2 : FVec F S4096 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S16x1x256 : Shape := ⟨3, ![16, 1, 256]⟩
abbrev S2x16x2048x256 : Shape := ⟨4, ![2, 16, 2048, 256]⟩
abbrev S1x2048x1024 : Shape := ⟨3, ![1, 2048, 1024]⟩
abbrev S256x1024 : Shape := ⟨2, ![256, 1024]⟩
abbrev S1x1x256 : Shape := ⟨3, ![1, 1, 256]⟩
abbrev S1x1x2048x256 : Shape := ⟨4, ![1, 1, 2048, 256]⟩
abbrev S2048x1024 : Shape := ⟨2, ![2048, 1024]⟩
abbrev S256 : Shape := ⟨1, ![256]⟩
abbrev S1024x256 : Shape := ⟨2, ![1024, 256]⟩
abbrev S2048x256 : Shape := ⟨2, ![2048, 256]⟩
abbrev S1x256 : Shape := ⟨2, ![1, 256]⟩
abbrev S64x1024 : Shape := ⟨2, ![64, 1024]⟩
abbrev S2048x64 : Shape := ⟨2, ![2048, 64]⟩
abbrev S2048 : Shape := ⟨1, ![2048]⟩
abbrev S1x2048 : Shape := ⟨2, ![1, 2048]⟩
abbrev S256x64 : Shape := ⟨2, ![256, 64]⟩
abbrev S256x1 : Shape := ⟨2, ![256, 1]⟩
abbrev S64x2048 : Shape := ⟨2, ![64, 2048]⟩
abbrev S256x2048 : Shape := ⟨2, ![256, 2048]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096, .f32⟩
  | .hbm, ⟨3, _⟩ => ⟨S1024x1024, .f32⟩
  | .hbm, ⟨4, _⟩ => ⟨S1024, .f32⟩
  | .hbm, ⟨5, _⟩ => ⟨S16x1x256, .f32⟩
  | .hbm, ⟨6, _⟩ => ⟨S1024x1024, .f32⟩
  | .hbm, ⟨7, _⟩ => ⟨S2x16x2048x256, .f32⟩
  | .hbm, ⟨8, _⟩ => ⟨S2x2048x1024, .f32⟩
  | .local _ .vmem, ⟨0, _⟩ => ⟨S1x2048x1024, .f32⟩
  | .local _ .vmem, ⟨1, _⟩ => ⟨S256x1024, .f32⟩
  | .local _ .vmem, ⟨2, _⟩ => ⟨S256x1024, .f32⟩
  | .local _ .vmem, ⟨3, _⟩ => ⟨S1x1x256, .f32⟩
  | .local _ .vmem, ⟨4, _⟩ => ⟨S1x1x256, .f32⟩
  | .local _ .vmem, ⟨5, _⟩ => ⟨S1x1x2048x256, .f32⟩
  | .local _ .vmem, ⟨6, _⟩ => ⟨S1x1x2048x256, .f32⟩
  | .local _ .vmem, ⟨7, _⟩ => ⟨S1x1x2048x256, .f32⟩
  | .local _ .vmem, ⟨8, _⟩ => ⟨S1x1x2048x256, .f32⟩
  | .local _ .vmem, ⟨9, _⟩ => ⟨S64x1024, .f32⟩
  | .local _ .vmem, ⟨10, _⟩ => ⟨S64x1024, .f32⟩
  | .local _ .vmem, ⟨11, _⟩ => ⟨S1024, .f32⟩
  | .local _ .vmem, ⟨12, _⟩ => ⟨S1x2048x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x2048x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

class Facts₀ : Prop where
  shapeCasts_S4096_S16x1x256 : S4096.ShapeCasts S16x1x256
  transposes_S1024x1024_S1024x1024_1_0 : S1024x1024.Transposes [1, 0] S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S256x1024_S256x1024_0_0 : ∀ a, (![0, 0] : Fin 2 → Nat) a + S256x1024.size a ≤ S256x1024.size a
  h_S256x1024 : 0 < S256x1024.numel
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  bitsLt_bf16_f32 : FTy.bits .bf16 < FTy.bits .f32
  transposes_S256x1024_p1_0_S1024x256 : S256x1024.Transposes [1, 0] S1024x256
  shapeCasts_S256_S1x256 : S256.ShapeCasts S1x256
  broadcasts_S1x256_S2048x256 : S1x256.Broadcasts S2048x256
  inb_S1x1x2048x256_S1x1x2048x256_0_0_0_0 : ∀ a, (![0, 0, 0, 0] : Fin 4 → Nat) a + S1x1x2048x256.size a ≤ S1x1x2048x256.size a
  h_S1x1x2048x256 : 0 < S1x1x2048x256.numel
  shapeCasts_S1x1x2048x256_S2048x256 : S1x1x2048x256.ShapeCasts S2048x256
  shapeCasts_S2048x256_S1x1x2048x256 : S2048x256.ShapeCasts S1x1x2048x256
  slices_S2048x256_o0_64_S2048x64 : S2048x256.Slices ![0, 64] S2048x64
  slices_S2048x256_o0_128_S2048x64 : S2048x256.Slices ![0, 128] S2048x64
  reduces_S2048x64_S2048 : S2048x64.Reduces [1] S2048
  shapeCasts_S2048_S1x2048 : S2048.ShapeCasts S1x2048
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S2048x1024_S1x2048x1024 : S2048x1024.ShapeCasts S1x2048x1024
  slices_S2048x256_o0_0_S256x64 : S2048x256.Slices ![0, 0] S256x64
  slices_S2048x256_o0_192_S256x64 : S2048x256.Slices ![0, 192] S256x64
  reduces_S256x64_S256 : S256x64.Reduces [1] S256
  shapeCasts_S256_S256x1 : S256.ShapeCasts S256x1
  transposes_S2048x64_p1_0_S64x2048 : S2048x64.Transposes [1, 0] S64x2048
  broadcasts_S256x1_S256x2048 : S256x1.Broadcasts S256x2048
  broadcasts_S1x2048_S256x2048 : S1x2048.Broadcasts S256x2048
  reduces_S256x2048_S256 : S256x2048.Reduces [1] S256
  squeezes_S1x2048x1024_S2048x1024 : S1x2048x1024.Squeezes S2048x1024
  inb_S2048x1024_S256x1024_0_0 : ∀ a, (![0, 0] : Fin 2 → Nat) a + S256x1024.size a ≤ S2048x1024.size a
  shapeCasts_S256x1024_S256x1024 : S256x1024.ShapeCasts S256x1024
  slices_S2048x256_o256_0_S256x64 : S2048x256.Slices ![256, 0] S256x64
  slices_S2048x256_o256_192_S256x64 : S2048x256.Slices ![256, 192] S256x64
  inb_S2048x1024_S256x1024_256_0 : ∀ a, (![256, 0] : Fin 2 → Nat) a + S256x1024.size a ≤ S2048x1024.size a
  slices_S2048x256_o512_0_S256x64 : S2048x256.Slices ![512, 0] S256x64
  slices_S2048x256_o512_192_S256x64 : S2048x256.Slices ![512, 192] S256x64
  inb_S2048x1024_S256x1024_512_0 : ∀ a, (![512, 0] : Fin 2 → Nat) a + S256x1024.size a ≤ S2048x1024.size a
  slices_S2048x256_o768_0_S256x64 : S2048x256.Slices ![768, 0] S256x64
  slices_S2048x256_o768_192_S256x64 : S2048x256.Slices ![768, 192] S256x64
  inb_S2048x1024_S256x1024_768_0 : ∀ a, (![768, 0] : Fin 2 → Nat) a + S256x1024.size a ≤ S2048x1024.size a
  slices_S2048x256_o1024_0_S256x64 : S2048x256.Slices ![1024, 0] S256x64
  slices_S2048x256_o1024_192_S256x64 : S2048x256.Slices ![1024, 192] S256x64
  inb_S2048x1024_S256x1024_1024_0 : ∀ a, (![1024, 0] : Fin 2 → Nat) a + S256x1024.size a ≤ S2048x1024.size a
  slices_S2048x256_o1280_0_S256x64 : S2048x256.Slices ![1280, 0] S256x64
  slices_S2048x256_o1280_192_S256x64 : S2048x256.Slices ![1280, 192] S256x64
  inb_S2048x1024_S256x1024_1280_0 : ∀ a, (![1280, 0] : Fin 2 → Nat) a + S256x1024.size a ≤ S2048x1024.size a
  slices_S2048x256_o1536_0_S256x64 : S2048x256.Slices ![1536, 0] S256x64
  slices_S2048x256_o1536_192_S256x64 : S2048x256.Slices ![1536, 192] S256x64
  inb_S2048x1024_S256x1024_1536_0 : ∀ a, (![1536, 0] : Fin 2 → Nat) a + S256x1024.size a ≤ S2048x1024.size a
  slices_S2048x256_o1792_0_S256x64 : S2048x256.Slices ![1792, 0] S256x64
  slices_S2048x256_o1792_192_S256x64 : S2048x256.Slices ![1792, 192] S256x64
  inb_S2048x1024_S256x1024_1792_0 : ∀ a, (![1792, 0] : Fin 2 → Nat) a + S256x1024.size a ≤ S2048x1024.size a
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  dot_S2048x1024_S1024x256_S2048x256_1_0_0_1_n_n_wf : DotDims.WF S2048x1024 S1024x256 S2048x256 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S256x64_S64x1024_S256x1024_1_0_0_1_n_n_wf : DotDims.WF S256x64 S64x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x256.size a ≤ S2x16x2048x256.size a
  hwx0_3 : ∀ i : grid0.Coords, EltTy.bits .f32 = 32 ∨ (Rect.block (s := S2x16x2048x256) S1x1x2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x256.size a ≤ S2x16x2048x256.size a
  hwx1_0 : ∀ i : grid1.Coords, EltTy.bits .f32 = 32 ∨ (Rect.block (s := S2x16x2048x256) S1x1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S1024x1024.size a
  hwx1_1 : ∀ i : grid1.Coords, EltTy.bits .f32 = 32 ∨ (Rect.block (s := S1024x1024) S64x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S2x2048x1024.size a
  hwx1_3 : ∀ i : grid1.Coords, EltTy.bits .f32 = 32 ∨ (Rect.block (s := S2x2048x1024) S1x2048x1024.size (cc1_transform_3 i) (hinb1_3 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x2048x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S2x2048x4096 : Shape := ⟨3, ![2, 2048, 4096]⟩
abbrev S1x1x4096 : Shape := ⟨3, ![1, 1, 4096]⟩
abbrev S2x2048x16x256 : Shape := ⟨4, ![2, 2048, 16, 256]⟩
abbrev S2x16x2048x256 : Shape := ⟨4, ![2, 16, 2048, 256]⟩
abbrev S2x16x2048x64 : Shape := ⟨4, ![2, 16, 2048, 64]⟩
abbrev S_ : Shape := ⟨0, ![]⟩
abbrev S2x16x2048 : Shape := ⟨3, ![2, 16, 2048]⟩
abbrev S2x16x2048x1 : Shape := ⟨4, ![2, 16, 2048, 1]⟩
abbrev S2x16x1x2048 : Shape := ⟨4, ![2, 16, 1, 2048]⟩
abbrev S2x16x2048x2048 : Shape := ⟨4, ![2, 16, 2048, 2048]⟩
abbrev S2x2048x16x64 : Shape := ⟨4, ![2, 2048, 16, 64]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096, .f32⟩
  | .hbm, ⟨3, _⟩ => ⟨S1024x1024, .f32⟩
  | .hbm, ⟨4, _⟩ => ⟨S1024, .f32⟩
  | .hbm, ⟨5, _⟩ => ⟨S2x2048x4096, .f32⟩
  | .hbm, ⟨6, _⟩ => ⟨S1x1x4096, .f32⟩
  | .hbm, ⟨7, _⟩ => ⟨S2x2048x4096, .f32⟩
  | .hbm, ⟨8, _⟩ => ⟨S2x2048x4096, .f32⟩
  | .hbm, ⟨9, _⟩ => ⟨S2x2048x16x256, .f32⟩
  | .hbm, ⟨10, _⟩ => ⟨S2x16x2048x256, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x64, .f32⟩
  | .hbm, ⟨15, _⟩ => ⟨S2x16x2048x64, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x64, .f32⟩
  | .hbm, ⟨20, _⟩ => ⟨S_, .f32⟩
  | .hbm, ⟨21, _⟩ => ⟨S2x16x2048, .f32⟩
  | .hbm, ⟨22, _⟩ => ⟨S2x16x1x2048, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S_, .f32⟩
  | .hbm, ⟨46, _⟩ => ⟨S2x16x2048x1, .f32⟩
  | .hbm, ⟨47, _⟩ => ⟨S2x16x2048x1, .f32⟩
  | .hbm, ⟨48, _⟩ => ⟨S2x16x2048x2048, .f32⟩
  | .hbm, ⟨49, _⟩ => ⟨S2x16x2048x2048, .f32⟩
  | .hbm, ⟨50, _⟩ => ⟨S2x16x2048x64, .f32⟩
  | .hbm, ⟨51, _⟩ => ⟨S2x16x2048x64, .f32⟩
  | .hbm, ⟨52, _⟩ => ⟨S2x2048x16x64, .f32⟩
  | .hbm, ⟨53, _⟩ => ⟨S2x2048x1024, .f32⟩
  | .hbm, ⟨54, _⟩ => ⟨S2x2048x1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  shapeCasts_S2x2048x4096_S2x2048x16x256 : S2x2048x4096.ShapeCasts S2x2048x16x256
  transposes_S2x2048x16x256_S2x16x2048x256_0_2_1_3 : S2x2048x16x256.Transposes [0, 2, 1, 3] S2x16x2048x256
  slices_S2x16x2048x256_S2x16x2048x64_0_0_0_0 : S2x16x2048x256.Slices ![0, 0, 0, 0] S2x16x2048x64
  slices_S2x16x2048x256_S2x16x2048x64_0_0_0_64 : S2x16x2048x256.Slices ![0, 0, 0, 64] S2x16x2048x64
  slices_S2x16x2048x256_S2x16x2048x64_0_0_0_128 : S2x16x2048x256.Slices ![0, 0, 0, 128] S2x16x2048x64
  slices_S2x16x2048x256_S2x16x2048x64_0_0_0_192 : S2x16x2048x256.Slices ![0, 0, 0, 192] S2x16x2048x64
  reducesTo_S2x16x2048x64_S2x16x2048_d3 : S2x16x2048x64.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048_S2x16x1x2048_0_1_3 : S2x16x2048.BroadcastsInDim S2x16x1x2048 (![0, 1, 3] : Fin 3 → Fin S2x16x1x2048.rank)
  bcast_S2x16x2048x1_S2x16x2048x2048_0_1_2_3 : S2x16x2048x1.BroadcastsInDim S2x16x2048x2048 (![0, 1, 2, 3] : Fin 4 → Fin S2x16x2048x2048.rank)
  bcast_S2x16x1x2048_S2x16x2048x2048_0_1_2_3 : S2x16x1x2048.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048x1 : S_.BroadcastsInDim S2x16x2048x1 (![] : Fin 0 → Fin S2x16x2048x1.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S4096x1024_S2x2048x4096_2_1_01_0_n_n_wf : DotDims.WF S2x2048x1024 S4096x1024 S2x2048x4096 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S4096x1024_S2x2048x4096_2_1_01_0_n_n : DotDims S2x2048x1024 S4096x1024 S2x2048x4096 where
  lhsContracting := [2]
  rhsContracting := [1]
  lhsNonContracting := [0, 1]
  rhsNonContracting := [0]
  lhsBatch := []
  rhsBatch := []
  wf := dot_S2x2048x1024_S4096x1024_S2x2048x4096_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.R0Body.lean ====
/-
  The input projection's kernel, one grid point per (batch entry, head).

  At a point the body reads three blocks — the batch entry's 2048 rows of X, the head's 256 rows of W_in and the
  head's 256 bias entries — and writes the head's projected block [2048, 256] with ONE store that covers it: the
  product of the rows with the transposed weight rows plus the bias row, the skeleton's one payload of the three
  loaded blocks. (It also loads the output buffer once and drops the value, so the buffer has to be held at some
  contents when the body starts.) Nothing is kept between points: what the body leaves in the output buffer is a
  function of the three input blocks alone.

  Everything is stated at a parameter V, the buffers' contents when this region is entered, and for any float
  instance F.
-/
import proofs.«100586_j44555990728728_1_alg».proof.Proof.Gen.KernelIdeal.Launch
import proofs.«100586_j44555990728728_1_alg».proof.Proof.Gen.KernelIdeal.Skeleton
import proofs.«100586_j44555990728728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks the body is handed -/

/-- Window w's block at point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there
    or kept it from the point before (the rows of X change only with the batch entry): for any proof data whose array
    is V's and whose body leaves the block where it is. One statement per input window. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body on any staging memrefs -/

/-- One staging buffer of the output window, through which its contents are stated (any would do). -/
abbrev VO0_3 : View sig .tc .vmem S1x1x2048x256 .f32 := (Memref.whole cc0_stg3_0 : Memref sig .tc .vmem S1x1x2048x256 .f32).view
/-- Each window's current staging memref at point t, as the pipeline passes it, and that it is a whole buffer. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048x256 .f32 := win0_3.stage (cfg0.slots t 3)
abbrev hs0_3 (t : Fin cfg0.N) : (ms0_3 t).IsWhole := hstage0_3 ((cfg0.slots t 3).cast nbuf0_3)

set_option maxHeartbeats 1000000 in
/-- The body's store into the output buffer, as a list of pieces, together with the body's triple: on whole staging
    memrefs, the three inputs at contents x0 x1 x2 and the output at anything, the body runs to the continuation with
    the inputs as they were and the output buffer overwritten by those pieces. The pieces are found when the run
    hands the buffer to the continuation. -/
noncomputable def kernelRun0 (c : Dev nD) (i : grid0.Coords)
    (arg2 : Memref sig .tc .vmem S1x2048x1024 .f32) (harg2 : arg2.IsWhole) (arg3 : Memref sig .tc .vmem S256x1024 .f32) (harg3 : arg3.IsWhole)
    (arg4 : Memref sig .tc .vmem S1x1x256 .f32) (harg4 : arg4.IsWhole) (arg5 : Memref sig .tc .vmem S1x1x2048x256 .f32) (harg5 : arg5.IsWhole)
    (x0 : Vec F S1x2048x1024 .f32) (x1 : Vec F S256x1024 .f32) (x2 : Vec F S1x1x256 .f32) :
    { L3 : List (View.Piece (Elt F) S1x1x2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0_proj_kernel i arg2 harg2 arg3 harg3 arg4 harg4 arg5 harg5) K } := by
  refine ⟨?_, fun E K => ?run⟩
  case run =>
    simp only [cc0_proj_kernel_eq_skeleton]; unfold cc0_proj_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The store's one piece is the whole block, so the pieces cover the block. -/
theorem cover0_3 (c : Dev nD) (i : grid0.Coords)
    (arg2 : Memref sig .tc .vmem S1x2048x1024 .f32) (harg2 : arg2.IsWhole) (arg3 : Memref sig .tc .vmem S256x1024 .f32) (harg3 : arg3.IsWhole)
    (arg4 : Memref sig .tc .vmem S1x1x256 .f32) (harg4 : arg4.IsWhole) (arg5 : Memref sig .tc .vmem S1x1x2048x256 .f32) (harg5 : arg5.IsWhole)
    (x0 : Vec F S1x2048x1024 .f32) (x1 : Vec F S256x1024 .f32) (x2 : Vec F S1x1x256 .f32) (y : S1x1x2048x256.Idx) :
    ∃ pc ∈ (kernelRun0 c i arg2 harg2 arg3 harg3 arg4 harg4 arg5 harg5 x0 x1 x2).1, y ∈ pc.1.set :=
  View.cover_of_tiledL (kernelRun0 c i arg2 harg2 arg3 harg3 arg4 harg4 arg5 harg5 x0 x1 x2).1 S1x1x2048x256.size (by sl_kernel_rfl) y

/-- What the body leaves in the output buffer: the pieces read back (over contents that do not matter, the pieces
    covering the block). -/
def out0_3 (c : Dev nD) (i : grid0.Coords)
    (arg2 : Memref sig .tc .vmem S1x2048x1024 .f32) (harg2 : arg2.IsWhole) (arg3 : Memref sig .tc .vmem S256x1024 .f32) (harg3 : arg3.IsWhole)
    (arg4 : Memref sig .tc .vmem S1x1x256 .f32) (harg4 : arg4.IsWhole) (arg5 : Memref sig .tc .vmem S1x1x2048x256 .f32) (harg5 : arg5.IsWhole)
    (x0 : Vec F S1x2048x1024 .f32) (x1 : Vec F S256x1024 .f32) (x2 : Vec F S1x1x256 .f32) : Vec F S1x1x2048x256 .f32 :=
  VO0_3.read (Elt F) (VO0_3.writes (Elt F) VO0_3.junk (kernelRun0 c i arg2 harg2 arg3 harg3 arg4 harg4 arg5 harg5 x0 x1 x2).1)

/-- The output buffer after the body at point t: the run at the point's memrefs and input blocks. -/
def outAt0 (c : Dev nD) (t : Fin cfg0.N) : Vec F S1x1x2048x256 .f32 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-! ## The proof data of the pipeline and the body obligation -/

/-- The arrays as the region finds them; after the body each input buffer still at its block and the output buffer
    at outAt0; the invariant is the scoped rest and the generator register, which the body does not touch; nothing
    owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' buffers hold their blocks, the output's holds something, so the run applies;
    the invariant and the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
/- The attention kernel of the second launch, on its grid of 2 batches × 16 heads: what its three cases share.
   The kernel accumulates the heads' contributions to the output projection in its output block: at head 0 the
   block is first cleared, at every head each row tile is read, the head's contribution added and the tile put
   back, and at head 15 the bias is added to the whole block. Here: the two tests on the head coordinate, in
   closed form over the grid, and the memrefs the body is handed at a point. -/
import proofs.«100586_j44555990728728_1_alg».proof.Proof.Gen.KernelIdeal.Launch
import proofs.«100586_j44555990728728_1_alg».proof.Proof.Gen.KernelIdeal.Skeleton
import proofs.«100586_j44555990728728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two tests on the head coordinate -/

/-- "The head is the first one": the body's first conditional, under which the accumulator is cleared. -/
abbrev cond1_0 (i : grid1.Coords) : Prop :=
  (Scalar.cmpi .ne (Scalar.extui (Scalar.cmpi .eq (BitVec.ofNat 32 (i 1).val) 0#32)) 0#32) = 1#1

/-- "The head is the last one": the body's second conditional, under which the bias is added. -/
abbrev cond1_1 (i : grid1.Coords) : Prop :=
  (Scalar.cmpi .ne (Scalar.extui (Scalar.cmpi .eq (BitVec.ofNat 32 (i 1).val) 15#32)) 0#32) = 1#1

/-- The points are numbered batch-major, so the head of point `t` is `t mod 16`: the first test holds exactly
    at the multiples of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second test holds exactly at the points whose number is 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## The memrefs the body is handed at a point -/

abbrev ms1_0 (t : Fin cfg1.N) : Memref sig .tc .vmem S1x1x2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x1024 .f32 := win1_3.stage (cfg1.slots t 3)
abbrev hs1_3 (t : Fin cfg1.N) : (ms1_3 t).IsWhole := hstage1_3 ((cfg1.slots t 3).cast nbuf1_3)

end Cert.KernelIdeal.Hand

end
-- ==== Proof.R1RunA.lean ====
/- The attention kernel at a point of head 0: the accumulator is cleared before the row tiles are updated, so what
   the output block held before does not matter. -/
import proofs.«100586_j44555990728728_1_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- HEAD 0. On whole memrefs — the three inputs at `x0`, `x1`, `x2`, the output block at anything — the body runs
    to a state with the inputs as they were and the output block at contents `g`, the witness: the cleared block
    with each of its eight row tiles replaced by the tile plus the head's contribution. The output memref is
    held whole, so that the tile stores through its squeezed view are plain writes into its one buffer; `g` is
    that buffer read back through the memref's view, found when the run's last state is handed over. -/
noncomputable def kernelRun1_A (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : cond1_0 i) (hc1 : ¬cond1_1 i)
    (x0 : Vec F S1x1x2048x256 .f32) (x1 : Vec F S64x1024 .f32) (x2 : Vec F S1024 .f32) :
    { g : Vec F S1x2048x1024 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ owns (c : Thread nD τ) arg5 fullShare g) -∗ K ⟨⟩))
          ⊢ wp frame (wpE (defs₀ (F := F)) Variants.none c none) E (cc1_attn_kernel i arg2 harg2 arg3 harg3 arg4 harg4 arg5 harg5) K } := by
  refine ⟨?_, fun E K => ?run⟩
  case run =>
    simp only [cc1_attn_kernel_eq_skeleton]; unfold cc1_attn_kernel_skel
    unfold owns
    rw [harg5.set_eq_univ]
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr
    swap; · iexact H3
    ipureintro; rfl

end Cert.KernelIdeal.Hand

end
-- ==== Proof.R1RunB.lean ====
/- The attention kernel at a point whose head is neither the first nor the last: the row tiles of the running
   sum are updated in place, nothing else. -/
import proofs.«100586_j44555990728728_1_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A MIDDLE HEAD. On whole memrefs — the inputs at `x0`, `x1`, `x2`, the output block at the running sum `xo3` —
    the body runs to a state with the inputs as they were and the output block at `g`, the witness: `xo3` with
    each of its eight row tiles replaced by the tile plus the head's contribution. -/
noncomputable def kernelRun1_B (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : ¬cond1_1 i)
    (x0 : Vec F S1x1x2048x256 .f32) (x1 : Vec F S64x1024 .f32) (x2 : Vec F S1024 .f32) (xo3 : Vec F S1x2048x1024 .f32) :
    { g : Vec F S1x2048x1024 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ owns (c : Thread nD τ) arg5 fullShare g) -∗ K ⟨⟩))
          ⊢ wp frame (wpE (defs₀ (F := F)) Variants.none c none) E (cc1_attn_kernel i arg2 harg2 arg3 harg3 arg4 harg4 arg5 harg5) K } := by
  refine ⟨?_, fun E K => ?run⟩
  case run =>
    simp only [cc1_attn_kernel_eq_skeleton]; unfold cc1_attn_kernel_skel
    unfold owns
    rw [harg5.set_eq_univ]
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr
    swap; · iexact H3
    ipureintro; rfl

end Cert.KernelIdeal.Hand

end
-- ==== Proof.R1RunC.lean ====
/- The attention kernel at a point of head 15: the row tiles of the running sum are updated, then the bias is added
   to the whole block, which is then the finished output block. -/
import proofs.«100586_j44555990728728_1_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- HEAD 15. On whole memrefs — the inputs at `x0`, `x1`, `x2`, the output block at the running sum `xo3` — the
    body runs to a state with the inputs as they were and the output block at `g`, the witness: `xo3` with each
    row tile replaced by the tile plus the head's contribution, and then the bias `x2` added along the rows. -/
noncomputable def kernelRun1_C (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : cond1_1 i)
    (x0 : Vec F S1x1x2048x256 .f32) (x1 : Vec F S64x1024 .f32) (x2 : Vec F S1024 .f32) (xo3 : Vec F S1x2048x1024 .f32) :
    { g : Vec F S1x2048x1024 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ owns (c : Thread nD τ) arg5 fullShare g) -∗ K ⟨⟩))
          ⊢ wp frame (wpE (defs₀ (F := F)) Variants.none c none) E (cc1_attn_kernel i arg2 harg2 arg3 harg3 arg4 harg4 arg5 harg5) K } := by
  refine ⟨?_, fun E K => ?run⟩
  case run =>
    simp only [cc1_attn_kernel_eq_skeleton]; unfold cc1_attn_kernel_skel
    unfold owns
    rw [harg5.set_eq_univ]
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr
    swap; · iexact H3
    ipureintro; rfl

end Cert.KernelIdeal.Hand

end
-- ==== Proof.R1Body.lean ====
/- The attention kernel's half of the second launch: what its output block holds after every point, the launch's
   proof data at the buffer contents `V` the launch starts from, and the obligation of the kernel's body.
   The output block is a running sum over the 16 heads of a batch: cleared at head 0, every head adds its
   contribution tile by tile, head 15 then adds the bias; the block is copied out after head 15 only, so between
   two heads of a batch the staging buffer keeps what the head before left in it. -/
import proofs.«100586_j44555990728728_1_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- what the TensorCore's buffers hold when the second launch starts: everything below is stated at it
variable (V : (c : Dev nD) → (b : Ref sig .tc) → Buf (Elt F) ((c : Thread nD τ).loc b))

/-! ## The windows' blocks -/

/-- The block of window `w` that belongs to point `t`, cut out of the window's array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the point's block whenever the body is called, whether the block was copied in
    just now or is still there from an earlier point (then the block's index has not moved; for the bias it never
    moves): for any proof data over `V`'s arrays whose body leaves the inputs alone. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block -/

/-- Head 0: the cleared block with the head's contribution added, tile by tile. -/
def out1_A_3 (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : cond1_0 i) (hc1 : ¬cond1_1 i)
    (x0 : Vec F S1x1x2048x256 .f32) (x1 : Vec F S64x1024 .f32) (x2 : Vec F S1024 .f32) : Vec F S1x2048x1024 .f32 :=
  (kernelRun1_A c i arg2 harg2 arg3 harg3 arg4 harg4 arg5 harg5 hc0 hc1 x0 x1 x2).1

/-- A middle head: the running sum `xo3` with the head's contribution added, tile by tile. -/
def out1_B_3 (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : ¬cond1_1 i)
    (x0 : Vec F S1x1x2048x256 .f32) (x1 : Vec F S64x1024 .f32) (x2 : Vec F S1024 .f32) (xo3 : Vec F S1x2048x1024 .f32) : Vec F S1x2048x1024 .f32 :=
  (kernelRun1_B c i arg2 harg2 arg3 harg3 arg4 harg4 arg5 harg5 hc0 hc1 x0 x1 x2 xo3).1

/-- Head 15: the running sum `xo3` with the head's contribution added, and then the bias. -/
def out1_C_3 (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : cond1_1 i)
    (x0 : Vec F S1x1x2048x256 .f32) (x1 : Vec F S64x1024 .f32) (x2 : Vec F S1024 .f32) (xo3 : Vec F S1x2048x1024 .f32) : Vec F S1x2048x1024 .f32 :=
  (kernelRun1_C c i arg2 harg2 arg3 harg3 arg4 harg4 arg5 harg5 hc0 hc1 x0 x1 x2 xo3).1

/-! ## The running sum, point by point -/

theorem ne15_of_mod0 {n : ℕ} (h : n % 16 = 0) : ¬n % 16 = 15 := by omega
theorem ne0_of_mod15 {n : ℕ} (h : n % 16 = 15) : ¬n % 16 = 0 := by omega

/-- What the output's staging buffer holds after the body at point `n`: at a head 0 the fresh sum of that head;
    at any other head the sum the point before left, with this head added — and the bias too at head 15. -/
def outsAt1 (c : Dev nD) : (n : ℕ) → n < cfg1.N → Vec F S1x2048x1024 .f32
  | 0, hn =>
    out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩)
      ((hcond1_0 ⟨0, hn⟩).mpr (Nat.zero_mod _)) (fun h => ne15_of_mod0 (Nat.zero_mod _) ((hcond1_1 ⟨0, hn⟩).mp h))
      (iblk1 V c 0 ⟨0, hn⟩) (iblk1 V c 1 ⟨0, hn⟩) (iblk1 V c 2 ⟨0, hn⟩)
  | n + 1, hn =>
    if h0 : (n + 1) % 16 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        ((hcond1_0 ⟨n + 1, hn⟩).mpr h0) (fun h => ne15_of_mod0 h0 ((hcond1_1 ⟨n + 1, hn⟩).mp h))
        (iblk1 V c 0 ⟨n + 1, hn⟩) (iblk1 V c 1 ⟨n + 1, hn⟩) (iblk1 V c 2 ⟨n + 1, hn⟩)
    else if h1 : (n + 1) % 16 = 15 then
      out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (fun h => h0 ((hcond1_0 ⟨n + 1, hn⟩).mp h)) ((hcond1_1 ⟨n + 1, hn⟩).mpr h1)
        (iblk1 V c 0 ⟨n + 1, hn⟩) (iblk1 V c 1 ⟨n + 1, hn⟩) (iblk1 V c 2 ⟨n + 1, hn⟩) (outsAt1 c n (Nat.lt_of_succ_lt hn))
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (fun h => h0 ((hcond1_0 ⟨n + 1, hn⟩).mp h)) (fun h => h1 ((hcond1_1 ⟨n + 1, hn⟩).mp h))
        (iblk1 V c 0 ⟨n + 1, hn⟩) (iblk1 V c 1 ⟨n + 1, hn⟩) (iblk1 V c 2 ⟨n + 1, hn⟩) (outsAt1 c n (Nat.lt_of_succ_lt hn))

/-- At a point of head 0. -/
theorem outsAt1_A (c : Dev nD) (t : Fin cfg1.N) (h0 : t.val % 16 = 0) :
    outsAt1 V c t.val t.isLt = out1_A_3 c (grid1.coords t) (ms1_0 t) (hs1_0 t) (ms1_1 t) (hs1_1 t) (ms1_2 t) (hs1_2 t) (ms1_3 t) (hs1_3 t)
      ((hcond1_0 t).mpr h0) (fun h => ne15_of_mod0 h0 ((hcond1_1 t).mp h)) (iblk1 V c 0 t) (iblk1 V c 1 t) (iblk1 V c 2 t) := by
  obtain ⟨n, hn⟩ := t
  cases n with
  | zero => exact rfl
  | succ n => exact (dif_pos h0).trans rfl

/-- At a point of a middle head: over what the point before left. -/
theorem outsAt1_B (c : Dev nD) (t : Fin cfg1.N) (h0 : ¬t.val % 16 = 0) (h1 : ¬t.val % 16 = 15) :
    outsAt1 V c t.val t.isLt = out1_B_3 c (grid1.coords t) (ms1_0 t) (hs1_0 t) (ms1_1 t) (hs1_1 t) (ms1_2 t) (hs1_2 t) (ms1_3 t) (hs1_3 t)
      (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd (Nat.zero_mod _) h0
  | succ n => exact ((dif_neg h0).trans (dif_neg h1)).trans rfl

/-- At a point of head 15: over what the point before left. -/
theorem outsAt1_C (c : Dev nD) (t : Fin cfg1.N) (h1 : t.val % 16 = 15) :
    outsAt1 V c t.val t.isLt = out1_C_3 c (grid1.coords t) (ms1_0 t) (hs1_0 t) (ms1_1 t) (hs1_1 t) (ms1_2 t) (hs1_2 t) (ms1_3 t) (hs1_3 t)
      (fun h => ne0_of_mod15 h1 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd (Nat.zero_mod 16) (ne0_of_mod15 h1)
  | succ n => exact ((dif_neg (ne0_of_mod15 h1)).trans (dif_pos h1)).trans rfl

/-! ## The launch's proof data -/

/-- The second launch's proof data on core `c`: its arrays as the launch finds them; after the body at point `t`
    the inputs' buffers still at their blocks and the output's at the running sum; the invariant carries what the
    body never touches; the core owes nothing and holds everything in full. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Between two heads of one batch the output block is not copied out (that happens after head 15 only), so at a
    point that is not a head 0 the staging buffer still holds the running sum the point before left. -/
theorem before1_3_kept (c : Dev nD) (t : Fin cfg1.N) (h0 : ¬t.val % 16 = 0) (d) :
    (dat1 V c).before 3 t d = (outsAt1 V c (t.val - 1) (Nat.lt_of_le_of_lt (Nat.sub_le _ _) t.isLt)) := by
  have hN : t.val < 32 := lt_of_lt_of_eq t.isLt (show cfg1.N = 32 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body's obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
/-- The body at any point. The inputs' buffers hold the point's blocks; the point's number modulo 16 says which of
    the three cases it is; off head 0 the output's buffer holds the running sum of the point before; so that
    case's run applies, and it ends with the buffers at what the proof data says. The invariant and the (empty)
    debt go through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 16 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (fun h => ne15_of_mod0 h0 ((hcond1_1 t).mp h)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · by_cases h1 : t.val % 16 = 15
    · rw [outsAt1_C V c t h1]
      simp only [before1_3_kept V c t h0]
      unfold out1_C_3
      iintro ⟨HΦ, Ho, ⟨%d0, H0⟩, ⟨%d1, H1⟩, ⟨%d2, H2⟩, ⟨%d3, H3⟩⟩
      iapply ((kernelRun1_C c (grid1.coords t) _ _ _ _ _ _ _ _ (fun h => ne0_of_mod15 h1 ((hcond1_0 t).mp h)) ((hcond1_1 t).mpr h1) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt1_B V c t h0 h1]
      simp only [before1_3_kept V c t h0]
      unfold out1_B_3
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) (fun h => h1 ((hcond1_1 t).mp h)) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The obligation the launch theorem asks of the body, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The whole program's run: @main is a stretch of two host operations (the bias vector recast per head, the output
  weight transposed), then the projection kernel's region, then the attention kernel's region.

  What each TensorCore's buffers hold between these three items is a fold from the launch memory: after the host
  stretch the two host results are written; after a region its windows' arrays hold what the pipeline's
  write-backs leave (an input's array unchanged, the output's array the blocks written back) and every other
  buffer is as it was. Each region is entered from that fold's contents and leaves the next; the thread state
  between items is "every unscoped buffer whole at the fold's contents, the generator register at some state,
  nothing owed". The run ends with every unscoped buffer at the last contents, from which both the frame (the five
  argument arrays end as launched: no item writes one) and the result array's contents are read.
  Stated for any float instance F.
-/
import proofs.«100586_j44555990728728_1_alg».proof.Proof.R0Body
import proofs.«100586_j44555990728728_1_alg».proof.Proof.R1Body
import proofs.«100586_j44555990728728_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between the items -/

/-- At launch. -/
abbrev M0 : Dev nD → Valuation τ sig (Elt F) := fun c b => (s₀ m ρ).mem ((c : Dev nD), b)
/-- After the host stretch: the projection region's entry. -/
abbrev M1 : Dev nD → Valuation τ sig (Elt F) := fun c => StableHlo.after hostOps0 (M0 m ρ c)
/-- The same at the TensorCore's references: what the projection region's proof data are stated at. -/
abbrev C1 : (c : Dev nD) → (b : Ref sig .tc) → Buf (Elt F) ((c : Thread nD τ).loc b) := fun c b => M1 m ρ c b
/-- After the projection region: its arrays at what its write-backs leave, the rest untouched. The attention
    region's entry. -/
def M2 (c : Dev nD) : Valuation τ sig (Elt F) :=
  Pipeline.withArrays spec0 c (M1 m ρ c) fun w => (dat0 (C1 m ρ) c).arrAt w cfg0.N
theorem M2_arr (c : Dev nD) (w : Fin cfg0.W) :
    M2 m ρ c (Proc.devRef .tc (Pipeline.arrRef spec0 w)) = (dat0 (C1 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
abbrev C2 : (c : Dev nD) → (b : Ref sig .tc) → Buf (Elt F) ((c : Thread nD τ).loc b) := fun c b => M2 m ρ c b
theorem exit0_arr (c : Dev nD) (w : Fin cfg0.W) : (dat0 (C1 m ρ) c).arrAt w cfg0.N = C2 m ρ c (Pipeline.arrRef spec0 w) :=
  (M2_arr m ρ c w).symm
theorem exit0_rest (c : Dev nD) : ∀ b, b ∉ Finset.univ.image (Pipeline.arrRef spec0) → C2 m ρ c b = C1 m ρ c b :=
  fun b hb => M2_of_ne m ρ c b fun w e => hb (Finset.mem_image.mpr ⟨w, Finset.mem_univ _, e⟩)

/-- After the attention region: the end. -/
def M3 (c : Dev nD) : Valuation τ sig (Elt F) :=
  Pipeline.withArrays spec1 c (M2 m ρ c) fun w => (dat1 (C2 m ρ) c).arrAt w cfg1.N
theorem M3_arr (c : Dev nD) (w : Fin cfg1.W) :
    M3 m ρ c (Proc.devRef .tc (Pipeline.arrRef spec1 w)) = (dat1 (C2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
abbrev C3 : (c : Dev nD) → (b : Ref sig .tc) → Buf (Elt F) ((c : Thread nD τ).loc b) := fun c b => M3 m ρ c b
theorem exit1_arr (c : Dev nD) (w : Fin cfg1.W) : (dat1 (C2 m ρ) c).arrAt w cfg1.N = C3 m ρ c (Pipeline.arrRef spec1 w) :=
  (M3_arr m ρ c w).symm
theorem exit1_rest (c : Dev nD) : ∀ b, b ∉ Finset.univ.image (Pipeline.arrRef spec1) → C3 m ρ c b = C2 m ρ c b :=
  fun b hb => M3_of_ne m ρ c b fun w e => hb (Finset.mem_image.mpr ⟨w, Finset.mem_univ _, e⟩)

/-- The host stretch writes only its two results. -/
theorem M1_of (c : Dev nD) (r : Ref sig .tc) (h : r ∉ hostOps0_W) : M1 m ρ c (Proc.devRef .tc r) = M0 m ρ c (Proc.devRef .tc r) :=
  StableHlo.after_of_writes_sub hostOps0 _ hostOps0_writes h

/-! ### The argument arrays end as launched -/

/-- X is the projection region's first window, an input: its array is unchanged by the region, untouched by the
    attention region and by the host stretch. -/
theorem M3_main_arg0 (c : Dev nD) : M3 m ρ c (Proc.devRef .tc main_arg0) = m ((c : Thread nD τ).loc main_arg0) :=
  calc M3 m ρ c (Proc.devRef .tc main_arg0)
    _ = M2 m ρ c (Proc.devRef .tc main_arg0) := M3_of_ne m ρ c main_arg0 (by decide)
    _ = M1 m ρ c (Proc.devRef .tc main_arg0) := (M2_arr m ρ c 0).trans (((dat0 (C1 m ρ) c).arrAt_in 0 rfl _).trans (A_eq0 (C1 m ρ) c 0))
    _ = M0 m ρ c (Proc.devRef .tc main_arg0) := M1_of m ρ c main_arg0 (by decide)
    _ = m ((c : Thread nD τ).loc main_arg0) := rfl
/-- W_in is the projection region's second window, an input. -/
theorem M3_main_arg1 (c : Dev nD) : M3 m ρ c (Proc.devRef .tc main_arg1) = m ((c : Thread nD τ).loc main_arg1) :=
  calc M3 m ρ c (Proc.devRef .tc main_arg1)
    _ = M2 m ρ c (Proc.devRef .tc main_arg1) := M3_of_ne m ρ c main_arg1 (by decide)
    _ = M1 m ρ c (Proc.devRef .tc main_arg1) := (M2_arr m ρ c 1).trans (((dat0 (C1 m ρ) c).arrAt_in 1 rfl _).trans (A_eq0 (C1 m ρ) c 1))
    _ = M0 m ρ c (Proc.devRef .tc main_arg1) := M1_of m ρ c main_arg1 (by decide)
    _ = m ((c : Thread nD τ).loc main_arg1) := rfl
/-- b_in is read by the host stretch only; no window stages it. -/
theorem M3_main_arg2 (c : Dev nD) : M3 m ρ c (Proc.devRef .tc main_arg2) = m ((c : Thread nD τ).loc main_arg2) :=
  calc M3 m ρ c (Proc.devRef .tc main_arg2)
    _ = M2 m ρ c (Proc.devRef .tc main_arg2) := M3_of_ne m ρ c main_arg2 (by decide)
    _ = M1 m ρ c (Proc.devRef .tc main_arg2) := M2_of_ne m ρ c main_arg2 (by decide)
    _ = M0 m ρ c (Proc.devRef .tc main_arg2) := M1_of m ρ c main_arg2 (by decide)
    _ = m ((c : Thread nD τ).loc main_arg2) := rfl
/-- W_out is read by the host stretch only. -/
theorem M3_main_arg3 (c : Dev nD) : M3 m ρ c (Proc.devRef .tc main_arg3) = m ((c : Thread nD τ).loc main_arg3) :=
  calc M3 m ρ c (Proc.devRef .tc main_arg3)
    _ = M2 m ρ c (Proc.devRef .tc main_arg3) := M3_of_ne m ρ c main_arg3 (by decide)
    _ = M1 m ρ c (Proc.devRef .tc main_arg3) := M2_of_ne m ρ c main_arg3 (by decide)
    _ = M0 m ρ c (Proc.devRef .tc main_arg3) := M1_of m ρ c main_arg3 (by decide)
    _ = m ((c : Thread nD τ).loc main_arg3) := rfl
/-- b_out is the attention region's third window, an input. -/
theorem M3_main_arg4 (c : Dev nD) : M3 m ρ c (Proc.devRef .tc main_arg4) = m ((c : Thread nD τ).loc main_arg4) :=
  calc M3 m ρ c (Proc.devRef .tc main_arg4)
    _ = M2 m ρ c (Proc.devRef .tc main_arg4) := (M3_arr m ρ c 2).trans (((dat1 (C2 m ρ) c).arrAt_in 2 rfl _).trans (A_eq1 (C2 m ρ) c 2))
    _ = M1 m ρ c (Proc.devRef .tc main_arg4) := M2_of_ne m ρ c main_arg4 (by decide)
    _ = M0 m ρ c (Proc.devRef .tc main_arg4) := M1_of m ρ c main_arg4 (by decide)
    _ = m ((c : Thread nD τ).loc main_arg4) := rfl

/-! ## The proof data family and the thread state -/

/-- No pallas_call has a prefetched table. -/
abbrev admH : (p : Fin 2) → (pcfgs (F := F) p).Adm := fun p => (cfgs p).toPCfg_adm
/-- Each pipeline's proof data at its region's entry contents, a literal match on the pipeline. -/
def pdats : (p : Fin 2) → (c : Dev nD) → Dat τ (Elt F) Unit ℕ (Pipeline.UD sig nD τ) ℕ (Pipeline.pin (pcfgs (F := F)) admH p) c
  | ⟨0, _⟩ => fun c => dat0 (C1 m ρ) c
  | ⟨1, _⟩ => fun c => dat1 (C2 m ρ) c
abbrev 𝒱H : Variants := Variants.none
/-- No core owes another anything. -/
abbrev LH : GSem nD τ sig → Finset Unit := fun _ => ∅
abbrev lvH : GSem nD τ sig → Unit → ℕ := fun _ _ => 0
/-- What rides beside the buffers: the generator register at some state, and nothing owed. -/
abbrev RH (c : Dev nD) : sProp 𝕄 := iprop((∃ r, prngReg c r) ∗ ∃ W, owes (c : Thread nD τ) (0 : CellTallies nD τ sig Unit) W)
/-- The host stretch as a segment over the unscoped buffers from contents W. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, less the dues. -/
abbrev TH (c : Dev nD) : sProp 𝕄 := iprop(StableHlo.held (c : Thread nD τ) (Pipeline.ucRefs τ sig) (M3 m ρ c) ∗ ∃ r, prngReg c r)

/-! ## The two regions as segments -/

set_option backward.isDefEq.respectTransparency.types false in
/-- The projection region: entered with every unscoped buffer at M1, left at M2. Its windows' arrays are split out of
    the unscoped buffers and put back at the exit contents; the generator register goes into the class invariant and
    comes back; the kernel has no semaphore of its own and owes nothing. -/
def regProj : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (C1 m ρ) c).loose
  hwaits := Pipeline.hwaits_of_owed_zero _ _ _ _ LH lvH 0 fun _ _ => rfl
  pre c := iprop(StableHlo.held (c : Thread nD τ) (Pipeline.ucRefs τ sig) (M1 m ρ c) ∗ RH c)
  post c := iprop(StableHlo.held (c : Thread nD τ) (Pipeline.ucRefs τ sig) (M2 m ρ c) ∗ RH c)
  X c := iprop(∃ r, prngReg c r)
  Y c := iprop(∃ r, prngReg c r)
  Z c := Pipeline.unscopedRest (Ix := Unit) (Name := ℕ) (U := Pipeline.UD sig nD τ) (Lvl := ℕ) spec0 c (C1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m ρ) ((pdats m ρ 0 c).share_full fun _ => rfl)
      (C1 m ρ c) (C2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at M2, left at M3, the last contents. The same routing. -/
def regAttn : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (C2 m ρ) c).loose
  hwaits := Pipeline.hwaits_of_owed_zero _ _ _ _ LH lvH 1 fun _ _ => rfl
  pre c := iprop(StableHlo.held (c : Thread nD τ) (Pipeline.ucRefs τ sig) (M2 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (C2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (C2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m ρ) ((pdats m ρ 1 c).share_full fun _ => rfl)
      (C2 m ρ c) (C3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱H LH lvH) :=
  [ .host (hsegH hostOps0 hostOps0_sub hostOps0_fresh (M0 m ρ)),
    .region (regProj m ρ),
    .region (regAttn m ρ) ]
/-- @main is the run of the three segments. -/
theorem main_runH (c : Dev nD) : main (F := F) c = Pipeline.Seg.run (segsH m ρ) := (main_chain c).trans (by chain_rfl)

set_option backward.isDefEq.respectTransparency.types false in
/-- From any memory with zero counters every weakly fair execution of @main terminates, nothing faulting, and in the
    final memory the result array holds what the attention pipeline's write-backs leave, and the five argument arrays
    what they held at launch. -/
theorem run_all : θ_run defs (onTc (τ := τ) (main (F := F))) ⟨m, fun _ => 0, ρ⟩ (fun r => ∀ c : Dev nD,
      r.2.mem ((c.tc : Thread nD τ).loc main_v3) = (dat1 (C2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) admH (pdats m ρ) () cellOf_inj embL defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ RH c)) (Tₙ := TH m ρ)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M3 m ρ c b)
    (hfin := fun c s' => by
      iintro ⟨⟨Hh, -⟩, HSI⟩
      unfold StableHlo.held
      imodintro
      iapply (pointsTo_read_all (Pipeline.ucRefs τ sig) (fun b => (((c : Thread nD τ)).1, b)) (M3 m ρ c) s')
      isplitl [Hh] <;> iassumption)
    (hQ := fun s h c =>
      ⟨(h c _ (mem_ucH main_v3 (by decide))).trans (M3_arr m ρ c 3),
       (h c _ (mem_ucH main_arg0 (by decide))).trans (M3_main_arg0 m ρ c),
       (h c _ (mem_ucH main_arg1 (by decide))).trans (M3_main_arg1 m ρ c),
       (h c _ (mem_ucH main_arg2 (by decide))).trans (M3_main_arg2 m ρ c),
       (h c _ (mem_ucH main_arg3 (by decide))).trans (M3_main_arg3 m ρ c),
       (h c _ (mem_ucH main_arg4 (by decide))).trans (M3_main_arg4 m ρ c)⟩)

end Cert.KernelIdeal.Hand

end
-- ==== Proof.WR0Body.lean ====
/-
  The input projection's kernel, one grid point per (batch entry, head).

  At a point the body reads three blocks — the batch entry's 2048 rows of X, the head's 256 rows of W_in and the
  head's 256 bias entries — and writes the head's projected block [2048, 256] with ONE store that covers it: the
  product of the rows with the transposed weight rows plus the bias row, the skeleton's one payload of the three
  loaded blocks. (It also loads the output buffer once and drops the value, so the buffer has to be held at some
  contents when the body starts.) Nothing is kept between points: what the body leaves in the output buffer is a
  function of the three input blocks alone.

  Everything is stated at a parameter V, the buffers' contents when this region is entered, and for any float
  instance F.
-/
import proofs.«100586_j44555990728728_1_alg».proof.Proof.Gen.Kernel.Launch
import proofs.«100586_j44555990728728_1_alg».proof.Proof.Gen.Kernel.Skeleton
import proofs.«100586_j44555990728728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks the body is handed -/

/-- Window w's block at point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there
    or kept it from the point before (the rows of X change only with the batch entry): for any proof data whose array
    is V's and whose body leaves the block where it is. One statement per input window. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body on any staging memrefs -/

/-- One staging buffer of the output window, through which its contents are stated (any would do). -/
abbrev VO0_3 : View sig .tc .vmem S1x1x2048x256 .f32 := (Memref.whole cc0_stg3_0 : Memref sig .tc .vmem S1x1x2048x256 .f32).view
/-- Each window's current staging memref at point t, as the pipeline passes it, and that it is a whole buffer. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048x256 .f32 := win0_3.stage (cfg0.slots t 3)
abbrev hs0_3 (t : Fin cfg0.N) : (ms0_3 t).IsWhole := hstage0_3 ((cfg0.slots t 3).cast nbuf0_3)

set_option maxHeartbeats 1000000 in
/-- The body's store into the output buffer, as a list of pieces, together with the body's triple: on whole staging
    memrefs, the three inputs at contents x0 x1 x2 and the output at anything, the body runs to the continuation with
    the inputs as they were and the output buffer overwritten by those pieces. The pieces are found when the run
    hands the buffer to the continuation. -/
noncomputable def kernelRun0 (c : Dev nD) (i : grid0.Coords)
    (arg2 : Memref sig .tc .vmem S1x2048x1024 .f32) (harg2 : arg2.IsWhole) (arg3 : Memref sig .tc .vmem S256x1024 .f32) (harg3 : arg3.IsWhole)
    (arg4 : Memref sig .tc .vmem S1x1x256 .f32) (harg4 : arg4.IsWhole) (arg5 : Memref sig .tc .vmem S1x1x2048x256 .f32) (harg5 : arg5.IsWhole)
    (x0 : Vec F S1x2048x1024 .f32) (x1 : Vec F S256x1024 .f32) (x2 : Vec F S1x1x256 .f32) :
    { L3 : List (View.Piece (Elt F) S1x1x2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0_proj_kernel i arg2 harg2 arg3 harg3 arg4 harg4 arg5 harg5) K } := by
  refine ⟨?_, fun E K => ?run⟩
  case run =>
    simp only [cc0_proj_kernel_eq_skeleton]; unfold cc0_proj_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The store's one piece is the whole block, so the pieces cover the block. -/
theorem cover0_3 (c : Dev nD) (i : grid0.Coords)
    (arg2 : Memref sig .tc .vmem S1x2048x1024 .f32) (harg2 : arg2.IsWhole) (arg3 : Memref sig .tc .vmem S256x1024 .f32) (harg3 : arg3.IsWhole)
    (arg4 : Memref sig .tc .vmem S1x1x256 .f32) (harg4 : arg4.IsWhole) (arg5 : Memref sig .tc .vmem S1x1x2048x256 .f32) (harg5 : arg5.IsWhole)
    (x0 : Vec F S1x2048x1024 .f32) (x1 : Vec F S256x1024 .f32) (x2 : Vec F S1x1x256 .f32) (y : S1x1x2048x256.Idx) :
    ∃ pc ∈ (kernelRun0 c i arg2 harg2 arg3 harg3 arg4 harg4 arg5 harg5 x0 x1 x2).1, y ∈ pc.1.set :=
  View.cover_of_tiledL (kernelRun0 c i arg2 harg2 arg3 harg3 arg4 harg4 arg5 harg5 x0 x1 x2).1 S1x1x2048x256.size (by sl_kernel_rfl) y

/-- What the body leaves in the output buffer: the pieces read back (over contents that do not matter, the pieces
    covering the block). -/
def out0_3 (c : Dev nD) (i : grid0.Coords)
    (arg2 : Memref sig .tc .vmem S1x2048x1024 .f32) (harg2 : arg2.IsWhole) (arg3 : Memref sig .tc .vmem S256x1024 .f32) (harg3 : arg3.IsWhole)
    (arg4 : Memref sig .tc .vmem S1x1x256 .f32) (harg4 : arg4.IsWhole) (arg5 : Memref sig .tc .vmem S1x1x2048x256 .f32) (harg5 : arg5.IsWhole)
    (x0 : Vec F S1x2048x1024 .f32) (x1 : Vec F S256x1024 .f32) (x2 : Vec F S1x1x256 .f32) : Vec F S1x1x2048x256 .f32 :=
  VO0_3.read (Elt F) (VO0_3.writes (Elt F) VO0_3.junk (kernelRun0 c i arg2 harg2 arg3 harg3 arg4 harg4 arg5 harg5 x0 x1 x2).1)

/-- The output buffer after the body at point t: the run at the point's memrefs and input blocks. -/
def outAt0 (c : Dev nD) (t : Fin cfg0.N) : Vec F S1x1x2048x256 .f32 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-! ## The proof data of the pipeline and the body obligation -/

/-- The arrays as the region finds them; after the body each input buffer still at its block and the output buffer
    at outAt0; the invariant is the scoped rest and the generator register, which the body does not touch; nothing
    owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' buffers hold their blocks, the output's holds something, so the run applies;
    the invariant and the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WR1Runs.lean ====
/- The attention kernel of the second launch, on its grid of 2 batches × 16 heads: what its three cases share.
   The kernel accumulates the heads' contributions to the output projection in its output block: at head 0 the
   block is first cleared, at every head each row tile is read, the head's contribution added and the tile put
   back, and at head 15 the bias is added to the whole block. Here: the two tests on the head coordinate, in
   closed form over the grid, and the memrefs the body is handed at a point. -/
import proofs.«100586_j44555990728728_1_alg».proof.Proof.Gen.Kernel.Launch
import proofs.«100586_j44555990728728_1_alg».proof.Proof.Gen.Kernel.Skeleton
import proofs.«100586_j44555990728728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two tests on the head coordinate -/

/-- "The head is the first one": the body's first conditional, under which the accumulator is cleared. -/
abbrev cond1_0 (i : grid1.Coords) : Prop :=
  (Scalar.cmpi .ne (Scalar.extui (Scalar.cmpi .eq (BitVec.ofNat 32 (i 1).val) 0#32)) 0#32) = 1#1

/-- "The head is the last one": the body's second conditional, under which the bias is added. -/
abbrev cond1_1 (i : grid1.Coords) : Prop :=
  (Scalar.cmpi .ne (Scalar.extui (Scalar.cmpi .eq (BitVec.ofNat 32 (i 1).val) 15#32)) 0#32) = 1#1

/-- The points are numbered batch-major, so the head of point `t` is `t mod 16`: the first test holds exactly
    at the multiples of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second test holds exactly at the points whose number is 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## The memrefs the body is handed at a point -/

abbrev ms1_0 (t : Fin cfg1.N) : Memref sig .tc .vmem S1x1x2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x1024 .f32 := win1_3.stage (cfg1.slots t 3)
abbrev hs1_3 (t : Fin cfg1.N) : (ms1_3 t).IsWhole := hstage1_3 ((cfg1.slots t 3).cast nbuf1_3)

end Cert.Kernel.Hand

end
-- ==== Proof.WR1RunA.lean ====
/- The attention kernel at a point of head 0: the accumulator is cleared before the row tiles are updated, so what
   the output block held before does not matter. -/
import proofs.«100586_j44555990728728_1_alg».proof.Proof.WR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- HEAD 0. On whole memrefs — the three inputs at `x0`, `x1`, `x2`, the output block at anything — the body runs
    to a state with the inputs as they were and the output block at contents `g`, the witness: the cleared block
    with each of its eight row tiles replaced by the tile plus the head's contribution. The output memref is
    held whole, so that the tile stores through its squeezed view are plain writes into its one buffer; `g` is
    that buffer read back through the memref's view, found when the run's last state is handed over. -/
noncomputable def kernelRun1_A (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : cond1_0 i) (hc1 : ¬cond1_1 i)
    (x0 : Vec F S1x1x2048x256 .f32) (x1 : Vec F S64x1024 .f32) (x2 : Vec F S1024 .f32) :
    { g : Vec F S1x2048x1024 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ owns (c : Thread nD τ) arg5 fullShare g) -∗ K ⟨⟩))
          ⊢ wp frame (wpE (defs₀ (F := F)) Variants.none c none) E (cc1_attn_kernel i arg2 harg2 arg3 harg3 arg4 harg4 arg5 harg5) K } := by
  refine ⟨?_, fun E K => ?run⟩
  case run =>
    simp only [cc1_attn_kernel_eq_skeleton]; unfold cc1_attn_kernel_skel
    unfold owns
    rw [harg5.set_eq_univ]
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr
    swap; · iexact H3
    ipureintro; rfl

end Cert.Kernel.Hand

end
-- ==== Proof.WR1RunB.lean ====
/- The attention kernel at a point whose head is neither the first nor the last: the row tiles of the running
   sum are updated in place, nothing else. -/
import proofs.«100586_j44555990728728_1_alg».proof.Proof.WR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A MIDDLE HEAD. On whole memrefs — the inputs at `x0`, `x1`, `x2`, the output block at the running sum `xo3` —
    the body runs to a state with the inputs as they were and the output block at `g`, the witness: `xo3` with
    each of its eight row tiles replaced by the tile plus the head's contribution. -/
noncomputable def kernelRun1_B (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : ¬cond1_1 i)
    (x0 : Vec F S1x1x2048x256 .f32) (x1 : Vec F S64x1024 .f32) (x2 : Vec F S1024 .f32) (xo3 : Vec F S1x2048x1024 .f32) :
    { g : Vec F S1x2048x1024 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ owns (c : Thread nD τ) arg5 fullShare g) -∗ K ⟨⟩))
          ⊢ wp frame (wpE (defs₀ (F := F)) Variants.none c none) E (cc1_attn_kernel i arg2 harg2 arg3 harg3 arg4 harg4 arg5 harg5) K } := by
  refine ⟨?_, fun E K => ?run⟩
  case run =>
    simp only [cc1_attn_kernel_eq_skeleton]; unfold cc1_attn_kernel_skel
    unfold owns
    rw [harg5.set_eq_univ]
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr
    swap; · iexact H3
    ipureintro; rfl

end Cert.Kernel.Hand

end
-- ==== Proof.WR1RunC.lean ====
/- The attention kernel at a point of head 15: the row tiles of the running sum are updated, then the bias is added
   to the whole block, which is then the finished output block. -/
import proofs.«100586_j44555990728728_1_alg».proof.Proof.WR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- HEAD 15. On whole memrefs — the inputs at `x0`, `x1`, `x2`, the output block at the running sum `xo3` — the
    body runs to a state with the inputs as they were and the output block at `g`, the witness: `xo3` with each
    row tile replaced by the tile plus the head's contribution, and then the bias `x2` added along the rows. -/
noncomputable def kernelRun1_C (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : cond1_1 i)
    (x0 : Vec F S1x1x2048x256 .f32) (x1 : Vec F S64x1024 .f32) (x2 : Vec F S1024 .f32) (xo3 : Vec F S1x2048x1024 .f32) :
    { g : Vec F S1x2048x1024 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ owns (c : Thread nD τ) arg5 fullShare g) -∗ K ⟨⟩))
          ⊢ wp frame (wpE (defs₀ (F := F)) Variants.none c none) E (cc1_attn_kernel i arg2 harg2 arg3 harg3 arg4 harg4 arg5 harg5) K } := by
  refine ⟨?_, fun E K => ?run⟩
  case run =>
    simp only [cc1_attn_kernel_eq_skeleton]; unfold cc1_attn_kernel_skel
    unfold owns
    rw [harg5.set_eq_univ]
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr
    swap; · iexact H3
    ipureintro; rfl

end Cert.Kernel.Hand

end
-- ==== Proof.WR1Body.lean ====
/- The attention kernel's half of the second launch: what its output block holds after every point, the launch's
   proof data at the buffer contents `V` the launch starts from, and the obligation of the kernel's body.
   The output block is a running sum over the 16 heads of a batch: cleared at head 0, every head adds its
   contribution tile by tile, head 15 then adds the bias; the block is copied out after head 15 only, so between
   two heads of a batch the staging buffer keeps what the head before left in it. -/
import proofs.«100586_j44555990728728_1_alg».proof.Proof.WR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- what the TensorCore's buffers hold when the second launch starts: everything below is stated at it
variable (V : (c : Dev nD) → (b : Ref sig .tc) → Buf (Elt F) ((c : Thread nD τ).loc b))

/-! ## The windows' blocks -/

/-- The block of window `w` that belongs to point `t`, cut out of the window's array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the point's block whenever the body is called, whether the block was copied in
    just now or is still there from an earlier point (then the block's index has not moved; for the bias it never
    moves): for any proof data over `V`'s arrays whose body leaves the inputs alone. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block -/

/-- Head 0: the cleared block with the head's contribution added, tile by tile. -/
def out1_A_3 (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : cond1_0 i) (hc1 : ¬cond1_1 i)
    (x0 : Vec F S1x1x2048x256 .f32) (x1 : Vec F S64x1024 .f32) (x2 : Vec F S1024 .f32) : Vec F S1x2048x1024 .f32 :=
  (kernelRun1_A c i arg2 harg2 arg3 harg3 arg4 harg4 arg5 harg5 hc0 hc1 x0 x1 x2).1

/-- A middle head: the running sum `xo3` with the head's contribution added, tile by tile. -/
def out1_B_3 (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : ¬cond1_1 i)
    (x0 : Vec F S1x1x2048x256 .f32) (x1 : Vec F S64x1024 .f32) (x2 : Vec F S1024 .f32) (xo3 : Vec F S1x2048x1024 .f32) : Vec F S1x2048x1024 .f32 :=
  (kernelRun1_B c i arg2 harg2 arg3 harg3 arg4 harg4 arg5 harg5 hc0 hc1 x0 x1 x2 xo3).1

/-- Head 15: the running sum `xo3` with the head's contribution added, and then the bias. -/
def out1_C_3 (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : cond1_1 i)
    (x0 : Vec F S1x1x2048x256 .f32) (x1 : Vec F S64x1024 .f32) (x2 : Vec F S1024 .f32) (xo3 : Vec F S1x2048x1024 .f32) : Vec F S1x2048x1024 .f32 :=
  (kernelRun1_C c i arg2 harg2 arg3 harg3 arg4 harg4 arg5 harg5 hc0 hc1 x0 x1 x2 xo3).1

/-! ## The running sum, point by point -/

theorem ne15_of_mod0 {n : ℕ} (h : n % 16 = 0) : ¬n % 16 = 15 := by omega
theorem ne0_of_mod15 {n : ℕ} (h : n % 16 = 15) : ¬n % 16 = 0 := by omega

/-- What the output's staging buffer holds after the body at point `n`: at a head 0 the fresh sum of that head;
    at any other head the sum the point before left, with this head added — and the bias too at head 15. -/
def outsAt1 (c : Dev nD) : (n : ℕ) → n < cfg1.N → Vec F S1x2048x1024 .f32
  | 0, hn =>
    out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩)
      ((hcond1_0 ⟨0, hn⟩).mpr (Nat.zero_mod _)) (fun h => ne15_of_mod0 (Nat.zero_mod _) ((hcond1_1 ⟨0, hn⟩).mp h))
      (iblk1 V c 0 ⟨0, hn⟩) (iblk1 V c 1 ⟨0, hn⟩) (iblk1 V c 2 ⟨0, hn⟩)
  | n + 1, hn =>
    if h0 : (n + 1) % 16 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        ((hcond1_0 ⟨n + 1, hn⟩).mpr h0) (fun h => ne15_of_mod0 h0 ((hcond1_1 ⟨n + 1, hn⟩).mp h))
        (iblk1 V c 0 ⟨n + 1, hn⟩) (iblk1 V c 1 ⟨n + 1, hn⟩) (iblk1 V c 2 ⟨n + 1, hn⟩)
    else if h1 : (n + 1) % 16 = 15 then
      out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (fun h => h0 ((hcond1_0 ⟨n + 1, hn⟩).mp h)) ((hcond1_1 ⟨n + 1, hn⟩).mpr h1)
        (iblk1 V c 0 ⟨n + 1, hn⟩) (iblk1 V c 1 ⟨n + 1, hn⟩) (iblk1 V c 2 ⟨n + 1, hn⟩) (outsAt1 c n (Nat.lt_of_succ_lt hn))
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (fun h => h0 ((hcond1_0 ⟨n + 1, hn⟩).mp h)) (fun h => h1 ((hcond1_1 ⟨n + 1, hn⟩).mp h))
        (iblk1 V c 0 ⟨n + 1, hn⟩) (iblk1 V c 1 ⟨n + 1, hn⟩) (iblk1 V c 2 ⟨n + 1, hn⟩) (outsAt1 c n (Nat.lt_of_succ_lt hn))

/-- At a point of head 0. -/
theorem outsAt1_A (c : Dev nD) (t : Fin cfg1.N) (h0 : t.val % 16 = 0) :
    outsAt1 V c t.val t.isLt = out1_A_3 c (grid1.coords t) (ms1_0 t) (hs1_0 t) (ms1_1 t) (hs1_1 t) (ms1_2 t) (hs1_2 t) (ms1_3 t) (hs1_3 t)
      ((hcond1_0 t).mpr h0) (fun h => ne15_of_mod0 h0 ((hcond1_1 t).mp h)) (iblk1 V c 0 t) (iblk1 V c 1 t) (iblk1 V c 2 t) := by
  obtain ⟨n, hn⟩ := t
  cases n with
  | zero => exact rfl
  | succ n => exact (dif_pos h0).trans rfl

/-- At a point of a middle head: over what the point before left. -/
theorem outsAt1_B (c : Dev nD) (t : Fin cfg1.N) (h0 : ¬t.val % 16 = 0) (h1 : ¬t.val % 16 = 15) :
    outsAt1 V c t.val t.isLt = out1_B_3 c (grid1.coords t) (ms1_0 t) (hs1_0 t) (ms1_1 t) (hs1_1 t) (ms1_2 t) (hs1_2 t) (ms1_3 t) (hs1_3 t)
      (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd (Nat.zero_mod _) h0
  | succ n => exact ((dif_neg h0).trans (dif_neg h1)).trans rfl

/-- At a point of head 15: over what the point before left. -/
theorem outsAt1_C (c : Dev nD) (t : Fin cfg1.N) (h1 : t.val % 16 = 15) :
    outsAt1 V c t.val t.isLt = out1_C_3 c (grid1.coords t) (ms1_0 t) (hs1_0 t) (ms1_1 t) (hs1_1 t) (ms1_2 t) (hs1_2 t) (ms1_3 t) (hs1_3 t)
      (fun h => ne0_of_mod15 h1 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd (Nat.zero_mod 16) (ne0_of_mod15 h1)
  | succ n => exact ((dif_neg (ne0_of_mod15 h1)).trans (dif_pos h1)).trans rfl

/-! ## The launch's proof data -/

/-- The second launch's proof data on core `c`: its arrays as the launch finds them; after the body at point `t`
    the inputs' buffers still at their blocks and the output's at the running sum; the invariant carries what the
    body never touches; the core owes nothing and holds everything in full. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Between two heads of one batch the output block is not copied out (that happens after head 15 only), so at a
    point that is not a head 0 the staging buffer still holds the running sum the point before left. -/
theorem before1_3_kept (c : Dev nD) (t : Fin cfg1.N) (h0 : ¬t.val % 16 = 0) (d) :
    (dat1 V c).before 3 t d = (outsAt1 V c (t.val - 1) (Nat.lt_of_le_of_lt (Nat.sub_le _ _) t.isLt)) := by
  have hN : t.val < 32 := lt_of_lt_of_eq t.isLt (show cfg1.N = 32 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body's obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
/-- The body at any point. The inputs' buffers hold the point's blocks; the point's number modulo 16 says which of
    the three cases it is; off head 0 the output's buffer holds the running sum of the point before; so that
    case's run applies, and it ends with the buffers at what the proof data says. The invariant and the (empty)
    debt go through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 16 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (fun h => ne15_of_mod0 h0 ((hcond1_1 t).mp h)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · by_cases h1 : t.val % 16 = 15
    · rw [outsAt1_C V c t h1]
      simp only [before1_3_kept V c t h0]
      unfold out1_C_3
      iintro ⟨HΦ, Ho, ⟨%d0, H0⟩, ⟨%d1, H1⟩, ⟨%d2, H2⟩, ⟨%d3, H3⟩⟩
      iapply ((kernelRun1_C c (grid1.coords t) _ _ _ _ _ _ _ _ (fun h => ne0_of_mod15 h1 ((hcond1_0 t).mp h)) ((hcond1_1 t).mpr h1) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt1_B V c t h0 h1]
      simp only [before1_3_kept V c t h0]
      unfold out1_B_3
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) (fun h => h1 ((hcond1_1 t).mp h)) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The obligation the launch theorem asks of the body, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.WRun.lean ====
/-
  The whole program's run: @main is a stretch of two host operations (the bias vector recast per head, the output
  weight transposed), then the projection kernel's region, then the attention kernel's region.

  What each TensorCore's buffers hold between these three items is a fold from the launch memory: after the host
  stretch the two host results are written; after a region its windows' arrays hold what the pipeline's
  write-backs leave (an input's array unchanged, the output's array the blocks written back) and every other
  buffer is as it was. Each region is entered from that fold's contents and leaves the next; the thread state
  between items is "every unscoped buffer whole at the fold's contents, the generator register at some state,
  nothing owed". The run ends with every unscoped buffer at the last contents, from which both the frame (the five
  argument arrays end as launched: no item writes one) and the result array's contents are read.
  Stated for any float instance F.
-/
import proofs.«100586_j44555990728728_1_alg».proof.Proof.WR0Body
import proofs.«100586_j44555990728728_1_alg».proof.Proof.WR1Body
import proofs.«100586_j44555990728728_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between the items -/

/-- At launch. -/
abbrev M0 : Dev nD → Valuation τ sig (Elt F) := fun c b => (s₀ m ρ).mem ((c : Dev nD), b)
/-- After the host stretch: the projection region's entry. -/
abbrev M1 : Dev nD → Valuation τ sig (Elt F) := fun c => StableHlo.after hostOps0 (M0 m ρ c)
/-- The same at the TensorCore's references: what the projection region's proof data are stated at. -/
abbrev C1 : (c : Dev nD) → (b : Ref sig .tc) → Buf (Elt F) ((c : Thread nD τ).loc b) := fun c b => M1 m ρ c b
/-- After the projection region: its arrays at what its write-backs leave, the rest untouched. The attention
    region's entry. -/
def M2 (c : Dev nD) : Valuation τ sig (Elt F) :=
  Pipeline.withArrays spec0 c (M1 m ρ c) fun w => (dat0 (C1 m ρ) c).arrAt w cfg0.N
theorem M2_arr (c : Dev nD) (w : Fin cfg0.W) :
    M2 m ρ c (Proc.devRef .tc (Pipeline.arrRef spec0 w)) = (dat0 (C1 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
abbrev C2 : (c : Dev nD) → (b : Ref sig .tc) → Buf (Elt F) ((c : Thread nD τ).loc b) := fun c b => M2 m ρ c b
theorem exit0_arr (c : Dev nD) (w : Fin cfg0.W) : (dat0 (C1 m ρ) c).arrAt w cfg0.N = C2 m ρ c (Pipeline.arrRef spec0 w) :=
  (M2_arr m ρ c w).symm
theorem exit0_rest (c : Dev nD) : ∀ b, b ∉ Finset.univ.image (Pipeline.arrRef spec0) → C2 m ρ c b = C1 m ρ c b :=
  fun b hb => M2_of_ne m ρ c b fun w e => hb (Finset.mem_image.mpr ⟨w, Finset.mem_univ _, e⟩)

/-- After the attention region: the end. -/
def M3 (c : Dev nD) : Valuation τ sig (Elt F) :=
  Pipeline.withArrays spec1 c (M2 m ρ c) fun w => (dat1 (C2 m ρ) c).arrAt w cfg1.N
theorem M3_arr (c : Dev nD) (w : Fin cfg1.W) :
    M3 m ρ c (Proc.devRef .tc (Pipeline.arrRef spec1 w)) = (dat1 (C2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
abbrev C3 : (c : Dev nD) → (b : Ref sig .tc) → Buf (Elt F) ((c : Thread nD τ).loc b) := fun c b => M3 m ρ c b
theorem exit1_arr (c : Dev nD) (w : Fin cfg1.W) : (dat1 (C2 m ρ) c).arrAt w cfg1.N = C3 m ρ c (Pipeline.arrRef spec1 w) :=
  (M3_arr m ρ c w).symm
theorem exit1_rest (c : Dev nD) : ∀ b, b ∉ Finset.univ.image (Pipeline.arrRef spec1) → C3 m ρ c b = C2 m ρ c b :=
  fun b hb => M3_of_ne m ρ c b fun w e => hb (Finset.mem_image.mpr ⟨w, Finset.mem_univ _, e⟩)

/-- The host stretch writes only its two results. -/
theorem M1_of (c : Dev nD) (r : Ref sig .tc) (h : r ∉ hostOps0_W) : M1 m ρ c (Proc.devRef .tc r) = M0 m ρ c (Proc.devRef .tc r) :=
  StableHlo.after_of_writes_sub hostOps0 _ hostOps0_writes h

/-! ### The argument arrays end as launched -/

/-- X is the projection region's first window, an input: its array is unchanged by the region, untouched by the
    attention region and by the host stretch. -/
theorem M3_main_arg0 (c : Dev nD) : M3 m ρ c (Proc.devRef .tc main_arg0) = m ((c : Thread nD τ).loc main_arg0) :=
  calc M3 m ρ c (Proc.devRef .tc main_arg0)
    _ = M2 m ρ c (Proc.devRef .tc main_arg0) := M3_of_ne m ρ c main_arg0 (by decide)
    _ = M1 m ρ c (Proc.devRef .tc main_arg0) := (M2_arr m ρ c 0).trans (((dat0 (C1 m ρ) c).arrAt_in 0 rfl _).trans (A_eq0 (C1 m ρ) c 0))
    _ = M0 m ρ c (Proc.devRef .tc main_arg0) := M1_of m ρ c main_arg0 (by decide)
    _ = m ((c : Thread nD τ).loc main_arg0) := rfl
/-- W_in is the projection region's second window, an input. -/
theorem M3_main_arg1 (c : Dev nD) : M3 m ρ c (Proc.devRef .tc main_arg1) = m ((c : Thread nD τ).loc main_arg1) :=
  calc M3 m ρ c (Proc.devRef .tc main_arg1)
    _ = M2 m ρ c (Proc.devRef .tc main_arg1) := M3_of_ne m ρ c main_arg1 (by decide)
    _ = M1 m ρ c (Proc.devRef .tc main_arg1) := (M2_arr m ρ c 1).trans (((dat0 (C1 m ρ) c).arrAt_in 1 rfl _).trans (A_eq0 (C1 m ρ) c 1))
    _ = M0 m ρ c (Proc.devRef .tc main_arg1) := M1_of m ρ c main_arg1 (by decide)
    _ = m ((c : Thread nD τ).loc main_arg1) := rfl
/-- b_in is read by the host stretch only; no window stages it. -/
theorem M3_main_arg2 (c : Dev nD) : M3 m ρ c (Proc.devRef .tc main_arg2) = m ((c : Thread nD τ).loc main_arg2) :=
  calc M3 m ρ c (Proc.devRef .tc main_arg2)
    _ = M2 m ρ c (Proc.devRef .tc main_arg2) := M3_of_ne m ρ c main_arg2 (by decide)
    _ = M1 m ρ c (Proc.devRef .tc main_arg2) := M2_of_ne m ρ c main_arg2 (by decide)
    _ = M0 m ρ c (Proc.devRef .tc main_arg2) := M1_of m ρ c main_arg2 (by decide)
    _ = m ((c : Thread nD τ).loc main_arg2) := rfl
/-- W_out is read by the host stretch only. -/
theorem M3_main_arg3 (c : Dev nD) : M3 m ρ c (Proc.devRef .tc main_arg3) = m ((c : Thread nD τ).loc main_arg3) :=
  calc M3 m ρ c (Proc.devRef .tc main_arg3)
    _ = M2 m ρ c (Proc.devRef .tc main_arg3) := M3_of_ne m ρ c main_arg3 (by decide)
    _ = M1 m ρ c (Proc.devRef .tc main_arg3) := M2_of_ne m ρ c main_arg3 (by decide)
    _ = M0 m ρ c (Proc.devRef .tc main_arg3) := M1_of m ρ c main_arg3 (by decide)
    _ = m ((c : Thread nD τ).loc main_arg3) := rfl
/-- b_out is the attention region's third window, an input. -/
theorem M3_main_arg4 (c : Dev nD) : M3 m ρ c (Proc.devRef .tc main_arg4) = m ((c : Thread nD τ).loc main_arg4) :=
  calc M3 m ρ c (Proc.devRef .tc main_arg4)
    _ = M2 m ρ c (Proc.devRef .tc main_arg4) := (M3_arr m ρ c 2).trans (((dat1 (C2 m ρ) c).arrAt_in 2 rfl _).trans (A_eq1 (C2 m ρ) c 2))
    _ = M1 m ρ c (Proc.devRef .tc main_arg4) := M2_of_ne m ρ c main_arg4 (by decide)
    _ = M0 m ρ c (Proc.devRef .tc main_arg4) := M1_of m ρ c main_arg4 (by decide)
    _ = m ((c : Thread nD τ).loc main_arg4) := rfl

/-! ## The proof data family and the thread state -/

/-- No pallas_call has a prefetched table. -/
abbrev admH : (p : Fin 2) → (pcfgs (F := F) p).Adm := fun p => (cfgs p).toPCfg_adm
/-- Each pipeline's proof data at its region's entry contents, a literal match on the pipeline. -/
def pdats : (p : Fin 2) → (c : Dev nD) → Dat τ (Elt F) Unit ℕ (Pipeline.UD sig nD τ) ℕ (Pipeline.pin (pcfgs (F := F)) admH p) c
  | ⟨0, _⟩ => fun c => dat0 (C1 m ρ) c
  | ⟨1, _⟩ => fun c => dat1 (C2 m ρ) c
abbrev 𝒱H : Variants := Variants.none
/-- No core owes another anything. -/
abbrev LH : GSem nD τ sig → Finset Unit := fun _ => ∅
abbrev lvH : GSem nD τ sig → Unit → ℕ := fun _ _ => 0
/-- What rides beside the buffers: the generator register at some state, and nothing owed. -/
abbrev RH (c : Dev nD) : sProp 𝕄 := iprop((∃ r, prngReg c r) ∗ ∃ W, owes (c : Thread nD τ) (0 : CellTallies nD τ sig Unit) W)
/-- The host stretch as a segment over the unscoped buffers from contents W. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, less the dues. -/
abbrev TH (c : Dev nD) : sProp 𝕄 := iprop(StableHlo.held (c : Thread nD τ) (Pipeline.ucRefs τ sig) (M3 m ρ c) ∗ ∃ r, prngReg c r)

/-! ## The two regions as segments -/

set_option backward.isDefEq.respectTransparency.types false in
/-- The projection region: entered with every unscoped buffer at M1, left at M2. Its windows' arrays are split out of
    the unscoped buffers and put back at the exit contents; the generator register goes into the class invariant and
    comes back; the kernel has no semaphore of its own and owes nothing. -/
def regProj : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (C1 m ρ) c).loose
  hwaits := Pipeline.hwaits_of_owed_zero _ _ _ _ LH lvH 0 fun _ _ => rfl
  pre c := iprop(StableHlo.held (c : Thread nD τ) (Pipeline.ucRefs τ sig) (M1 m ρ c) ∗ RH c)
  post c := iprop(StableHlo.held (c : Thread nD τ) (Pipeline.ucRefs τ sig) (M2 m ρ c) ∗ RH c)
  X c := iprop(∃ r, prngReg c r)
  Y c := iprop(∃ r, prngReg c r)
  Z c := Pipeline.unscopedRest (Ix := Unit) (Name := ℕ) (U := Pipeline.UD sig nD τ) (Lvl := ℕ) spec0 c (C1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m ρ) ((pdats m ρ 0 c).share_full fun _ => rfl)
      (C1 m ρ c) (C2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at M2, left at M3, the last contents. The same routing. -/
def regAttn : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (C2 m ρ) c).loose
  hwaits := Pipeline.hwaits_of_owed_zero _ _ _ _ LH lvH 1 fun _ _ => rfl
  pre c := iprop(StableHlo.held (c : Thread nD τ) (Pipeline.ucRefs τ sig) (M2 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (C2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (C2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m ρ) ((pdats m ρ 1 c).share_full fun _ => rfl)
      (C2 m ρ c) (C3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱H LH lvH) :=
  [ .host (hsegH hostOps0 hostOps0_sub hostOps0_fresh (M0 m ρ)),
    .region (regProj m ρ),
    .region (regAttn m ρ) ]
/-- @main is the run of the three segments. -/
theorem main_runH (c : Dev nD) : main (F := F) c = Pipeline.Seg.run (segsH m ρ) := (main_chain c).trans (by chain_rfl)

set_option backward.isDefEq.respectTransparency.types false in
/-- From any memory with zero counters every weakly fair execution of @main terminates, nothing faulting, and in the
    final memory the result array holds what the attention pipeline's write-backs leave, and the five argument arrays
    what they held at launch. -/
theorem run_all : θ_run defs (onTc (τ := τ) (main (F := F))) ⟨m, fun _ => 0, ρ⟩ (fun r => ∀ c : Dev nD,
      r.2.mem ((c.tc : Thread nD τ).loc main_v3) = (dat1 (C2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) admH (pdats m ρ) () cellOf_inj embL defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ RH c)) (Tₙ := TH m ρ)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M3 m ρ c b)
    (hfin := fun c s' => by
      iintro ⟨⟨Hh, -⟩, HSI⟩
      unfold StableHlo.held
      imodintro
      iapply (pointsTo_read_all (Pipeline.ucRefs τ sig) (fun b => (((c : Thread nD τ)).1, b)) (M3 m ρ c) s')
      isplitl [Hh] <;> iassumption)
    (hQ := fun s h c =>
      ⟨(h c _ (mem_ucH main_v3 (by decide))).trans (M3_arr m ρ c 3),
       (h c _ (mem_ucH main_arg0 (by decide))).trans (M3_main_arg0 m ρ c),
       (h c _ (mem_ucH main_arg1 (by decide))).trans (M3_main_arg1 m ρ c),
       (h c _ (mem_ucH main_arg2 (by decide))).trans (M3_main_arg2 m ρ c),
       (h c _ (mem_ucH main_arg3 (by decide))).trans (M3_main_arg3 m ρ c),
       (h c _ (mem_ucH main_arg4 (by decide))).trans (M3_main_arg4 m ρ c)⟩)

end Cert.Kernel.Hand

end
-- ==== Proof.Claims.lean ====
/-
  The frame claims and the idealization claim.

  Each kernel program's frame is its whole run with the result array's contents dropped: the run ends, nothing
  faults, and the five argument arrays hold what they held at launch, for the program read at the word level and
  at the extended reals alike (the same text, the same proof, two instances). The reference has no kernel: its
  frame is its run with the result dropped. The ideal pass rewrote no operation of the kernel program, so the
  idealization claim has no conjunct.
-/
import proofs.«100586_j44555990728728_1_alg».proof.Defs
import proofs.«100586_j44555990728728_1_alg».proof.Proof.Run
import proofs.«100586_j44555990728728_1_alg».proof.Proof.WRun
import proofs.«100586_j44555990728728_1_alg».proof.Proof.Gen.ReferenceIdeal.Run
import proofs.«100586_j44555990728728_1_alg».proof.Proof.Gen.Kernel
import proofs.«100586_j44555990728728_1_alg».proof.Proof.Gen.KernelIdeal
import proofs.«100586_j44555990728728_1_alg».proof.Proof.Gen.ReferenceIdeal
import proofs.«100586_j44555990728728_1_alg».proof.Proof.Gen.Pre_finite_inputs

noncomputable section

namespace Cert.Proof.Claims

open Idealize.ShloMosaic Idealize.ShloMosaic.TcCoe Idealize.SL.Sem

theorem frame_kernel : Cert.frame_Kernel := fun m ρ _ =>
  (θ_run Cert.Kernel.defs _ _).mono (fun _ h c => (h c).2) (Cert.Kernel.Hand.run_all (F := Bits) m ρ)

theorem frame_kernelIdeal : Cert.frame_KernelIdeal := fun m ρ _ =>
  (θ_run Cert.KernelIdeal.defs _ _).mono (fun _ h c => (h c).2) (Cert.KernelIdeal.Hand.run_all (F := Ideal) m ρ)

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.R1TileDefs.lean ====
/- The values the attention kernel stores into its output block, as functions of what it loaded — no memory in
   sight. The output block has 2048 rows; the kernel updates it in eight tiles of 256 rows: for tile k it
   computes, from the head's block `x0` (2048 rows; columns 0–63 the queries, 64–127 the keys, 128–191 the values,
   192–255 the gates) and the head's 64 rows `x1` of the transposed output projection, the contribution of this
   head to the rows of tile k, and adds it to those rows `vl` of the running sum. The eight terms differ only in
   which 256 rows of the queries and gates they slice out. -/
import proofs.«100586_j44555990728728_1_alg».proof.Proof.Gen.KernelIdeal.Skeleton

noncomputable section

namespace Cert.KernelIdeal.Hand

open Cert.KernelIdeal Cert.KernelIdeal.Gen
open Idealize.ShloMosaic

variable {F : FTy → Type} [FloatOps F]

/-! ## What every tile shares: the head's block and the projection rows, recast once -/

/-- The head's block without its two unit axes. -/
abbrev hd (x0 : Vec F S1x1x2048x256 .f32) : FVec F S2048x256 .f32 := k1_pay3 x0
/-- The keys (columns 64–127) and the values (columns 128–191) of the head, rounded to bf16. -/
abbrev hdK (x0 : Vec F S1x1x2048x256 .f32) : FVec F S2048x64 .bf16 := k1_pay5 x0
abbrev hdV (x0 : Vec F S1x1x2048x256 .f32) : FVec F S2048x64 .bf16 := k1_pay6 x0
/-- The keys' squared norms (the squares of columns 64–127 summed along each row), as one row of 2048. -/
abbrev hdK2 (x0 : Vec F S1x1x2048x256 .f32) : FVec F S1x2048 .f32 := k1_pay7 x0
/-- The head's rows of the transposed output projection, rounded to bf16. -/
abbrev wo (x1 : Vec F S64x1024 .f32) : FVec F S64x1024 .bf16 := k1_pay8 x1

/-! ## The eight tiles -/

/-- Rows 0–255: the sum's rows `vl` plus this head's contribution to them. (For this first tile the skeleton
    hands the tile's intermediate values over as terms of the loaded block itself, for the later ones as terms of
    its recast `hd x0`.) -/
def tile0 (x0 : Vec F S1x1x2048x256 .f32) (x1 : Vec F S64x1024 .f32) (vl : Vec F S256x1024 .f32) : FVec F S256x1024 .f32 :=
  k1_pay13 (hdV x0) (wo x1) (k1_pay10 x0) (k1_pay11 x0) (k1_pay12 x0) (Scalar.ofBits .f32 0x38D1B717#32) vl

/-- Rows 256–511. -/
def tile1 (x0 : Vec F S1x1x2048x256 .f32) (x1 : Vec F S64x1024 .f32) (vl : Vec F S256x1024 .f32) : FVec F S256x1024 .f32 :=
  k1_pay17 (hdV x0) (wo x1) (k1_pay14 (hd x0)) (k1_pay15 (hd x0) (hdK x0) (hdK2 x0)) (k1_pay16 (hd x0) (hdK x0) (hdK2 x0)) vl

/-- Rows 512–767. -/
def tile2 (x0 : Vec F S1x1x2048x256 .f32) (x1 : Vec F S64x1024 .f32) (vl : Vec F S256x1024 .f32) : FVec F S256x1024 .f32 :=
  k1_pay20 (hdV x0) (wo x1) (k1_pay18 (hd x0)) (k1_pay19 (hd x0) (hdK x0) (hdK2 x0)) vl

/-- Rows 768–1023. -/
def tile3 (x0 : Vec F S1x1x2048x256 .f32) (x1 : Vec F S64x1024 .f32) (vl : Vec F S256x1024 .f32) : FVec F S256x1024 .f32 :=
  k1_pay23 (hdV x0) (wo x1) (k1_pay21 (hd x0)) (k1_pay22 (hd x0) (hdK x0) (hdK2 x0)) (Scalar.ofBits .f32 0x3F800000#32) vl

/-- Rows 1024–1279. -/
def tile4 (x0 : Vec F S1x1x2048x256 .f32) (x1 : Vec F S64x1024 .f32) (vl : Vec F S256x1024 .f32) : FVec F S256x1024 .f32 :=
  k1_pay26 (hdV x0) (wo x1) (k1_pay24 (hd x0)) (k1_pay25 (hd x0) (hdK x0) (hdK2 x0)) vl

/-- Rows 1280–1535. -/
def tile5 (x0 : Vec F S1x1x2048x256 .f32) (x1 : Vec F S64x1024 .f32) (vl : Vec F S256x1024 .f32) : FVec F S256x1024 .f32 :=
  k1_pay29 (hdV x0) (wo x1) (k1_pay27 (hd x0)) (k1_pay28 (hd x0) (hdK x0) (hdK2 x0)) (Scalar.ofBits .f32 0x38D1B717#32) vl

/-- Rows 1536–1791. -/
def tile6 (x0 : Vec F S1x1x2048x256 .f32) (x1 : Vec F S64x1024 .f32) (vl : Vec F S256x1024 .f32) : FVec F S256x1024 .f32 :=
  k1_pay32 (hdV x0) (wo x1) (k1_pay30 (hd x0)) (k1_pay31 (hd x0) (hdK x0) (hdK2 x0)) vl

/-- Rows 1792–2047. -/
def tile7 (x0 : Vec F S1x1x2048x256 .f32) (x1 : Vec F S64x1024 .f32) (vl : Vec F S256x1024 .f32) : FVec F S256x1024 .f32 :=
  k1_pay1 (hdV x0) (wo x1) (k1_pay33 (hd x0)) (k1_pay34 (hd x0) (hdK x0) (hdK2 x0)) (Scalar.ofBits .f32 0x00000000#32) vl

/-- The eight, by the tile's number. -/
def tile : Fin 8 → Vec F S1x1x2048x256 .f32 → Vec F S64x1024 .f32 → Vec F S256x1024 .f32 → FVec F S256x1024 .f32
  | 0 => tile0 | 1 => tile1 | 2 => tile2 | 3 => tile3 | 4 => tile4 | 5 => tile5 | 6 => tile6 | 7 => tile7
  | ⟨_ + 8, h⟩ => absurd h (Nat.not_lt.2 (Nat.le_add_left _ _))

/-! ## The whole-block values -/

/-- What head 0 first puts in the block: zeros. -/
def zerosBlk : FVec F S1x2048x1024 .f32 := k1_pay9

/-- What head 15 last puts in the block: the sum `v` with the bias `x2` added along the rows. -/
def biasBlk (v : Vec F S1x2048x1024 .f32) (x2 : Vec F S1024 .f32) : FVec F S1x2048x1024 .f32 := k1_pay2 v x2

end Cert.KernelIdeal.Hand

end
-- ==== Proof.R1Chain.lean ====
/- The attention kernel's runs, read as values: what each of the three cases leaves in the output block, as a
   function of what it loaded and nothing else. The block has one batch row, 2048 rows and 1024 columns; the kernel
   looks at it with the unit axis dropped and updates it in eight tiles of 256 rows, each tile read, added to and
   put back before the next is touched. So in the rows × columns picture the block after the eight updates is the
   block before with tile k replaced by `tile k` of the rows it held — the tiles being disjoint, each one is
   computed from the ORIGINAL rows. -/
import proofs.«100586_j44555990728728_1_alg».proof.Proof.R1Body
import proofs.«100586_j44555990728728_1_alg».proof.Proof.R1TileDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! ## Writing through a rectangle, read back -/

/-- A buffer read through a view after a store through one of the view's rectangles: the old reading, with the
    payload laid over the rectangle. -/
theorem read_slice_write_univ {sg : RefSig} {κ : Kind} {sp : Space} {s : Shape} {e : EltTy} {Val : EltTy → Type}
    (v : View sg κ sp s e) (r : Rect s) (f : v.ty.Contents Val) (w : r.shape.Idx → Val e) :
    v.read Val ((v.slice r).write Val f w Finset.univ) = r.overlay (v.read Val f) w := by
  funext y
  by_cases hy : y ∈ r.set
  · obtain ⟨x, rfl⟩ : ∃ x, r.emb x = y := r.exists_idx_of_mem hy
    rw [View.read_slice_write_emb r f w (Finset.mem_univ x), Rect.overlay_emb]
  · rw [View.read_slice_write_of_not_mem r f w _ (by rw [Rect.map_emb_univ]; exact hy), Rect.overlay_of_not_mem _ _ _ hy]

/-! ## The rows × columns picture -/

/-- The block without its unit axis. -/
abbrev sq3 (X : Vec F S1x2048x1024 .f32) : Vec F S2048x1024 .f32 :=
  shapeCast S2048x1024 X shapeCasts_S1x2048x1024_S2048x1024

/-- The output memref as the kernel looks at it for the tile updates: all of it, the unit axis dropped. -/
abbrev sqm (arg5 : Memref sig .tc .vmem S1x2048x1024 .f32) : Memref sig .tc .vmem S2048x1024 .f32 :=
  (arg5.slice (Rect.unit (s := S1x2048x1024) ![0, 0, 0] S1x2048x1024.size inb_S1x2048x1024_S1x2048x1024_0_0_0) (fun _ => rfl)).squeeze S2048x1024 squeezes_S1x2048x1024_S2048x1024

/-- The eight row tiles. -/
abbrev rt0 : Rect S2048x1024 := Rect.unit (s := S2048x1024) ![0, 0] S256x1024.size inb_S2048x1024_S256x1024_0_0
abbrev rt1 : Rect S2048x1024 := Rect.unit (s := S2048x1024) ![256, 0] S256x1024.size inb_S2048x1024_S256x1024_256_0
abbrev rt2 : Rect S2048x1024 := Rect.unit (s := S2048x1024) ![512, 0] S256x1024.size inb_S2048x1024_S256x1024_512_0
abbrev rt3 : Rect S2048x1024 := Rect.unit (s := S2048x1024) ![768, 0] S256x1024.size inb_S2048x1024_S256x1024_768_0
abbrev rt4 : Rect S2048x1024 := Rect.unit (s := S2048x1024) ![1024, 0] S256x1024.size inb_S2048x1024_S256x1024_1024_0
abbrev rt5 : Rect S2048x1024 := Rect.unit (s := S2048x1024) ![1280, 0] S256x1024.size inb_S2048x1024_S256x1024_1280_0
abbrev rt6 : Rect S2048x1024 := Rect.unit (s := S2048x1024) ![1536, 0] S256x1024.size inb_S2048x1024_S256x1024_1536_0
abbrev rt7 : Rect S2048x1024 := Rect.unit (s := S2048x1024) ![1792, 0] S256x1024.size inb_S2048x1024_S256x1024_1792_0

/-- A load through the rectangle that is the whole block reads the block. -/
theorem ld_whole3 (X : Vec F S1x2048x1024 .f32) : View.ld X (Rect.unit (s := S1x2048x1024) ![0, 0, 0] S1x2048x1024.size inb_S1x2048x1024_S1x2048x1024_0_0_0) = X :=
  View.ld_unit_zero (by funext a; fin_cases a <;> rfl) _ X
theorem ld_whole4 (X : Vec F S1x1x2048x256 .f32) : View.ld X (Rect.unit (s := S1x1x2048x256) ![0, 0, 0, 0] S1x1x2048x256.size inb_S1x1x2048x256_S1x1x2048x256_0_0_0_0) = X :=
  View.ld_unit_zero (by funext a; fin_cases a <;> rfl) _ X
theorem ld_whole2 (X : Vec F S64x1024 .f32) : View.ld X (Rect.unit (s := S64x1024) ![0, 0] S64x1024.size inb_S64x1024_S64x1024_0_0) = X :=
  View.ld_unit_zero (by funext a; fin_cases a <;> rfl) _ X
theorem ld_whole1 (X : Vec F S1024 .f32) : View.ld X (Rect.unit (s := S1024) ![0] S1024.size inb_S1024_S1024_0) = X :=
  View.ld_unit_zero (by funext a; fin_cases a <;> rfl) _ X

/-- Reading the buffer through the squeezed memref is reading it through the memref and dropping the unit axis. -/
theorem sq3_read (arg5 : Memref sig .tc .vmem S1x2048x1024 .f32) (G : arg5.view.ty.Contents (Elt F)) :
    (sqm arg5).view.read (Elt F) G = sq3 (arg5.view.read (Elt F) G) := by
  show shapeCast S2048x1024 (View.ld (arg5.view.read (Elt F) G) (Rect.unit (s := S1x2048x1024) ![0, 0, 0] S1x2048x1024.size inb_S1x2048x1024_S1x2048x1024_0_0_0)) shapeCasts_S1x2048x1024_S2048x1024 = _
  rw [ld_whole3]

/-- A whole-block load of a whole memref held at contents `x` reads `x`. -/
theorem loaded4 (m : Memref sig .tc .vmem S1x1x2048x256 .f32) (hm : m.IsWhole) (x : Vec F S1x1x2048x256 .f32) :
    m.view.readAt (Elt F) (Rect.unit (s := S1x1x2048x256) ![0, 0, 0, 0] S1x1x2048x256.size inb_S1x1x2048x256_S1x1x2048x256_0_0_0_0).toLoadRect (hm.unread x) = x := by
  rw [View.readAt_eq_ld, hm.read_unread, ld_whole4]
theorem loaded2 (m : Memref sig .tc .vmem S64x1024 .f32) (hm : m.IsWhole) (x : Vec F S64x1024 .f32) :
    m.view.readAt (Elt F) (Rect.unit (s := S64x1024) ![0, 0] S64x1024.size inb_S64x1024_S64x1024_0_0).toLoadRect (hm.unread x) = x := by
  rw [View.readAt_eq_ld, hm.read_unread, ld_whole2]
theorem loaded1 (m : Memref sig .tc .vmem S1024 .f32) (hm : m.IsWhole) (x : Vec F S1024 .f32) :
    m.view.readAt (Elt F) (Rect.unit (s := S1024) ![0] S1024.size inb_S1024_S1024_0).toLoadRect (hm.unread x) = x := by
  rw [View.readAt_eq_ld, hm.read_unread, ld_whole1]

/-! ## One tile update, and the eight -/

/-- One tile update on the rows × columns picture: the rows under `r` replaced by `wf` of them. -/
def stepT (r : Rect S2048x1024) (wf : (r.shape.Idx → Elt F .f32) → (r.shape.Idx → Elt F .f32)) (Y : Vec F S2048x1024 .f32) :
    Vec F S2048x1024 .f32 :=
  r.overlay Y (wf (View.ld Y r))

/-- The same on the buffer: load the rows under `r` through the squeezed memref, store `wf` of them back. -/
def wstep (arg5 : Memref sig .tc .vmem S1x2048x1024 .f32) (r : Rect S2048x1024)
    (wf : (r.shape.Idx → Elt F .f32) → (r.shape.Idx → Elt F .f32)) (G : arg5.view.ty.Contents (Elt F)) : arg5.view.ty.Contents (Elt F) :=
  View.write (Elt F) ((sqm arg5).access r) G (wf ((sqm arg5).view.readAt (Elt F) r.toLoadRect G)) Finset.univ

theorem read_wstep (arg5 : Memref sig .tc .vmem S1x2048x1024 .f32) (r : Rect S2048x1024)
    (wf : (r.shape.Idx → Elt F .f32) → (r.shape.Idx → Elt F .f32)) (G : arg5.view.ty.Contents (Elt F)) :
    (sqm arg5).view.read (Elt F) (wstep arg5 r wf G) = stepT r wf ((sqm arg5).view.read (Elt F) G) :=
  read_slice_write_univ (sqm arg5).view r G _

/-- The eight tile updates of one head, first tile first, on the picture -/
def chainT (x0 : Vec F S1x1x2048x256 .f32) (x1 : Vec F S64x1024 .f32) (Y : Vec F S2048x1024 .f32) : Vec F S2048x1024 .f32 :=
  stepT rt7 (tile7 x0 x1) (stepT rt6 (tile6 x0 x1) (stepT rt5 (tile5 x0 x1) (stepT rt4 (tile4 x0 x1)
    (stepT rt3 (tile3 x0 x1) (stepT rt2 (tile2 x0 x1) (stepT rt1 (tile1 x0 x1) (stepT rt0 (tile0 x0 x1) Y)))))))

/-- and on the buffer. -/
def wchain (arg5 : Memref sig .tc .vmem S1x2048x1024 .f32) (x0 : Vec F S1x1x2048x256 .f32) (x1 : Vec F S64x1024 .f32)
    (G : arg5.view.ty.Contents (Elt F)) : arg5.view.ty.Contents (Elt F) :=
  wstep arg5 rt7 (tile7 x0 x1) (wstep arg5 rt6 (tile6 x0 x1) (wstep arg5 rt5 (tile5 x0 x1) (wstep arg5 rt4 (tile4 x0 x1)
    (wstep arg5 rt3 (tile3 x0 x1) (wstep arg5 rt2 (tile2 x0 x1) (wstep arg5 rt1 (tile1 x0 x1) (wstep arg5 rt0 (tile0 x0 x1) G)))))))

theorem read_wchain (arg5 : Memref sig .tc .vmem S1x2048x1024 .f32) (x0 : Vec F S1x1x2048x256 .f32) (x1 : Vec F S64x1024 .f32)
    (G : arg5.view.ty.Contents (Elt F)) :
    sq3 (arg5.view.read (Elt F) (wchain arg5 x0 x1 G)) = chainT x0 x1 (sq3 (arg5.view.read (Elt F) G)) := by
  rw [← sq3_read, ← sq3_read]
  unfold wchain chainT
  rw [read_wstep, read_wstep, read_wstep, read_wstep, read_wstep, read_wstep, read_wstep, read_wstep]

/-! ## The three runs, on the buffer and then as values -/

/-- A store of a whole block through the rectangle that is the whole shape leaves the block. -/
theorem overlay_unit_zero {S : Shape} {α : Type} {off : Fin S.rank → ℕ} (h : off = fun _ => 0)
    (inb : ∀ a, off a + S.size a ≤ S.size a) (X : S.Idx → α) (w : S.Idx → α) :
    (Rect.unit off S.size inb).overlay X w = w := by
  subst h; funext y
  have e := Rect.overlay_emb (Rect.whole S) X w y
  rw [Rect.emb_whole_apply] at e; exact e

/-- The block with its unit axis put back. -/
abbrev unsq3 (Y : Vec F S2048x1024 .f32) : Vec F S1x2048x1024 .f32 :=
  shapeCast S1x2048x1024 Y shapeCasts_S2048x1024_S1x2048x1024

theorem unsq3_sq3 (X : Vec F S1x2048x1024 .f32) : unsq3 (sq3 X) = X := shapeCast_shapeCast X _ _
theorem sq3_unsq3 (Y : Vec F S2048x1024 .f32) : sq3 (unsq3 Y) = Y := shapeCast_shapeCast Y _ _

/-- The block at (0, r, q) is the rows × columns picture at (r, q). -/
theorem sq3_apply (X : Vec F S1x2048x1024 .f32) (r : Fin 2048) (q : Fin 1024) :
    sq3 X (ix2 r q) = X (ix3 (0 : Fin 1) r q) := by
  unfold sq3
  rw [shapeCast_dropUnit_apply]
  congr 1
  funext a
  match a with
  | ⟨0, _⟩ => rfl
  | ⟨1, _⟩ => rfl
  | ⟨2, _⟩ => rfl

section Cases
variable (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
  (x0 : Vec F S1x1x2048x256 .f32) (x1 : Vec F S64x1024 .f32) (x2 : Vec F S1024 .f32)

/-- A MIDDLE HEAD, on the buffer: the run's last contents are the eight tile updates of the contents it found. -/
theorem run1_B_buf (xo3 : Vec F S1x2048x1024 .f32) :
    kernelRun1_B.sl.H3_w8 c arg2 harg2 arg3 harg3 arg5 harg5 x0 x1 xo3 = wchain arg5 x0 x1 (harg5.unread xo3) := by
  have e_r : kernelRun1_B.sl.r c arg2 harg2 x0 = hd x0 := by unfold kernelRun1_B.sl.r; rw [loaded4]
  have e_r_1 : kernelRun1_B.sl.r_1 c arg2 harg2 x0 = hdK x0 := by unfold kernelRun1_B.sl.r_1; rw [loaded4]
  have e_r_2 : kernelRun1_B.sl.r_2 c arg2 harg2 x0 = hdV x0 := by unfold kernelRun1_B.sl.r_2; rw [loaded4]
  have e_r_3 : kernelRun1_B.sl.r_3 c arg2 harg2 x0 = hdK2 x0 := by unfold kernelRun1_B.sl.r_3; rw [loaded4]
  have e_r_5 : kernelRun1_B.sl.r_5 c arg2 harg2 x0 = k1_pay10 x0 := by unfold kernelRun1_B.sl.r_5; rw [loaded4]
  have e_r_6 : kernelRun1_B.sl.r_6 c arg2 harg2 x0 = k1_pay11 x0 := by unfold kernelRun1_B.sl.r_6; rw [loaded4]
  have e_r_7 : kernelRun1_B.sl.r_7 c arg2 harg2 x0 = k1_pay12 x0 := by unfold kernelRun1_B.sl.r_7; rw [loaded4]
  have e_r_4 : kernelRun1_B.sl.r_4 c arg3 harg3 x1 = wo x1 := by unfold kernelRun1_B.sl.r_4; rw [loaded2]
  have e_r_8 : kernelRun1_B.sl.r_8 c arg2 harg2 x0 = k1_pay14 (hd x0) := by unfold kernelRun1_B.sl.r_8; rw [e_r]
  have e_r_11 : kernelRun1_B.sl.r_11 c arg2 harg2 x0 = k1_pay18 (hd x0) := by unfold kernelRun1_B.sl.r_11; rw [e_r]
  have e_r_13 : kernelRun1_B.sl.r_13 c arg2 harg2 x0 = k1_pay21 (hd x0) := by unfold kernelRun1_B.sl.r_13; rw [e_r]
  have e_r_15 : kernelRun1_B.sl.r_15 c arg2 harg2 x0 = k1_pay24 (hd x0) := by unfold kernelRun1_B.sl.r_15; rw [e_r]
  have e_r_17 : kernelRun1_B.sl.r_17 c arg2 harg2 x0 = k1_pay27 (hd x0) := by unfold kernelRun1_B.sl.r_17; rw [e_r]
  have e_r_19 : kernelRun1_B.sl.r_19 c arg2 harg2 x0 = k1_pay30 (hd x0) := by unfold kernelRun1_B.sl.r_19; rw [e_r]
  have e_r_21 : kernelRun1_B.sl.r_21 c arg2 harg2 x0 = k1_pay33 (hd x0) := by unfold kernelRun1_B.sl.r_21; rw [e_r]
  have e_r_9 : kernelRun1_B.sl.r_9 c arg2 harg2 x0 = k1_pay15 (hd x0) (hdK x0) (hdK2 x0) := by unfold kernelRun1_B.sl.r_9; rw [e_r, e_r_1, e_r_3]
  have e_r_10 : kernelRun1_B.sl.r_10 c arg2 harg2 x0 = k1_pay16 (hd x0) (hdK x0) (hdK2 x0) := by unfold kernelRun1_B.sl.r_10; rw [e_r, e_r_1, e_r_3]
  have e_r_12 : kernelRun1_B.sl.r_12 c arg2 harg2 x0 = k1_pay19 (hd x0) (hdK x0) (hdK2 x0) := by unfold kernelRun1_B.sl.r_12; rw [e_r, e_r_1, e_r_3]
  have e_r_14 : kernelRun1_B.sl.r_14 c arg2 harg2 x0 = k1_pay22 (hd x0) (hdK x0) (hdK2 x0) := by unfold kernelRun1_B.sl.r_14; rw [e_r, e_r_1, e_r_3]
  have e_r_16 : kernelRun1_B.sl.r_16 c arg2 harg2 x0 = k1_pay25 (hd x0) (hdK x0) (hdK2 x0) := by unfold kernelRun1_B.sl.r_16; rw [e_r, e_r_1, e_r_3]
  have e_r_18 : kernelRun1_B.sl.r_18 c arg2 harg2 x0 = k1_pay28 (hd x0) (hdK x0) (hdK2 x0) := by unfold kernelRun1_B.sl.r_18; rw [e_r, e_r_1, e_r_3]
  have e_r_20 : kernelRun1_B.sl.r_20 c arg2 harg2 x0 = k1_pay31 (hd x0) (hdK x0) (hdK2 x0) := by unfold kernelRun1_B.sl.r_20; rw [e_r, e_r_1, e_r_3]
  have e_r_22 : kernelRun1_B.sl.r_22 c arg2 harg2 x0 = k1_pay34 (hd x0) (hdK x0) (hdK2 x0) := by unfold kernelRun1_B.sl.r_22; rw [e_r, e_r_1, e_r_3]
  have h1 : kernelRun1_B.sl.H3_w1 c arg2 harg2 arg3 harg3 arg5 harg5 x0 x1 xo3 = wstep arg5 rt0 (tile0 x0 x1) (harg5.unread xo3) := by
    unfold kernelRun1_B.sl.H3_w1; rw [e_r_2, e_r_4, e_r_5, e_r_6, e_r_7]; rfl
  have h2 : kernelRun1_B.sl.H3_w2 c arg2 harg2 arg3 harg3 arg5 harg5 x0 x1 xo3 = wstep arg5 rt1 (tile1 x0 x1) (kernelRun1_B.sl.H3_w1 c arg2 harg2 arg3 harg3 arg5 harg5 x0 x1 xo3) := by
    unfold kernelRun1_B.sl.H3_w2; rw [e_r_2, e_r_4, e_r_8, e_r_9, e_r_10]; rfl
  have h3 : kernelRun1_B.sl.H3_w3 c arg2 harg2 arg3 harg3 arg5 harg5 x0 x1 xo3 = wstep arg5 rt2 (tile2 x0 x1) (kernelRun1_B.sl.H3_w2 c arg2 harg2 arg3 harg3 arg5 harg5 x0 x1 xo3) := by
    unfold kernelRun1_B.sl.H3_w3; rw [e_r_2, e_r_4, e_r_11, e_r_12]; rfl
  have h4 : kernelRun1_B.sl.H3_w4 c arg2 harg2 arg3 harg3 arg5 harg5 x0 x1 xo3 = wstep arg5 rt3 (tile3 x0 x1) (kernelRun1_B.sl.H3_w3 c arg2 harg2 arg3 harg3 arg5 harg5 x0 x1 xo3) := by
    unfold kernelRun1_B.sl.H3_w4; rw [e_r_2, e_r_4, e_r_13, e_r_14]; rfl
  have h5 : kernelRun1_B.sl.H3_w5 c arg2 harg2 arg3 harg3 arg5 harg5 x0 x1 xo3 = wstep arg5 rt4 (tile4 x0 x1) (kernelRun1_B.sl.H3_w4 c arg2 harg2 arg3 harg3 arg5 harg5 x0 x1 xo3) := by
    unfold kernelRun1_B.sl.H3_w5; rw [e_r_2, e_r_4, e_r_15, e_r_16]; rfl
  have h6 : kernelRun1_B.sl.H3_w6 c arg2 harg2 arg3 harg3 arg5 harg5 x0 x1 xo3 = wstep arg5 rt5 (tile5 x0 x1) (kernelRun1_B.sl.H3_w5 c arg2 harg2 arg3 harg3 arg5 harg5 x0 x1 xo3) := by
    unfold kernelRun1_B.sl.H3_w6; rw [e_r_2, e_r_4, e_r_17, e_r_18]; rfl
  have h7 : kernelRun1_B.sl.H3_w7 c arg2 harg2 arg3 harg3 arg5 harg5 x0 x1 xo3 = wstep arg5 rt6 (tile6 x0 x1) (kernelRun1_B.sl.H3_w6 c arg2 harg2 arg3 harg3 arg5 harg5 x0 x1 xo3) := by
    unfold kernelRun1_B.sl.H3_w7; rw [e_r_2, e_r_4, e_r_19, e_r_20]; rfl
  have h8 : kernelRun1_B.sl.H3_w8 c arg2 harg2 arg3 harg3 arg5 harg5 x0 x1 xo3 = wstep arg5 rt7 (tile7 x0 x1) (kernelRun1_B.sl.H3_w7 c arg2 harg2 arg3 harg3 arg5 harg5 x0 x1 xo3) := by
    unfold kernelRun1_B.sl.H3_w8; rw [e_r_2, e_r_4, e_r_21, e_r_22]; rfl
  unfold wchain
  rw [h8, h7, h6, h5, h4, h3, h2, h1]

/-- A MIDDLE HEAD, as a value: in the rows × columns picture the block it leaves is the eight tile updates of the
    block `xo3` it found. -/
theorem run1_B_sq (hc0 : ¬cond1_0 i) (hc1 : ¬cond1_1 i) (xo3 : Vec F S1x2048x1024 .f32) :
    sq3 (kernelRun1_B c i arg2 harg2 arg3 harg3 arg4 harg4 arg5 harg5 hc0 hc1 x0 x1 x2 xo3).1 = chainT x0 x1 (sq3 xo3) := by
  show sq3 (arg5.view.read (Elt F) (kernelRun1_B.sl.H3_w8 c arg2 harg2 arg3 harg3 arg5 harg5 x0 x1 xo3)) = _
  rw [run1_B_buf, read_wchain, harg5.read_unread]

/-- HEAD 0, on the buffer: the eight tile updates of the cleared block. -/
theorem run1_A_buf :
    kernelRun1_A.sl.H3_w8 c arg2 harg2 arg3 harg3 arg5 x0 x1 = wchain arg5 x0 x1 (arg5.view.writes (Elt F) arg5.view.junk kernelRun1_A.sl.H3_1) := by
  have e_r : kernelRun1_A.sl.r c arg2 harg2 x0 = hd x0 := by unfold kernelRun1_A.sl.r; rw [loaded4]
  have e_r_1 : kernelRun1_A.sl.r_1 c arg2 harg2 x0 = hdK x0 := by unfold kernelRun1_A.sl.r_1; rw [loaded4]
  have e_r_2 : kernelRun1_A.sl.r_2 c arg2 harg2 x0 = hdV x0 := by unfold kernelRun1_A.sl.r_2; rw [loaded4]
  have e_r_3 : kernelRun1_A.sl.r_3 c arg2 harg2 x0 = hdK2 x0 := by unfold kernelRun1_A.sl.r_3; rw [loaded4]
  have e_r_5 : kernelRun1_A.sl.r_5 c arg2 harg2 x0 = k1_pay10 x0 := by unfold kernelRun1_A.sl.r_5; rw [loaded4]
  have e_r_6 : kernelRun1_A.sl.r_6 c arg2 harg2 x0 = k1_pay11 x0 := by unfold kernelRun1_A.sl.r_6; rw [loaded4]
  have e_r_7 : kernelRun1_A.sl.r_7 c arg2 harg2 x0 = k1_pay12 x0 := by unfold kernelRun1_A.sl.r_7; rw [loaded4]
  have e_r_4 : kernelRun1_A.sl.r_4 c arg3 harg3 x1 = wo x1 := by unfold kernelRun1_A.sl.r_4; rw [loaded2]
  have e_r_8 : kernelRun1_A.sl.r_8 c arg2 harg2 x0 = k1_pay14 (hd x0) := by unfold kernelRun1_A.sl.r_8; rw [e_r]
  have e_r_11 : kernelRun1_A.sl.r_11 c arg2 harg2 x0 = k1_pay18 (hd x0) := by unfold kernelRun1_A.sl.r_11; rw [e_r]
  have e_r_13 : kernelRun1_A.sl.r_13 c arg2 harg2 x0 = k1_pay21 (hd x0) := by unfold kernelRun1_A.sl.r_13; rw [e_r]
  have e_r_15 : kernelRun1_A.sl.r_15 c arg2 harg2 x0 = k1_pay24 (hd x0) := by unfold kernelRun1_A.sl.r_15; rw [e_r]
  have e_r_17 : kernelRun1_A.sl.r_17 c arg2 harg2 x0 = k1_pay27 (hd x0) := by unfold kernelRun1_A.sl.r_17; rw [e_r]
  have e_r_19 : kernelRun1_A.sl.r_19 c arg2 harg2 x0 = k1_pay30 (hd x0) := by unfold kernelRun1_A.sl.r_19; rw [e_r]
  have e_r_21 : kernelRun1_A.sl.r_21 c arg2 harg2 x0 = k1_pay33 (hd x0) := by unfold kernelRun1_A.sl.r_21; rw [e_r]
  have e_r_9 : kernelRun1_A.sl.r_9 c arg2 harg2 x0 = k1_pay15 (hd x0) (hdK x0) (hdK2 x0) := by unfold kernelRun1_A.sl.r_9; rw [e_r, e_r_1, e_r_3]
  have e_r_10 : kernelRun1_A.sl.r_10 c arg2 harg2 x0 = k1_pay16 (hd x0) (hdK x0) (hdK2 x0) := by unfold kernelRun1_A.sl.r_10; rw [e_r, e_r_1, e_r_3]
  have e_r_12 : kernelRun1_A.sl.r_12 c arg2 harg2 x0 = k1_pay19 (hd x0) (hdK x0) (hdK2 x0) := by unfold kernelRun1_A.sl.r_12; rw [e_r, e_r_1, e_r_3]
  have e_r_14 : kernelRun1_A.sl.r_14 c arg2 harg2 x0 = k1_pay22 (hd x0) (hdK x0) (hdK2 x0) := by unfold kernelRun1_A.sl.r_14; rw [e_r, e_r_1, e_r_3]
  have e_r_16 : kernelRun1_A.sl.r_16 c arg2 harg2 x0 = k1_pay25 (hd x0) (hdK x0) (hdK2 x0) := by unfold kernelRun1_A.sl.r_16; rw [e_r, e_r_1, e_r_3]
  have e_r_18 : kernelRun1_A.sl.r_18 c arg2 harg2 x0 = k1_pay28 (hd x0) (hdK x0) (hdK2 x0) := by unfold kernelRun1_A.sl.r_18; rw [e_r, e_r_1, e_r_3]
  have e_r_20 : kernelRun1_A.sl.r_20 c arg2 harg2 x0 = k1_pay31 (hd x0) (hdK x0) (hdK2 x0) := by unfold kernelRun1_A.sl.r_20; rw [e_r, e_r_1, e_r_3]
  have e_r_22 : kernelRun1_A.sl.r_22 c arg2 harg2 x0 = k1_pay34 (hd x0) (hdK x0) (hdK2 x0) := by unfold kernelRun1_A.sl.r_22; rw [e_r, e_r_1, e_r_3]
  have h1 : kernelRun1_A.sl.H3_w1 c arg2 harg2 arg3 harg3 arg5 x0 x1 = wstep arg5 rt0 (tile0 x0 x1) (arg5.view.writes (Elt F) arg5.view.junk kernelRun1_A.sl.H3_1) := by
    unfold kernelRun1_A.sl.H3_w1; rw [e_r_2, e_r_4, e_r_5, e_r_6, e_r_7]; rfl
  have h2 : kernelRun1_A.sl.H3_w2 c arg2 harg2 arg3 harg3 arg5 x0 x1 = wstep arg5 rt1 (tile1 x0 x1) (kernelRun1_A.sl.H3_w1 c arg2 harg2 arg3 harg3 arg5 x0 x1) := by
    unfold kernelRun1_A.sl.H3_w2; rw [e_r_2, e_r_4, e_r_8, e_r_9, e_r_10]; rfl
  have h3 : kernelRun1_A.sl.H3_w3 c arg2 harg2 arg3 harg3 arg5 x0 x1 = wstep arg5 rt2 (tile2 x0 x1) (kernelRun1_A.sl.H3_w2 c arg2 harg2 arg3 harg3 arg5 x0 x1) := by
    unfold kernelRun1_A.sl.H3_w3; rw [e_r_2, e_r_4, e_r_11, e_r_12]; rfl
  have h4 : kernelRun1_A.sl.H3_w4 c arg2 harg2 arg3 harg3 arg5 x0 x1 = wstep arg5 rt3 (tile3 x0 x1) (kernelRun1_A.sl.H3_w3 c arg2 harg2 arg3 harg3 arg5 x0 x1) := by
    unfold kernelRun1_A.sl.H3_w4; rw [e_r_2, e_r_4, e_r_13, e_r_14]; rfl
  have h5 : kernelRun1_A.sl.H3_w5 c arg2 harg2 arg3 harg3 arg5 x0 x1 = wstep arg5 rt4 (tile4 x0 x1) (kernelRun1_A.sl.H3_w4 c arg2 harg2 arg3 harg3 arg5 x0 x1) := by
    unfold kernelRun1_A.sl.H3_w5; rw [e_r_2, e_r_4, e_r_15, e_r_16]; rfl
  have h6 : kernelRun1_A.sl.H3_w6 c arg2 harg2 arg3 harg3 arg5 x0 x1 = wstep arg5 rt5 (tile5 x0 x1) (kernelRun1_A.sl.H3_w5 c arg2 harg2 arg3 harg3 arg5 x0 x1) := by
    unfold kernelRun1_A.sl.H3_w6; rw [e_r_2, e_r_4, e_r_17, e_r_18]; rfl
  have h7 : kernelRun1_A.sl.H3_w7 c arg2 harg2 arg3 harg3 arg5 x0 x1 = wstep arg5 rt6 (tile6 x0 x1) (kernelRun1_A.sl.H3_w6 c arg2 harg2 arg3 harg3 arg5 x0 x1) := by
    unfold kernelRun1_A.sl.H3_w7; rw [e_r_2, e_r_4, e_r_19, e_r_20]; rfl
  have h8 : kernelRun1_A.sl.H3_w8 c arg2 harg2 arg3 harg3 arg5 x0 x1 = wstep arg5 rt7 (tile7 x0 x1) (kernelRun1_A.sl.H3_w7 c arg2 harg2 arg3 harg3 arg5 x0 x1) := by
    unfold kernelRun1_A.sl.H3_w8; rw [e_r_2, e_r_4, e_r_21, e_r_22]; rfl
  unfold wchain
  rw [h8, h7, h6, h5, h4, h3, h2, h1]

/-- HEAD 0, as a value: the eight tile updates of the block of zeros. -/
theorem run1_A_sq (hc0 : cond1_0 i) (hc1 : ¬cond1_1 i) :
    sq3 (kernelRun1_A c i arg2 harg2 arg3 harg3 arg4 harg4 arg5 harg5 hc0 hc1 x0 x1 x2).1 = chainT x0 x1 (sq3 zerosBlk) := by
  show sq3 (arg5.view.read (Elt F) (kernelRun1_A.sl.H3_w8 c arg2 harg2 arg3 harg3 arg5 x0 x1)) = _
  have hz : arg5.view.read (Elt F) (arg5.view.writes (Elt F) arg5.view.junk kernelRun1_A.sl.H3_1) = zerosBlk := by
    unfold kernelRun1_A.sl.H3_1
    rw [View.writes_singleton, read_slice_write_univ, overlay_unit_zero (by funext a; fin_cases a <;> rfl)]
    rfl
  rw [run1_A_buf, read_wchain, hz]

/-- HEAD 15, on the buffer, up to the bias: as a middle head. -/
theorem run1_C_buf (xo3 : Vec F S1x2048x1024 .f32) :
    kernelRun1_C.sl.H3_w8 c arg2 harg2 arg3 harg3 arg5 harg5 x0 x1 xo3 = wchain arg5 x0 x1 (harg5.unread xo3) := by
  have e_r : kernelRun1_C.sl.r c arg2 harg2 x0 = hd x0 := by unfold kernelRun1_C.sl.r; rw [loaded4]
  have e_r_1 : kernelRun1_C.sl.r_1 c arg2 harg2 x0 = hdK x0 := by unfold kernelRun1_C.sl.r_1; rw [loaded4]
  have e_r_2 : kernelRun1_C.sl.r_2 c arg2 harg2 x0 = hdV x0 := by unfold kernelRun1_C.sl.r_2; rw [loaded4]
  have e_r_3 : kernelRun1_C.sl.r_3 c arg2 harg2 x0 = hdK2 x0 := by unfold kernelRun1_C.sl.r_3; rw [loaded4]
  have e_r_5 : kernelRun1_C.sl.r_5 c arg2 harg2 x0 = k1_pay10 x0 := by unfold kernelRun1_C.sl.r_5; rw [loaded4]
  have e_r_6 : kernelRun1_C.sl.r_6 c arg2 harg2 x0 = k1_pay11 x0 := by unfold kernelRun1_C.sl.r_6; rw [loaded4]
  have e_r_7 : kernelRun1_C.sl.r_7 c arg2 harg2 x0 = k1_pay12 x0 := by unfold kernelRun1_C.sl.r_7; rw [loaded4]
  have e_r_4 : kernelRun1_C.sl.r_4 c arg3 harg3 x1 = wo x1 := by unfold kernelRun1_C.sl.r_4; rw [loaded2]
  have e_r_8 : kernelRun1_C.sl.r_8 c arg2 harg2 x0 = k1_pay14 (hd x0) := by unfold kernelRun1_C.sl.r_8; rw [e_r]
  have e_r_11 : kernelRun1_C.sl.r_11 c arg2 harg2 x0 = k1_pay18 (hd x0) := by unfold kernelRun1_C.sl.r_11; rw [e_r]
  have e_r_13 : kernelRun1_C.sl.r_13 c arg2 harg2 x0 = k1_pay21 (hd x0) := by unfold kernelRun1_C.sl.r_13; rw [e_r]
  have e_r_15 : kernelRun1_C.sl.r_15 c arg2 harg2 x0 = k1_pay24 (hd x0) := by unfold kernelRun1_C.sl.r_15; rw [e_r]
  have e_r_17 : kernelRun1_C.sl.r_17 c arg2 harg2 x0 = k1_pay27 (hd x0) := by unfold kernelRun1_C.sl.r_17; rw [e_r]
  have e_r_19 : kernelRun1_C.sl.r_19 c arg2 harg2 x0 = k1_pay30 (hd x0) := by unfold kernelRun1_C.sl.r_19; rw [e_r]
  have e_r_21 : kernelRun1_C.sl.r_21 c arg2 harg2 x0 = k1_pay33 (hd x0) := by unfold kernelRun1_C.sl.r_21; rw [e_r]
  have e_r_9 : kernelRun1_C.sl.r_9 c arg2 harg2 x0 = k1_pay15 (hd x0) (hdK x0) (hdK2 x0) := by unfold kernelRun1_C.sl.r_9; rw [e_r, e_r_1, e_r_3]
  have e_r_10 : kernelRun1_C.sl.r_10 c arg2 harg2 x0 = k1_pay16 (hd x0) (hdK x0) (hdK2 x0) := by unfold kernelRun1_C.sl.r_10; rw [e_r, e_r_1, e_r_3]
  have e_r_12 : kernelRun1_C.sl.r_12 c arg2 harg2 x0 = k1_pay19 (hd x0) (hdK x0) (hdK2 x0) := by unfold kernelRun1_C.sl.r_12; rw [e_r, e_r_1, e_r_3]
  have e_r_14 : kernelRun1_C.sl.r_14 c arg2 harg2 x0 = k1_pay22 (hd x0) (hdK x0) (hdK2 x0) := by unfold kernelRun1_C.sl.r_14; rw [e_r, e_r_1, e_r_3]
  have e_r_16 : kernelRun1_C.sl.r_16 c arg2 harg2 x0 = k1_pay25 (hd x0) (hdK x0) (hdK2 x0) := by unfold kernelRun1_C.sl.r_16; rw [e_r, e_r_1, e_r_3]
  have e_r_18 : kernelRun1_C.sl.r_18 c arg2 harg2 x0 = k1_pay28 (hd x0) (hdK x0) (hdK2 x0) := by unfold kernelRun1_C.sl.r_18; rw [e_r, e_r_1, e_r_3]
  have e_r_20 : kernelRun1_C.sl.r_20 c arg2 harg2 x0 = k1_pay31 (hd x0) (hdK x0) (hdK2 x0) := by unfold kernelRun1_C.sl.r_20; rw [e_r, e_r_1, e_r_3]
  have e_r_22 : kernelRun1_C.sl.r_22 c arg2 harg2 x0 = k1_pay34 (hd x0) (hdK x0) (hdK2 x0) := by unfold kernelRun1_C.sl.r_22; rw [e_r, e_r_1, e_r_3]
  have h1 : kernelRun1_C.sl.H3_w1 c arg2 harg2 arg3 harg3 arg5 harg5 x0 x1 xo3 = wstep arg5 rt0 (tile0 x0 x1) (harg5.unread xo3) := by
    unfold kernelRun1_C.sl.H3_w1; rw [e_r_2, e_r_4, e_r_5, e_r_6, e_r_7]; rfl
  have h2 : kernelRun1_C.sl.H3_w2 c arg2 harg2 arg3 harg3 arg5 harg5 x0 x1 xo3 = wstep arg5 rt1 (tile1 x0 x1) (kernelRun1_C.sl.H3_w1 c arg2 harg2 arg3 harg3 arg5 harg5 x0 x1 xo3) := by
    unfold kernelRun1_C.sl.H3_w2; rw [e_r_2, e_r_4, e_r_8, e_r_9, e_r_10]; rfl
  have h3 : kernelRun1_C.sl.H3_w3 c arg2 harg2 arg3 harg3 arg5 harg5 x0 x1 xo3 = wstep arg5 rt2 (tile2 x0 x1) (kernelRun1_C.sl.H3_w2 c arg2 harg2 arg3 harg3 arg5 harg5 x0 x1 xo3) := by
    unfold kernelRun1_C.sl.H3_w3; rw [e_r_2, e_r_4, e_r_11, e_r_12]; rfl
  have h4 : kernelRun1_C.sl.H3_w4 c arg2 harg2 arg3 harg3 arg5 harg5 x0 x1 xo3 = wstep arg5 rt3 (tile3 x0 x1) (kernelRun1_C.sl.H3_w3 c arg2 harg2 arg3 harg3 arg5 harg5 x0 x1 xo3) := by
    unfold kernelRun1_C.sl.H3_w4; rw [e_r_2, e_r_4, e_r_13, e_r_14]; rfl
  have h5 : kernelRun1_C.sl.H3_w5 c arg2 harg2 arg3 harg3 arg5 harg5 x0 x1 xo3 = wstep arg5 rt4 (tile4 x0 x1) (kernelRun1_C.sl.H3_w4 c arg2 harg2 arg3 harg3 arg5 harg5 x0 x1 xo3) := by
    unfold kernelRun1_C.sl.H3_w5; rw [e_r_2, e_r_4, e_r_15, e_r_16]; rfl
  have h6 : kernelRun1_C.sl.H3_w6 c arg2 harg2 arg3 harg3 arg5 harg5 x0 x1 xo3 = wstep arg5 rt5 (tile5 x0 x1) (kernelRun1_C.sl.H3_w5 c arg2 harg2 arg3 harg3 arg5 harg5 x0 x1 xo3) := by
    unfold kernelRun1_C.sl.H3_w6; rw [e_r_2, e_r_4, e_r_17, e_r_18]; rfl
  have h7 : kernelRun1_C.sl.H3_w7 c arg2 harg2 arg3 harg3 arg5 harg5 x0 x1 xo3 = wstep arg5 rt6 (tile6 x0 x1) (kernelRun1_C.sl.H3_w6 c arg2 harg2 arg3 harg3 arg5 harg5 x0 x1 xo3) := by
    unfold kernelRun1_C.sl.H3_w7; rw [e_r_2, e_r_4, e_r_19, e_r_20]; rfl
  have h8 : kernelRun1_C.sl.H3_w8 c arg2 harg2 arg3 harg3 arg5 harg5 x0 x1 xo3 = wstep arg5 rt7 (tile7 x0 x1) (kernelRun1_C.sl.H3_w7 c arg2 harg2 arg3 harg3 arg5 harg5 x0 x1 xo3) := by
    unfold kernelRun1_C.sl.H3_w8; rw [e_r_2, e_r_4, e_r_21, e_r_22]; rfl
  unfold wchain
  rw [h8, h7, h6, h5, h4, h3, h2, h1]

/-- HEAD 15, as a value: the bias added to what a middle head would leave. -/
theorem run1_C_val (hc0 : ¬cond1_0 i) (hc1 : cond1_1 i) (xo3 : Vec F S1x2048x1024 .f32) :
    (kernelRun1_C c i arg2 harg2 arg3 harg3 arg4 harg4 arg5 harg5 hc0 hc1 x0 x1 x2 xo3).1
      = biasBlk (unsq3 (chainT x0 x1 (sq3 xo3))) x2 := by
  have hB : arg5.view.read (Elt F) (kernelRun1_C.sl.H3_w8 c arg2 harg2 arg3 harg3 arg5 harg5 x0 x1 xo3) = unsq3 (chainT x0 x1 (sq3 xo3)) := by
    rw [← unsq3_sq3 (arg5.view.read (Elt F) (kernelRun1_C.sl.H3_w8 c arg2 harg2 arg3 harg3 arg5 harg5 x0 x1 xo3)), run1_C_buf, read_wchain, harg5.read_unread]
  show arg5.view.read (Elt F) (arg5.view.writes (Elt F) (kernelRun1_C.sl.H3_w8 c arg2 harg2 arg3 harg3 arg5 harg5 x0 x1 xo3)
    [⟨(Rect.unit (s := S1x2048x1024) ![0, 0, 0] S1x2048x1024.size inb_S1x2048x1024_S1x2048x1024_0_0_0), k1_pay2 (arg5.view.readAt (Elt F) (Rect.unit (s := S1x2048x1024) ![0, 0, 0] S1x2048x1024.size inb_S1x2048x1024_S1x2048x1024_0_0_0).toLoadRect (kernelRun1_C.sl.H3_w8 c arg2 harg2 arg3 harg3 arg5 harg5 x0 x1 xo3))
        (arg4.view.readAt (Elt F) (Rect.unit (s := S1024) ![0] S1024.size inb_S1024_S1024_0).toLoadRect (harg4.unread x2))⟩]) = _
  rw [View.writes_singleton, read_slice_write_univ, overlay_unit_zero (by funext a; fin_cases a <;> rfl), loaded1,
    View.readAt_eq_ld, ld_whole3, hB]
  rfl

end Cases

/-! ## The eight updates, read at a row -/

/-- The 256 rows of tile `k` of a block in the rows × columns picture. -/
def rowsOf (Y : Vec F S2048x1024 .f32) (k : Fin 8) : Vec F S256x1024 .f32 :=
  fun y => Y (ix2 ⟨256 * k.val + (y 0).val, by have := idx2_lt0 y; have := k.isLt; omega⟩ (y 1))

theorem rowsOf_apply (Y : Vec F S2048x1024 .f32) (k : Fin 8) (p : Fin 256) (q : Fin 1024) (r : Fin 2048)
    (hr : r.val = 256 * k.val + p.val) : rowsOf Y k (ix2 p q) = Y (ix2 r q) := by
  unfold rowsOf
  congr 1
  funext a
  match a with
  | ⟨0, _⟩ => exact Fin.ext hr.symm
  | ⟨1, _⟩ => rfl

section Rows
variable (o : ℕ) (inb : ∀ a, (![o, 0] : Fin 2 → ℕ) a + S256x1024.size a ≤ S2048x1024.size a)

/-- Row `r` of the block, `r = o + p`, is row `p` of the tile at offset `o`. -/
theorem emb_rt (p : Fin 256) (q : Fin 1024) (r : Fin 2048) (hr : r.val = o + p.val) :
    (Rect.unit (s := S2048x1024) ![o, 0] S256x1024.size inb).emb (ix2 p q) = ix2 r q := by
  funext a
  apply Fin.ext
  match a with
  | ⟨0, _⟩ => simp only [Rect.emb_apply, Rect.off_unit, Rect.stride_unit, Nat.one_mul]; exact hr.symm
  | ⟨1, _⟩ => simp only [Rect.emb_apply, Rect.off_unit, Rect.stride_unit, Nat.one_mul]; exact Nat.zero_add _

/-- A row outside the tile's 256 is not under it. -/
theorem not_mem_rt (r : Fin 2048) (q : Fin 1024) (h : r.val < o ∨ o + 256 ≤ r.val) :
    ix2 r q ∉ (Rect.unit (s := S2048x1024) ![o, 0] S256x1024.size inb).set := by
  intro hm
  have h0 := (Rect.mem_set_unit.mp hm) ⟨0, by decide⟩
  have e1 : ((![o, 0] : Fin 2 → ℕ) ⟨0, by decide⟩) = o := rfl
  have e2 : S256x1024.size ⟨0, by decide⟩ = 256 := rfl
  have e3 : ((ix2 r q : S2048x1024.Idx) ⟨0, by decide⟩).val = r.val := rfl
  rw [e1, e2, e3] at h0
  omega

/-- A tile update does not touch the rows outside the tile, -/
theorem stepT_of_row (wf : ((Rect.unit (s := S2048x1024) ![o, 0] S256x1024.size inb).shape.Idx → Elt F .f32) → ((Rect.unit (s := S2048x1024) ![o, 0] S256x1024.size inb).shape.Idx → Elt F .f32))
    (Y : Vec F S2048x1024 .f32) (r : Fin 2048) (q : Fin 1024) (h : r.val < o ∨ o + 256 ≤ r.val) :
    stepT (Rect.unit (s := S2048x1024) ![o, 0] S256x1024.size inb) wf Y (ix2 r q) = Y (ix2 r q) :=
  Rect.overlay_of_not_mem _ _ _ (not_mem_rt o inb r q h)

/-- and puts `wf` of the tile's rows in the tile. -/
theorem stepT_at_row (wf : ((Rect.unit (s := S2048x1024) ![o, 0] S256x1024.size inb).shape.Idx → Elt F .f32) → ((Rect.unit (s := S2048x1024) ![o, 0] S256x1024.size inb).shape.Idx → Elt F .f32))
    (Y : Vec F S2048x1024 .f32) (p : Fin 256) (q : Fin 1024) (r : Fin 2048) (hr : r.val = o + p.val) :
    stepT (Rect.unit (s := S2048x1024) ![o, 0] S256x1024.size inb) wf Y (ix2 r q) = wf (View.ld Y (Rect.unit (s := S2048x1024) ![o, 0] S256x1024.size inb)) (ix2 p q) := by
  rw [← emb_rt o inb p q r hr]
  exact Rect.overlay_emb _ _ _ _

/-- The rows under the tile at offset `o` are tile `k`'s, `o = 256 k`. -/
theorem ld_rt (Y : Vec F S2048x1024 .f32) (k : Fin 8) (ho : o = 256 * k.val) :
    View.ld Y (Rect.unit (s := S2048x1024) ![o, 0] S256x1024.size inb) = rowsOf Y k := by
  subst ho
  funext y
  show Y ((Rect.unit (s := S2048x1024) ![(256 * k.val), 0] S256x1024.size inb).idx y) = _
  unfold rowsOf
  congr 1
  funext a
  apply Fin.ext
  match a with
  | ⟨0, _⟩ => simp only [LoadRect.idx_apply, Rect.off_unit, Rect.stride_unit, Nat.one_mul]; rfl
  | ⟨1, _⟩ => simp only [LoadRect.idx_apply, Rect.off_unit, Rect.stride_unit, Nat.one_mul]; exact Nat.zero_add _

variable (o' : ℕ) (inb' : ∀ a, (![o', 0] : Fin 2 → ℕ) a + S256x1024.size a ≤ S2048x1024.size a)

/-- The rows a later tile loads are those an earlier tile's update left alone: the tiles do not overlap. -/
theorem ld_stepT_disj (wf : ((Rect.unit (s := S2048x1024) ![o, 0] S256x1024.size inb).shape.Idx → Elt F .f32) → ((Rect.unit (s := S2048x1024) ![o, 0] S256x1024.size inb).shape.Idx → Elt F .f32))
    (Y : Vec F S2048x1024 .f32) (h : o + 256 ≤ o' ∨ o' + 256 ≤ o) :
    View.ld (stepT (Rect.unit (s := S2048x1024) ![o, 0] S256x1024.size inb) wf Y) (Rect.unit (s := S2048x1024) ![o', 0] S256x1024.size inb') =
      View.ld Y (Rect.unit (s := S2048x1024) ![o', 0] S256x1024.size inb') := by
  funext y
  have hy := idx2_lt0 y
  have hlt : o' + (y 0).val < 2048 := by
    have := inb' ⟨0, by decide⟩
    have e1 : ((![o', 0] : Fin 2 → ℕ) ⟨0, by decide⟩) = o' := rfl
    have e2 : S256x1024.size ⟨0, by decide⟩ = 256 := rfl
    have e3 : S2048x1024.size ⟨0, by decide⟩ = 2048 := rfl
    rw [e1, e2, e3] at this; omega
  have e : (Rect.unit (s := S2048x1024) ![o', 0] S256x1024.size inb').idx y = ix2 ⟨o' + (y 0).val, hlt⟩ (y 1) := by
    funext a
    apply Fin.ext
    match a with
    | ⟨0, _⟩ => simp only [LoadRect.idx_apply, Rect.off_unit, Rect.stride_unit, Nat.one_mul]; rfl
    | ⟨1, _⟩ => simp only [LoadRect.idx_apply, Rect.off_unit, Rect.stride_unit, Nat.one_mul]; exact Nat.zero_add _
  show stepT _ wf Y ((Rect.unit (s := S2048x1024) ![o', 0] S256x1024.size inb').idx y) = Y ((Rect.unit (s := S2048x1024) ![o', 0] S256x1024.size inb').idx y)
  rw [e]
  exact stepT_of_row o inb wf Y _ _ (by show (o' + (y 0).val < o ∨ o + 256 ≤ o' + (y 0).val); omega)

end Rows

/-- THE EIGHT UPDATES AT A ROW. Row `r = 256 k + p` of the block after the eight tile updates is row `p` of
    `tile k` of the rows tile `k` held BEFORE any of the updates. -/
theorem chainT_apply (x0 : Vec F S1x1x2048x256 .f32) (x1 : Vec F S64x1024 .f32) (Y : Vec F S2048x1024 .f32)
    (k : Fin 8) (p : Fin 256) (q : Fin 1024) (r : Fin 2048) (hr : r.val = 256 * k.val + p.val) :
    chainT x0 x1 Y (ix2 r q) = tile k x0 x1 (rowsOf Y k) (ix2 p q) :=
  match k, hr with
  | ⟨0, hk⟩, hr => by
    have hr' : r.val = 0 + p.val := hr
    unfold chainT
    rw [stepT_of_row 1792 _ _ _ r q (by omega),
      stepT_of_row 1536 _ _ _ r q (by omega),
      stepT_of_row 1280 _ _ _ r q (by omega),
      stepT_of_row 1024 _ _ _ r q (by omega),
      stepT_of_row 768 _ _ _ r q (by omega),
      stepT_of_row 512 _ _ _ r q (by omega),
      stepT_of_row 256 _ _ _ r q (by omega),
      stepT_at_row 0 _ _ _ p q r hr',
      ld_rt 0 _ Y ⟨0, hk⟩ rfl]
    rfl
  | ⟨1, hk⟩, hr => by
    have hr' : r.val = 256 + p.val := hr
    unfold chainT
    rw [stepT_of_row 1792 _ _ _ r q (by omega),
      stepT_of_row 1536 _ _ _ r q (by omega),
      stepT_of_row 1280 _ _ _ r q (by omega),
      stepT_of_row 1024 _ _ _ r q (by omega),
      stepT_of_row 768 _ _ _ r q (by omega),
      stepT_of_row 512 _ _ _ r q (by omega),
      stepT_at_row 256 _ _ _ p q r hr',
      ld_stepT_disj 0 _ 256 _ _ _ (by omega),
      ld_rt 256 _ Y ⟨1, hk⟩ rfl]
    rfl
  | ⟨2, hk⟩, hr => by
    have hr' : r.val = 512 + p.val := hr
    unfold chainT
    rw [stepT_of_row 1792 _ _ _ r q (by omega),
      stepT_of_row 1536 _ _ _ r q (by omega),
      stepT_of_row 1280 _ _ _ r q (by omega),
      stepT_of_row 1024 _ _ _ r q (by omega),
      stepT_of_row 768 _ _ _ r q (by omega),
      stepT_at_row 512 _ _ _ p q r hr',
      ld_stepT_disj 256 _ 512 _ _ _ (by omega),
      ld_stepT_disj 0 _ 512 _ _ _ (by omega),
      ld_rt 512 _ Y ⟨2, hk⟩ rfl]
    rfl
  | ⟨3, hk⟩, hr => by
    have hr' : r.val = 768 + p.val := hr
    unfold chainT
    rw [stepT_of_row 1792 _ _ _ r q (by omega),
      stepT_of_row 1536 _ _ _ r q (by omega),
      stepT_of_row 1280 _ _ _ r q (by omega),
      stepT_of_row 1024 _ _ _ r q (by omega),
      stepT_at_row 768 _ _ _ p q r hr',
      ld_stepT_disj 512 _ 768 _ _ _ (by omega),
      ld_stepT_disj 256 _ 768 _ _ _ (by omega),
      ld_stepT_disj 0 _ 768 _ _ _ (by omega),
      ld_rt 768 _ Y ⟨3, hk⟩ rfl]
    rfl
  | ⟨4, hk⟩, hr => by
    have hr' : r.val = 1024 + p.val := hr
    unfold chainT
    rw [stepT_of_row 1792 _ _ _ r q (by omega),
      stepT_of_row 1536 _ _ _ r q (by omega),
      stepT_of_row 1280 _ _ _ r q (by omega),
      stepT_at_row 1024 _ _ _ p q r hr',
      ld_stepT_disj 768 _ 1024 _ _ _ (by omega),
      ld_stepT_disj 512 _ 1024 _ _ _ (by omega),
      ld_stepT_disj 256 _ 1024 _ _ _ (by omega),
      ld_stepT_disj 0 _ 1024 _ _ _ (by omega),
      ld_rt 1024 _ Y ⟨4, hk⟩ rfl]
    rfl
  | ⟨5, hk⟩, hr => by
    have hr' : r.val = 1280 + p.val := hr
    unfold chainT
    rw [stepT_of_row 1792 _ _ _ r q (by omega),
      stepT_of_row 1536 _ _ _ r q (by omega),
      stepT_at_row 1280 _ _ _ p q r hr',
      ld_stepT_disj 1024 _ 1280 _ _ _ (by omega),
      ld_stepT_disj 768 _ 1280 _ _ _ (by omega),
      ld_stepT_disj 512 _ 1280 _ _ _ (by omega),
      ld_stepT_disj 256 _ 1280 _ _ _ (by omega),
      ld_stepT_disj 0 _ 1280 _ _ _ (by omega),
      ld_rt 1280 _ Y ⟨5, hk⟩ rfl]
    rfl
  | ⟨6, hk⟩, hr => by
    have hr' : r.val = 1536 + p.val := hr
    unfold chainT
    rw [stepT_of_row 1792 _ _ _ r q (by omega),
      stepT_at_row 1536 _ _ _ p q r hr',
      ld_stepT_disj 1280 _ 1536 _ _ _ (by omega),
      ld_stepT_disj 1024 _ 1536 _ _ _ (by omega),
      ld_stepT_disj 768 _ 1536 _ _ _ (by omega),
      ld_stepT_disj 512 _ 1536 _ _ _ (by omega),
      ld_stepT_disj 256 _ 1536 _ _ _ (by omega),
      ld_stepT_disj 0 _ 1536 _ _ _ (by omega),
      ld_rt 1536 _ Y ⟨6, hk⟩ rfl]
    rfl
  | ⟨7, hk⟩, hr => by
    have hr' : r.val = 1792 + p.val := hr
    unfold chainT
    rw [stepT_at_row 1792 _ _ _ p q r hr',
      ld_stepT_disj 1536 _ 1792 _ _ _ (by omega),
      ld_stepT_disj 1280 _ 1792 _ _ _ (by omega),
      ld_stepT_disj 1024 _ 1792 _ _ _ (by omega),
      ld_stepT_disj 768 _ 1792 _ _ _ (by omega),
      ld_stepT_disj 512 _ 1792 _ _ _ (by omega),
      ld_stepT_disj 256 _ 1792 _ _ _ (by omega),
      ld_stepT_disj 0 _ 1792 _ _ _ (by omega),
      ld_rt 1792 _ Y ⟨7, hk⟩ rfl]
    rfl
  | ⟨n + 8, h⟩, _ => absurd h (Nat.not_lt.2 (Nat.le_add_left _ _))

end Cert.KernelIdeal.Hand

end
-- ==== Proof.Spec.lean ====
/-
  The specification both programs are compared with: gated attention with Shepard (inverse squared distance)
  weights over 16 heads of width 64, on the extended reals, index by index.

  For a batch entry b and a head h the projection P(b,h,t,c) = ∑_d X(b,t,d)·W_in(256h+c, d) + b_in(256h+c) has four
  column groups of width 64: queries (c < 64), keys (64 ≤ c < 128), values (128 ≤ c < 192), gates (192 ≤ c).
  With q2(i) = ∑_e Q(i,e)², k2(j) = ∑_e K(j,e)², qk(i,j) = ∑_e Q(i,e)·K(j,e):
    dist(i,j) = √(max(q2(i) + k2(j) − 2·qk(i,j), 0)),   w(i,j) = 1 / ((ε + dist(i,j))·(ε + dist(i,j))),
    den(i) = ε + ∑_j w(i,j),   att(i,e) = ∑_j (w(i,j)/den(i))·V(j,e),   gated(i,e) = G(i,e)·att(i,e),
  and the result is Y(b,t,d) = (∑_h ∑_e gated_h(t,e)·W_out(d, 64h+e)) + b_out(d).
  The float literals stay as their words; ε is the word 0x38D1B717 on both sides.
-/
import Idealize.ShloMosaic.PureOps.Ideal
import Idealize.ShloMosaic.Lib.ValueIdx

noncomputable section

namespace Cert.Shepard

open Idealize.ShloMosaic Idealize.ShloMosaic.ValueIdx

/-- ε, 2, 1 and 0 as the programs spell them. -/
abbrev eps : EReal := Ideal.ofBits .f32 0x38D1B717#32
abbrev two : EReal := Ideal.ofBits .f32 0x40000000#32
abbrev one : EReal := Ideal.ofBits .f32 0x3F800000#32
abbrev zero : EReal := Ideal.ofBits .f32 0x00000000#32

/-- Row 256h + c of the input projection's weight: head h's column c. -/
def rowOf (h : Fin 16) (c : Fin 256) : Fin 4096 := ⟨256 * h.val + c.val, by omega⟩
/-- Column 64h + e of the output projection's weight: head h's feature e. -/
def colOf (h : Fin 16) (e : Fin 64) : Fin 1024 := ⟨64 * h.val + e.val, by omega⟩
/-- Column k + e of a head's projected block: feature e of the group starting at column k (0, 64, 128 or 192). -/
def grp (k : Nat) (hk : k + 64 ≤ 256) (e : Fin 64) : Fin 256 := ⟨k + e.val, by omega⟩

@[simp] theorem rowOf_val (h : Fin 16) (c : Fin 256) : (rowOf h c).val = 256 * h.val + c.val := rfl
@[simp] theorem colOf_val (h : Fin 16) (e : Fin 64) : (colOf h e).val = 64 * h.val + e.val := rfl
@[simp] theorem grp_val (k : Nat) (hk : k + 64 ≤ 256) (e : Fin 64) : (grp k hk e).val = k + e.val := rfl

/-- The input projection at batch entry b, head h, position t, column c. -/
def proj (X : (⟨3, ![2, 2048, 1024]⟩ : Shape).Idx → EReal) (Win : (⟨2, ![4096, 1024]⟩ : Shape).Idx → EReal)
    (bin : (⟨1, ![4096]⟩ : Shape).Idx → EReal) (b : Fin 2) (h : Fin 16) (t : Fin 2048) (c : Fin 256) : EReal :=
  (∑ d : Fin 1024, X (ix3 b t d) * Win (ix2 (rowOf h c) d)) + bin (ix1 (rowOf h c))

section Head

-- one head's projected block: 2048 positions by 256 columns
variable (P : Fin 2048 → Fin 256 → EReal)

def qOf (i : Fin 2048) (e : Fin 64) : EReal := P i (grp 0 (by omega) e)
def kOf (j : Fin 2048) (e : Fin 64) : EReal := P j (grp 64 (by omega) e)
def vOf (j : Fin 2048) (e : Fin 64) : EReal := P j (grp 128 (by omega) e)
def gOf (i : Fin 2048) (e : Fin 64) : EReal := P i (grp 192 (by omega) e)

/-- Squared norms of a query and of a key. -/
def q2 (i : Fin 2048) : EReal := ∑ e : Fin 64, qOf P i e * qOf P i e
def k2 (j : Fin 2048) : EReal := ∑ e : Fin 64, kOf P j e * kOf P j e
/-- The inner product of query i and key j. -/
def qk (i j : Fin 2048) : EReal := ∑ e : Fin 64, qOf P i e * kOf P j e
/-- The Euclidean distance from its expansion, clamped at zero before the root. -/
def dist (i j : Fin 2048) : EReal := Ideal.sqrt (max (q2 P i + k2 P j - two * qk P i j) zero)
/-- The Shepard weight: the inverse square of ε + distance. -/
def wt (i j : Fin 2048) : EReal := Ideal.div one ((eps + dist P i j) * (eps + dist P i j))
/-- The normaliser of query i. -/
def den (i : Fin 2048) : EReal := eps + ∑ j : Fin 2048, wt P i j
/-- The normalised weights applied to the values. -/
def att (i : Fin 2048) (e : Fin 64) : EReal := ∑ j : Fin 2048, Ideal.div (wt P i j) (den P i) * vOf P j e
/-- The gate applied. -/
def gated (i : Fin 2048) (e : Fin 64) : EReal := gOf P i e * att P i e

end Head

/-- Head h's contribution to the output at position t, output feature d. -/
def headOut (P : Fin 2048 → Fin 256 → EReal) (Wout : (⟨2, ![1024, 1024]⟩ : Shape).Idx → EReal)
    (h : Fin 16) (t : Fin 2048) (d : Fin 1024) : EReal :=
  ∑ e : Fin 64, gated P t e * Wout (ix2 d (colOf h e))

/-- The result at batch entry b, position t, output feature d. -/
def Yat (X : (⟨3, ![2, 2048, 1024]⟩ : Shape).Idx → EReal) (Win : (⟨2, ![4096, 1024]⟩ : Shape).Idx → EReal)
    (bin : (⟨1, ![4096]⟩ : Shape).Idx → EReal) (Wout : (⟨2, ![1024, 1024]⟩ : Shape).Idx → EReal)
    (bout : (⟨1, ![1024]⟩ : Shape).Idx → EReal) (b : Fin 2) (t : Fin 2048) (d : Fin 1024) : EReal :=
  (∑ h : Fin 16, headOut (fun i c => proj X Win bin b h i c) Wout h t d) + bout (ix1 d)

/-- The result array. -/
def Y (X : (⟨3, ![2, 2048, 1024]⟩ : Shape).Idx → EReal) (Win : (⟨2, ![4096, 1024]⟩ : Shape).Idx → EReal)
    (bin : (⟨1, ![4096]⟩ : Shape).Idx → EReal) (Wout : (⟨2, ![1024, 1024]⟩ : Shape).Idx → EReal)
    (bout : (⟨1, ![1024]⟩ : Shape).Idx → EReal) : (⟨3, ![2, 2048, 1024]⟩ : Shape).Idx → EReal :=
  fun i => Yat X Win bin Wout bout (i 0) (i 1) (i 2)

theorem Y_ix3 (X : (⟨3, ![2, 2048, 1024]⟩ : Shape).Idx → EReal) (Win : (⟨2, ![4096, 1024]⟩ : Shape).Idx → EReal)
    (bin : (⟨1, ![4096]⟩ : Shape).Idx → EReal) (Wout : (⟨2, ![1024, 1024]⟩ : Shape).Idx → EReal)
    (bout : (⟨1, ![1024]⟩ : Shape).Idx → EReal) (b : Fin 2) (t : Fin 2048) (d : Fin 1024) :
    Y X Win bin Wout bout (ix3 b t d) = Yat X Win bin Wout bout b t d := rfl

end Cert.Shepard

end
-- ==== Proof.R1Tiles.lean ====
/- The attention kernel's row tiles, read at an index at the ideal values: each tile's stored value is the loaded
   accumulator rows plus the head's contribution to the output projection at those rows, in the specification's terms. -/
import proofs.«100586_j44555990728728_1_alg».proof.Proof.Gen.KernelIdeal.Skeleton
import proofs.«100586_j44555990728728_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-- The head's projected block as a function of position and column. -/
def blkP (x0 : Vec Ideal S1x1x2048x256 .f32) : Fin 2048 → Fin 256 → EReal := fun i c => x0 (ValueIdx.ix4 0 0 i c)

/-- The head's contribution to the output projection at position `r`, output feature `q`: the gated attention row
    against the head's block of the transposed output weight. -/
def partialOut (x0 : Vec Ideal S1x1x2048x256 .f32) (x1 : Vec Ideal S64x1024 .f32) (r : Fin 2048) (q : Fin 1024) : EReal :=
  ∑ e : Fin 64, Cert.Shepard.gated (blkP x0) r e * x1 (ValueIdx.ix2 e q)

/-! ## The three matrix products at an index -/

section MatMul

private theorem qk_l0 (i : S256x2048.Idx) (k : dot_S256x64_S64x2048_S256x2048_1_0_0_1_n_n.contr.Idx) :
    (dot_S256x64_S64x2048_S256x2048_1_0_0_1_n_n.lhsIdx i k 0).val = (i 0).val := by
  unfold DotDims.lhsIdx
  rw [dif_neg (show ¬(0 : Fin S256x64.rank) ∈ dot_S256x64_S64x2048_S256x2048_1_0_0_1_n_n.lhsBatch by decide),
    dif_pos (show (0 : Fin S256x64.rank) ∈ dot_S256x64_S64x2048_S256x2048_1_0_0_1_n_n.lhsNonContracting by decide)]
  rfl
private theorem qk_r1 (i : S256x2048.Idx) (k : dot_S256x64_S64x2048_S256x2048_1_0_0_1_n_n.contr.Idx) :
    (dot_S256x64_S64x2048_S256x2048_1_0_0_1_n_n.rhsIdx i k 1).val = (i 1).val := by
  unfold DotDims.rhsIdx
  rw [dif_neg (show ¬(1 : Fin S64x2048.rank) ∈ dot_S256x64_S64x2048_S256x2048_1_0_0_1_n_n.rhsBatch by decide),
    dif_pos (show (1 : Fin S64x2048.rank) ∈ dot_S256x64_S64x2048_S256x2048_1_0_0_1_n_n.rhsNonContracting by decide)]
  rfl

/-- Queries against transposed keys: at `(p, j)` the sum over the 64 features. -/
theorem matmul_qk_apply {φ₁ φ₂ : FTy} (A : FVec Ideal S256x64 φ₁) (B : FVec Ideal S64x2048 φ₂) (p : Fin 256) (j : Fin 2048) :
    matmul dot_S256x64_S64x2048_S256x2048_1_0_0_1_n_n none A B (constant S256x2048 .f32 0x00000000#32) (ix2 p j)
      = ∑ e : Fin 64, A (ix2 p e) * B (ix2 e j) := by
  simp only [matmul]
  rw [Ideal.matmul_constant_zero_apply,
    ← Equiv.sum_comp (contrEquiv1 dot_S256x64_S64x2048_S256x2048_1_0_0_1_n_n 64 rfl rfl).symm]
  refine Finset.sum_congr rfl fun k _ => ?_
  have hk := contrEquiv1_symm_val dot_S256x64_S64x2048_S256x2048_1_0_0_1_n_n 64 rfl rfl k
  have el : dot_S256x64_S64x2048_S256x2048_1_0_0_1_n_n.lhsIdx (ix2 p j)
      ((contrEquiv1 dot_S256x64_S64x2048_S256x2048_1_0_0_1_n_n 64 rfl rfl).symm k) = ix2 p k := funext fun a => Fin.ext (by
    match a with
    | ⟨0, _⟩ => exact qk_l0 _ _
    | ⟨1, _⟩ => exact (dot_S256x64_S64x2048_S256x2048_1_0_0_1_n_n.lhsIdx_val_of_single rfl _ _).trans hk)
  have er : dot_S256x64_S64x2048_S256x2048_1_0_0_1_n_n.rhsIdx (ix2 p j)
      ((contrEquiv1 dot_S256x64_S64x2048_S256x2048_1_0_0_1_n_n 64 rfl rfl).symm k) = ix2 k j := funext fun a => Fin.ext (by
    match a with
    | ⟨0, _⟩ => exact (dot_S256x64_S64x2048_S256x2048_1_0_0_1_n_n.rhsIdx_val_of_single rfl _ _).trans hk
    | ⟨1, _⟩ => exact qk_r1 _ _)
  rw [el, er]

private theorem wv_l0 (i : S256x64.Idx) (k : dot_S256x2048_S2048x64_S256x64_1_0_0_1_n_n.contr.Idx) :
    (dot_S256x2048_S2048x64_S256x64_1_0_0_1_n_n.lhsIdx i k 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
private theorem wv_r1 (i : S256x64.Idx) (k : dot_S256x2048_S2048x64_S256x64_1_0_0_1_n_n.contr.Idx) :
    (dot_S256x2048_S2048x64_S256x64_1_0_0_1_n_n.rhsIdx i k 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- Weights against values: at `(p, e)` the sum over the 2048 positions. -/
theorem matmul_wv_apply {φ₁ φ₂ : FTy} (A : FVec Ideal S256x2048 φ₁) (B : FVec Ideal S2048x64 φ₂) (p : Fin 256) (j : Fin 64) :
    matmul dot_S256x2048_S2048x64_S256x64_1_0_0_1_n_n none A B (constant S256x64 .f32 0x00000000#32) (ix2 p j)
      = ∑ e : Fin 2048, A (ix2 p e) * B (ix2 e j) := by
  simp only [matmul]
  rw [Ideal.matmul_constant_zero_apply,
    ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p j)
      ((contrEquiv1 dot_S256x2048_S2048x64_S256x64_1_0_0_1_n_n 2048 rfl rfl).symm k) = ix2 p k := funext fun a => Fin.ext (by
    match a with
    | ⟨0, _⟩ => exact wv_l0 _ _
    | ⟨1, _⟩ => exact (dot_S256x2048_S2048x64_S256x64_1_0_0_1_n_n.lhsIdx_val_of_single rfl _ _).trans hk)
  have er : dot_S256x2048_S2048x64_S256x64_1_0_0_1_n_n.rhsIdx (ix2 p j)
      ((contrEquiv1 dot_S256x2048_S2048x64_S256x64_1_0_0_1_n_n 2048 rfl rfl).symm k) = ix2 k j := funext fun a => Fin.ext (by
    match a with
    | ⟨0, _⟩ => exact (dot_S256x2048_S2048x64_S256x64_1_0_0_1_n_n.rhsIdx_val_of_single rfl _ _).trans hk
    | ⟨1, _⟩ => exact wv_r1 _ _)
  rw [el, er]

private theorem ow_l0 (i : S256x1024.Idx) (k : dot_S256x64_S64x1024_S256x1024_1_0_0_1_n_n.contr.Idx) :
    (dot_S256x64_S64x1024_S256x1024_1_0_0_1_n_n.lhsIdx i k 0).val = (i 0).val := by
  unfold DotDims.lhsIdx
  rw [dif_neg (show ¬(0 : Fin S256x64.rank) ∈ dot_S256x64_S64x1024_S256x1024_1_0_0_1_n_n.lhsBatch by decide),
    dif_pos (show (0 : Fin S256x64.rank) ∈ dot_S256x64_S64x1024_S256x1024_1_0_0_1_n_n.lhsNonContracting by decide)]
  rfl
private theorem ow_r1 (i : S256x1024.Idx) (k : dot_S256x64_S64x1024_S256x1024_1_0_0_1_n_n.contr.Idx) :
    (dot_S256x64_S64x1024_S256x1024_1_0_0_1_n_n.rhsIdx i k 1).val = (i 1).val := by
  unfold DotDims.rhsIdx
  rw [dif_neg (show ¬(1 : Fin S64x1024.rank) ∈ dot_S256x64_S64x1024_S256x1024_1_0_0_1_n_n.rhsBatch by decide),
    dif_pos (show (1 : Fin S64x1024.rank) ∈ dot_S256x64_S64x1024_S256x1024_1_0_0_1_n_n.rhsNonContracting by decide)]
  rfl

/-- Gated rows against the head's block of the output weight: at `(p, q)` the sum over the 64 features. -/
theorem matmul_ow_apply {φ₁ φ₂ : FTy} (A : FVec Ideal S256x64 φ₁) (B : FVec Ideal S64x1024 φ₂) (p : Fin 256) (j : Fin 1024) :
    matmul dot_S256x64_S64x1024_S256x1024_1_0_0_1_n_n none A B (constant S256x1024 .f32 0x00000000#32) (ix2 p j)
      = ∑ e : Fin 64, A (ix2 p e) * B (ix2 e j) := by
  simp only [matmul]
  rw [Ideal.matmul_constant_zero_apply,
    ← Equiv.sum_comp (contrEquiv1 dot_S256x64_S64x1024_S256x1024_1_0_0_1_n_n 64 rfl rfl).symm]
  refine Finset.sum_congr rfl fun k _ => ?_
  have hk := contrEquiv1_symm_val dot_S256x64_S64x1024_S256x1024_1_0_0_1_n_n 64 rfl rfl k
  have el : dot_S256x64_S64x1024_S256x1024_1_0_0_1_n_n.lhsIdx (ix2 p j)
      ((contrEquiv1 dot_S256x64_S64x1024_S256x1024_1_0_0_1_n_n 64 rfl rfl).symm k) = ix2 p k := funext fun a => Fin.ext (by
    match a with
    | ⟨0, _⟩ => exact ow_l0 _ _
    | ⟨1, _⟩ => exact (dot_S256x64_S64x1024_S256x1024_1_0_0_1_n_n.lhsIdx_val_of_single rfl _ _).trans hk)
  have er : dot_S256x64_S64x1024_S256x1024_1_0_0_1_n_n.rhsIdx (ix2 p j)
      ((contrEquiv1 dot_S256x64_S64x1024_S256x1024_1_0_0_1_n_n 64 rfl rfl).symm k) = ix2 k j := funext fun a => Fin.ext (by
    match a with
    | ⟨0, _⟩ => exact (dot_S256x64_S64x1024_S256x1024_1_0_0_1_n_n.rhsIdx_val_of_single rfl _ _).trans hk
    | ⟨1, _⟩ => exact ow_r1 _ _)
  rw [el, er]

end MatMul

/-! ## Layout operations and lane sums at an index -/

section Layout
variable {α : Type}

/-- A matrix cut from `(o0, o1)` reads, at `(j, e)`, the source at `(o0 + j, o1 + e)`. -/
theorem slice2_apply {n0 n1 m0 m1 : Nat} (o0 o1 : Nat) (X : (⟨2, ![n0, n1]⟩ : Shape).Idx → α)
    (h : (⟨2, ![n0, n1]⟩ : Shape).Slices ![o0, o1] ⟨2, ![m0, m1]⟩)
    (j : Fin m0) (e : Fin m1) (k0 : Fin n0) (k1 : Fin n1) (hk0 : k0.val = o0 + j.val) (hk1 : k1.val = o1 + e.val) :
    extractStridedSlice ⟨2, ![m0, m1]⟩ ![o0, o1] X h (ix2 j e) = X (ix2 k0 k1) :=
  extractStridedSlice_apply _ _ _ _ _ (fun ax => by
    match ax with
    | ⟨0, _⟩ => exact hk0
    | ⟨1, _⟩ => exact hk1)

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of a matrix's row. -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  rw [h.lift_val]
  unfold Shape.Reduces.liftVal
  match c with
  | ⟨0, _⟩ => simp
  | ⟨1, _⟩ => simp

end Layout

/-! ## One tile's arithmetic, from its queries, gates and the shared keys and values -/

section Chain
open Cert.Shepard

/-- The squared distances of a tile's queries to all keys, by the expansion: the queries' squared norms down the rows plus
    the keys' squared norms along the columns, minus twice the inner products. -/
def sqDist (Q : FVec Ideal S256x64 .f32) (Kb : FVec Ideal S2048x64 .bf16) (k2row : FVec Ideal S1x2048 .f32) :
    FVec Ideal S256x2048 .f32 :=
  subf
    (addf
      (broadcastTo S256x2048
        (shapeCast S256x1 (multiReduction .add [1] S256 (mulf Q Q) 0x00000000#32 reduces_S256x64_S256 (.inl rfl) rfl)
          shapeCasts_S256_S256x1) broadcasts_S256x1_S256x2048)
      (broadcastTo S256x2048 k2row broadcasts_S1x2048_S256x2048))
    (mulf (broadcast S256x2048 (Scalar.ofBits .f32 0x40000000#32))
      (matmul dot_S256x64_S64x2048_S256x2048_1_0_0_1_n_n none (truncf .bf16 Q bitsLt_bf16_f32)
        (transpose S64x2048 [1, 0] Kb transposes_S2048x64_p1_0_S64x2048) (constant S256x2048 .f32 0x00000000#32)))

theorem sqDist_apply (Q : FVec Ideal S256x64 .f32) (Kb : FVec Ideal S2048x64 .bf16) (k2row : FVec Ideal S1x2048 .f32)
    (p : Fin 256) (j : Fin 2048) :
    sqDist Q Kb k2row (ix2 p j)
      = (∑ e : Fin 64, Q (ix2 p e) * Q (ix2 p e)) + k2row (ix2 (0 : Fin 1) j) - two * ∑ e : Fin 64, Q (ix2 p e) * Kb (ix2 j e) := by
  unfold sqDist
  rw [subf_apply, addf_apply, mulf_apply, broadcast_apply]
  refine congrArg₂ (· - ·) (congrArg₂ (· + ·) ?_ ?_) (congrArg (two * ·) ?_)
  · refine (broadcastTo_a1_ab_apply _ _ p j).trans ?_
    refine (shapeCast_a_a1_apply _ _ p 0).trans ?_
    exact rowSum_apply (mulf Q Q) _ _ _ _ p
  · exact broadcastTo_1b_ab_apply _ _ p j
  · refine (matmul_qk_apply _ _ p j).trans ?_
    refine Finset.sum_congr rfl fun e _ => ?_
    rw [truncf_apply]
    exact congrArg (Q (ix2 p e) * ·) (transpose_ix2_apply Kb _ e j)

/-- The Shepard weights from the squared distances: clamp at zero, root, add ε, square, invert. -/
def weights (d2 : FVec Ideal S256x2048 .f32) : FVec Ideal S256x2048 .f32 :=
  divf (broadcast S256x2048 (Scalar.ofBits .f32 0x3F800000#32))
    (mulf
      (addf (broadcast S256x2048 (Scalar.ofBits .f32 0x38D1B717#32))
        (sqrt (maximumf d2 (broadcast S256x2048 (Scalar.ofBits .f32 0x00000000#32)))))
      (addf (broadcast S256x2048 (Scalar.ofBits .f32 0x38D1B717#32))
        (sqrt (maximumf d2 (broadcast S256x2048 (Scalar.ofBits .f32 0x00000000#32))))))

theorem weights_apply (d2 : FVec Ideal S256x2048 .f32) (i : S256x2048.Idx) :
    weights d2 i = Ideal.div one ((eps + Ideal.sqrt (max (d2 i) zero)) * (eps + Ideal.sqrt (max (d2 i) zero))) := rfl

/-- From a tile's weights `w`, gates `G`, the values `Vb` and the head's block `Wb` of the transposed output weight: the
    loaded rows `vl` plus (gates ⊙ (normalised weights · values)) · `Wb`. -/
def tileOut (w : FVec Ideal S256x2048 .f32) (G : FVec Ideal S256x64 .f32) (Vb : FVec Ideal S2048x64 .bf16)
    (Wb : FVec Ideal S64x1024 .bf16) (vl : Vec Ideal S256x1024 .f32) : FVec Ideal S256x1024 .f32 :=
  addf (shapeCast S256x1024 vl shapeCasts_S256x1024_S256x1024)
    (matmul dot_S256x64_S64x1024_S256x1024_1_0_0_1_n_n none
      (truncf .bf16
        (mulf G
          (matmul dot_S256x2048_S2048x64_S256x64_1_0_0_1_n_n none
            (truncf .bf16
              (divf w
                (broadcastTo S256x2048
                  (addf (broadcast S256x1 (Scalar.ofBits .f32 0x38D1B717#32))
                    (shapeCast S256x1 (multiReduction .add [1] S256 w 0x00000000#32 reduces_S256x2048_S256 (.inl rfl) rfl)
                      shapeCasts_S256_S256x1))
                  broadcasts_S256x1_S256x2048))
              bitsLt_bf16_f32)
            Vb (constant S256x64 .f32 0x00000000#32)))
        bitsLt_bf16_f32)
      Wb (constant S256x1024 .f32 0x00000000#32))

theorem tileOut_apply (w : FVec Ideal S256x2048 .f32) (G : FVec Ideal S256x64 .f32) (Vb : FVec Ideal S2048x64 .bf16)
    (Wb : FVec Ideal S64x1024 .bf16) (vl : Vec Ideal S256x1024 .f32) (p : Fin 256) (q : Fin 1024) :
    tileOut w G Vb Wb vl (ix2 p q)
      = vl (ix2 p q) + ∑ e : Fin 64,
          (G (ix2 p e) * ∑ j : Fin 2048, Ideal.div (w (ix2 p j)) (eps + ∑ j' : Fin 2048, w (ix2 p j')) * Vb (ix2 j e))
            * Wb (ix2 e q) := by
  unfold tileOut
  rw [addf_apply, shapeCast_self]
  refine congrArg (vl (ix2 p q) + ·) ?_
  refine (matmul_ow_apply _ _ p q).trans ?_
  refine Finset.sum_congr rfl fun e _ => ?_
  rw [truncf_apply, mulf_apply]
  refine congrArg (· * Wb (ix2 e q)) (congrArg (G (ix2 p e) * ·) ?_)
  refine (matmul_wv_apply _ _ p e).trans ?_
  refine Finset.sum_congr rfl fun j _ => ?_
  rw [truncf_apply, divf_apply]
  refine congrArg (· * Vb (ix2 j e)) (congrArg (Ideal.div (w (ix2 p j))) ?_)
  refine (broadcastTo_a1_ab_apply _ _ p j).trans ?_
  rw [addf_apply, broadcast_apply]
  refine congrArg (eps + ·) ?_
  refine (shapeCast_a_a1_apply _ _ p 0).trans ?_
  exact rowSum_apply w _ _ _ _ p

end Chain

/-! ## The shared pieces in the specification's terms -/

section Pieces
open Cert.Shepard

/-- The block as a matrix of positions by columns. -/
theorem pay3_apply (x0 : Vec Ideal S1x1x2048x256 .f32) (i : Fin 2048) (c : Fin 256) :
    k1_pay3 (F := Ideal) x0 (ix2 i c) = blkP x0 i c := by
  unfold k1_pay3
  exact shapeCast_11ab_ab_apply x0 _ i c

/-- A 256-row, 64-column cut of the block at `(o0, o1)`. -/
theorem cut_apply (x0 : Vec Ideal S1x1x2048x256 .f32) (o0 o1 : Nat) (h : S2048x256.Slices ![o0, o1] S256x64)
    (p : Fin 256) (e : Fin 64) (r : Fin 2048) (c : Fin 256) (hr : r.val = o0 + p.val) (hc : c.val = o1 + e.val) :
    extractStridedSlice S256x64 ![o0, o1] (k1_pay3 (F := Ideal) x0) h (ix2 p e) = blkP x0 r c :=
  (slice2_apply o0 o1 _ h p e r c hr hc).trans (pay3_apply x0 r c)

/-- The keys. -/
theorem pay5_apply (x0 : Vec Ideal S1x1x2048x256 .f32) (j : Fin 2048) (e : Fin 64) :
    k1_pay5 (F := Ideal) x0 (ix2 j e) = kOf (blkP x0) j e := by
  unfold k1_pay5 k1_pay4
  rw [truncf_apply]
  exact (slice2_apply 0 64 _ _ j e j (grp 64 (by omega) e) (Nat.zero_add _).symm rfl).trans (pay3_apply x0 _ _)

/-- The values. -/
theorem pay6_apply (x0 : Vec Ideal S1x1x2048x256 .f32) (j : Fin 2048) (e : Fin 64) :
    k1_pay6 (F := Ideal) x0 (ix2 j e) = vOf (blkP x0) j e := by
  unfold k1_pay6
  rw [truncf_apply]
  exact (slice2_apply 0 128 _ _ j e j (grp 128 (by omega) e) (Nat.zero_add _).symm rfl).trans (pay3_apply x0 _ _)

/-- The keys' squared norms, as a row. -/
theorem pay7_apply (x0 : Vec Ideal S1x1x2048x256 .f32) (j : Fin 2048) :
    k1_pay7 (F := Ideal) x0 (ix2 (0 : Fin 1) j) = k2 (blkP x0) j := by
  unfold k1_pay7
  refine (shapeCast_a_1a_apply _ _ 0 j).trans ?_
  refine (rowSum_apply _ _ _ _ _ j).trans ?_
  unfold k2
  refine Finset.sum_congr rfl fun e _ => ?_
  rw [mulf_apply]
  have h4 : k1_pay4 (F := Ideal) x0 (ix2 j e) = kOf (blkP x0) j e := by
    unfold k1_pay4
    exact (slice2_apply 0 64 _ _ j e j (grp 64 (by omega) e) (Nat.zero_add _).symm rfl).trans (pay3_apply x0 _ _)
  rw [h4]

/-- The head's block of the transposed output weight. -/
theorem pay8_apply (x1 : Vec Ideal S64x1024 .f32) (e : Fin 64) (q : Fin 1024) :
    k1_pay8 (F := Ideal) x1 (ix2 e q) = x1 (ix2 e q) := by
  unfold k1_pay8
  rw [truncf_apply, shapeCast_self]

/-- A tile's stored value at an index, from what its queries and gates are at that row: the loaded accumulator there plus the
    head's contribution to the output projection. -/
theorem tile_value (x0 : Vec Ideal S1x1x2048x256 .f32) (x1 : Vec Ideal S64x1024 .f32) (vl : Vec Ideal S256x1024 .f32)
    (Q G : FVec Ideal S256x64 .f32) (r : Fin 2048) (p : Fin 256) (q : Fin 1024)
    (hQ : ∀ e, Q (ix2 p e) = qOf (blkP x0) r e) (hG : ∀ e, G (ix2 p e) = gOf (blkP x0) r e) :
    tileOut (weights (sqDist Q (k1_pay5 x0) (k1_pay7 x0))) G (k1_pay6 x0) (k1_pay8 x1) vl (ix2 p q)
      = vl (ix2 p q) + partialOut x0 x1 r q := by
  have hw : ∀ j, weights (sqDist Q (k1_pay5 x0) (k1_pay7 x0)) (ix2 p j) = wt (blkP x0) r j := by
    intro j
    rw [weights_apply, sqDist_apply]
    unfold wt Cert.Shepard.dist q2 qk
    simp only [hQ, pay5_apply, pay7_apply]
  rw [tileOut_apply]
  unfold partialOut gated att den
  refine congrArg (vl (ix2 p q) + ·) (Finset.sum_congr rfl fun e _ => ?_)
  simp only [hw, hG, pay6_apply, pay8_apply]

end Pieces

/-! ## The eight tiles -/

section Tiles
open Cert.Shepard

/-- Tile `k`'s queries and gates: rows `256k … 256k + 255` of the block's first and last column groups. -/
abbrev tileQ (x0 : Vec Ideal S1x1x2048x256 .f32) (o : Nat) (h : S2048x256.Slices ![o, 0] S256x64) : FVec Ideal S256x64 .f32 :=
  extractStridedSlice S256x64 ![o, 0] (k1_pay3 (F := Ideal) x0) h
abbrev tileG (x0 : Vec Ideal S1x1x2048x256 .f32) (o : Nat) (h : S2048x256.Slices ![o, 192] S256x64) : FVec Ideal S256x64 .f32 :=
  extractStridedSlice S256x64 ![o, 192] (k1_pay3 (F := Ideal) x0) h

/-- The uniform form of a tile's stored value. -/
abbrev tileU (x0 : Vec Ideal S1x1x2048x256 .f32) (x1 : Vec Ideal S64x1024 .f32) (vl : Vec Ideal S256x1024 .f32) (o : Nat)
    (hq : S2048x256.Slices ![o, 0] S256x64) (hg : S2048x256.Slices ![o, 192] S256x64) : FVec Ideal S256x1024 .f32 :=
  tileOut (weights (sqDist (tileQ x0 o hq) (k1_pay5 x0) (k1_pay7 x0))) (tileG x0 o hg) (k1_pay6 x0) (k1_pay8 x1) vl

theorem tileU_value (x0 : Vec Ideal S1x1x2048x256 .f32) (x1 : Vec Ideal S64x1024 .f32) (vl : Vec Ideal S256x1024 .f32) (o : Nat)
    (hq : S2048x256.Slices ![o, 0] S256x64) (hg : S2048x256.Slices ![o, 192] S256x64)
    (p : Fin 256) (q : Fin 1024) (r : Fin 2048) (hr : r.val = o + p.val) :
    tileU x0 x1 vl o hq hg (ix2 p q) = vl (ix2 p q) + partialOut x0 x1 r q :=
  tile_value x0 x1 vl _ _ r p q
    (fun e => cut_apply x0 o 0 hq p e r (grp 0 (by omega) e) hr rfl)
    (fun e => cut_apply x0 o 192 hg p e r (grp 192 (by omega) e) hr rfl)

/-- Tile 0 (rows 0 … 255) as the body composes it is the uniform form. -/
theorem tile0_eq (x0 : Vec Ideal S1x1x2048x256 .f32) (x1 : Vec Ideal S64x1024 .f32) (vl : Vec Ideal S256x1024 .f32) :
    k1_pay13 (F := Ideal) (k1_pay6 x0) (k1_pay8 x1) (k1_pay10 x0) (k1_pay11 x0) (k1_pay12 x0) (Scalar.ofBits .f32 0x38D1B717#32) vl
      = tileU x0 x1 vl 0 slices_S2048x256_o0_0_S256x64 slices_S2048x256_o0_192_S256x64 := rfl

theorem tile0_value (x0 : Vec Ideal S1x1x2048x256 .f32) (x1 : Vec Ideal S64x1024 .f32) (vl : Vec Ideal S256x1024 .f32)
    (p : Fin 256) (q : Fin 1024) (r : Fin 2048) (hr : r.val = 0 + p.val) :
    k1_pay13 (F := Ideal) (k1_pay6 x0) (k1_pay8 x1) (k1_pay10 x0) (k1_pay11 x0) (k1_pay12 x0) (Scalar.ofBits .f32 0x38D1B717#32) vl (ix2 p q)
      = vl (ix2 p q) + partialOut x0 x1 r q :=
  (congrFun (tile0_eq x0 x1 vl) (ix2 p q)).trans (tileU_value x0 x1 vl 0 _ _ p q r hr)

/-- Tile 1 (rows 256 … 511) as the body composes it is the uniform form. -/
theorem tile1_eq (x0 : Vec Ideal S1x1x2048x256 .f32) (x1 : Vec Ideal S64x1024 .f32) (vl : Vec Ideal S256x1024 .f32) :
    k1_pay17 (F := Ideal) (k1_pay6 x0) (k1_pay8 x1) (k1_pay14 (k1_pay3 x0)) (k1_pay15 (k1_pay3 x0) (k1_pay5 x0) (k1_pay7 x0)) (k1_pay16 (k1_pay3 x0) (k1_pay5 x0) (k1_pay7 x0)) vl
      = tileU x0 x1 vl 256 slices_S2048x256_o256_0_S256x64 slices_S2048x256_o256_192_S256x64 := rfl

theorem tile1_value (x0 : Vec Ideal S1x1x2048x256 .f32) (x1 : Vec Ideal S64x1024 .f32) (vl : Vec Ideal S256x1024 .f32)
    (p : Fin 256) (q : Fin 1024) (r : Fin 2048) (hr : r.val = 256 + p.val) :
    k1_pay17 (F := Ideal) (k1_pay6 x0) (k1_pay8 x1) (k1_pay14 (k1_pay3 x0)) (k1_pay15 (k1_pay3 x0) (k1_pay5 x0) (k1_pay7 x0)) (k1_pay16 (k1_pay3 x0) (k1_pay5 x0) (k1_pay7 x0)) vl (ix2 p q)
      = vl (ix2 p q) + partialOut x0 x1 r q :=
  (congrFun (tile1_eq x0 x1 vl) (ix2 p q)).trans (tileU_value x0 x1 vl 256 _ _ p q r hr)

/-- Tile 2 (rows 512 … 767) as the body composes it is the uniform form. -/
theorem tile2_eq (x0 : Vec Ideal S1x1x2048x256 .f32) (x1 : Vec Ideal S64x1024 .f32) (vl : Vec Ideal S256x1024 .f32) :
    k1_pay20 (F := Ideal) (k1_pay6 x0) (k1_pay8 x1) (k1_pay18 (k1_pay3 x0)) (k1_pay19 (k1_pay3 x0) (k1_pay5 x0) (k1_pay7 x0)) vl
      = tileU x0 x1 vl 512 slices_S2048x256_o512_0_S256x64 slices_S2048x256_o512_192_S256x64 := rfl

theorem tile2_value (x0 : Vec Ideal S1x1x2048x256 .f32) (x1 : Vec Ideal S64x1024 .f32) (vl : Vec Ideal S256x1024 .f32)
    (p : Fin 256) (q : Fin 1024) (r : Fin 2048) (hr : r.val = 512 + p.val) :
    k1_pay20 (F := Ideal) (k1_pay6 x0) (k1_pay8 x1) (k1_pay18 (k1_pay3 x0)) (k1_pay19 (k1_pay3 x0) (k1_pay5 x0) (k1_pay7 x0)) vl (ix2 p q)
      = vl (ix2 p q) + partialOut x0 x1 r q :=
  (congrFun (tile2_eq x0 x1 vl) (ix2 p q)).trans (tileU_value x0 x1 vl 512 _ _ p q r hr)

/-- Tile 3 (rows 768 … 1023) as the body composes it is the uniform form. -/
theorem tile3_eq (x0 : Vec Ideal S1x1x2048x256 .f32) (x1 : Vec Ideal S64x1024 .f32) (vl : Vec Ideal S256x1024 .f32) :
    k1_pay23 (F := Ideal) (k1_pay6 x0) (k1_pay8 x1) (k1_pay21 (k1_pay3 x0)) (k1_pay22 (k1_pay3 x0) (k1_pay5 x0) (k1_pay7 x0)) (Scalar.ofBits .f32 0x3F800000#32) vl
      = tileU x0 x1 vl 768 slices_S2048x256_o768_0_S256x64 slices_S2048x256_o768_192_S256x64 := rfl

theorem tile3_value (x0 : Vec Ideal S1x1x2048x256 .f32) (x1 : Vec Ideal S64x1024 .f32) (vl : Vec Ideal S256x1024 .f32)
    (p : Fin 256) (q : Fin 1024) (r : Fin 2048) (hr : r.val = 768 + p.val) :
    k1_pay23 (F := Ideal) (k1_pay6 x0) (k1_pay8 x1) (k1_pay21 (k1_pay3 x0)) (k1_pay22 (k1_pay3 x0) (k1_pay5 x0) (k1_pay7 x0)) (Scalar.ofBits .f32 0x3F800000#32) vl (ix2 p q)
      = vl (ix2 p q) + partialOut x0 x1 r q :=
  (congrFun (tile3_eq x0 x1 vl) (ix2 p q)).trans (tileU_value x0 x1 vl 768 _ _ p q r hr)

/-- Tile 4 (rows 1024 … 1279) as the body composes it is the uniform form. -/
theorem tile4_eq (x0 : Vec Ideal S1x1x2048x256 .f32) (x1 : Vec Ideal S64x1024 .f32) (vl : Vec Ideal S256x1024 .f32) :
    k1_pay26 (F := Ideal) (k1_pay6 x0) (k1_pay8 x1) (k1_pay24 (k1_pay3 x0)) (k1_pay25 (k1_pay3 x0) (k1_pay5 x0) (k1_pay7 x0)) vl
      = tileU x0 x1 vl 1024 slices_S2048x256_o1024_0_S256x64 slices_S2048x256_o1024_192_S256x64 := rfl

theorem tile4_value (x0 : Vec Ideal S1x1x2048x256 .f32) (x1 : Vec Ideal S64x1024 .f32) (vl : Vec Ideal S256x1024 .f32)
    (p : Fin 256) (q : Fin 1024) (r : Fin 2048) (hr : r.val = 1024 + p.val) :
    k1_pay26 (F := Ideal) (k1_pay6 x0) (k1_pay8 x1) (k1_pay24 (k1_pay3 x0)) (k1_pay25 (k1_pay3 x0) (k1_pay5 x0) (k1_pay7 x0)) vl (ix2 p q)
      = vl (ix2 p q) + partialOut x0 x1 r q :=
  (congrFun (tile4_eq x0 x1 vl) (ix2 p q)).trans (tileU_value x0 x1 vl 1024 _ _ p q r hr)

/-- Tile 5 (rows 1280 … 1535) as the body composes it is the uniform form. -/
theorem tile5_eq (x0 : Vec Ideal S1x1x2048x256 .f32) (x1 : Vec Ideal S64x1024 .f32) (vl : Vec Ideal S256x1024 .f32) :
    k1_pay29 (F := Ideal) (k1_pay6 x0) (k1_pay8 x1) (k1_pay27 (k1_pay3 x0)) (k1_pay28 (k1_pay3 x0) (k1_pay5 x0) (k1_pay7 x0)) (Scalar.ofBits .f32 0x38D1B717#32) vl
      = tileU x0 x1 vl 1280 slices_S2048x256_o1280_0_S256x64 slices_S2048x256_o1280_192_S256x64 := rfl

theorem tile5_value (x0 : Vec Ideal S1x1x2048x256 .f32) (x1 : Vec Ideal S64x1024 .f32) (vl : Vec Ideal S256x1024 .f32)
    (p : Fin 256) (q : Fin 1024) (r : Fin 2048) (hr : r.val = 1280 + p.val) :
    k1_pay29 (F := Ideal) (k1_pay6 x0) (k1_pay8 x1) (k1_pay27 (k1_pay3 x0)) (k1_pay28 (k1_pay3 x0) (k1_pay5 x0) (k1_pay7 x0)) (Scalar.ofBits .f32 0x38D1B717#32) vl (ix2 p q)
      = vl (ix2 p q) + partialOut x0 x1 r q :=
  (congrFun (tile5_eq x0 x1 vl) (ix2 p q)).trans (tileU_value x0 x1 vl 1280 _ _ p q r hr)

/-- Tile 6 (rows 1536 … 1791) as the body composes it is the uniform form. -/
theorem tile6_eq (x0 : Vec Ideal S1x1x2048x256 .f32) (x1 : Vec Ideal S64x1024 .f32) (vl : Vec Ideal S256x1024 .f32) :
    k1_pay32 (F := Ideal) (k1_pay6 x0) (k1_pay8 x1) (k1_pay30 (k1_pay3 x0)) (k1_pay31 (k1_pay3 x0) (k1_pay5 x0) (k1_pay7 x0)) vl
      = tileU x0 x1 vl 1536 slices_S2048x256_o1536_0_S256x64 slices_S2048x256_o1536_192_S256x64 := rfl

theorem tile6_value (x0 : Vec Ideal S1x1x2048x256 .f32) (x1 : Vec Ideal S64x1024 .f32) (vl : Vec Ideal S256x1024 .f32)
    (p : Fin 256) (q : Fin 1024) (r : Fin 2048) (hr : r.val = 1536 + p.val) :
    k1_pay32 (F := Ideal) (k1_pay6 x0) (k1_pay8 x1) (k1_pay30 (k1_pay3 x0)) (k1_pay31 (k1_pay3 x0) (k1_pay5 x0) (k1_pay7 x0)) vl (ix2 p q)
      = vl (ix2 p q) + partialOut x0 x1 r q :=
  (congrFun (tile6_eq x0 x1 vl) (ix2 p q)).trans (tileU_value x0 x1 vl 1536 _ _ p q r hr)

/-- Tile 7 (rows 1792 … 2047) as the body composes it is the uniform form. -/
theorem tile7_eq (x0 : Vec Ideal S1x1x2048x256 .f32) (x1 : Vec Ideal S64x1024 .f32) (vl : Vec Ideal S256x1024 .f32) :
    k1_pay1 (F := Ideal) (k1_pay6 x0) (k1_pay8 x1) (k1_pay33 (k1_pay3 x0)) (k1_pay34 (k1_pay3 x0) (k1_pay5 x0) (k1_pay7 x0)) (Scalar.ofBits .f32 0x00000000#32) vl
      = tileU x0 x1 vl 1792 slices_S2048x256_o1792_0_S256x64 slices_S2048x256_o1792_192_S256x64 := rfl

theorem tile7_value (x0 : Vec Ideal S1x1x2048x256 .f32) (x1 : Vec Ideal S64x1024 .f32) (vl : Vec Ideal S256x1024 .f32)
    (p : Fin 256) (q : Fin 1024) (r : Fin 2048) (hr : r.val = 1792 + p.val) :
    k1_pay1 (F := Ideal) (k1_pay6 x0) (k1_pay8 x1) (k1_pay33 (k1_pay3 x0)) (k1_pay34 (k1_pay3 x0) (k1_pay5 x0) (k1_pay7 x0)) (Scalar.ofBits .f32 0x00000000#32) vl (ix2 p q)
      = vl (ix2 p q) + partialOut x0 x1 r q :=
  (congrFun (tile7_eq x0 x1 vl) (ix2 p q)).trans (tileU_value x0 x1 vl 1792 _ _ p q r hr)

end Tiles

/-! ## The cleared block and the bias -/

section Edges

/-- The cleared accumulator is zero everywhere. -/
theorem zeros_apply (i : S1x2048x1024.Idx) : k1_pay9 (F := Ideal) i = 0 := by
  show Ideal.ofBits .f32 0x00000000#32 = 0
  exact Ideal.ofBits_zero_f32

/-- The last head's closing step adds the bias along the output features, at every position. -/
theorem bias_apply (v : Vec Ideal S1x2048x1024 .f32) (x2 : Vec Ideal S1024 .f32) (r : Fin 2048) (q : Fin 1024) :
    k1_pay2 (F := Ideal) v x2 (ix3 (0 : Fin 1) r q) = v (ix3 (0 : Fin 1) r q) + x2 (ix1 q) := by
  unfold k1_pay2
  refine (shapeCast_ab_1ab_apply _ _ 0 r q).trans ?_
  rw [addf_apply]
  refine congrArg₂ (· + ·) (shapeCast_1ab_ab_apply v _ r q) ?_
  refine (broadcastTo_1b_ab_apply _ _ r q).trans ?_
  exact shapeCast_a_1a_apply x2 _ 0 q

end Edges

end Cert.KernelIdeal.HandValue

end
-- ==== Proof.R1TileValue.lean ====
/- The attention kernel's stored values at an index, in the specification's terms: each row tile is the loaded rows plus the
   head's contribution to the output projection; the cleared block is zero; the closing step adds the bias. -/
import proofs.«100586_j44555990728728_1_alg».proof.Proof.R1TileDefs
import proofs.«100586_j44555990728728_1_alg».proof.Proof.R1Tiles

set_option maxRecDepth 16384

noncomputable section

namespace Cert.KernelIdeal.HandValue

open Cert.KernelIdeal Cert.KernelIdeal.Gen Cert.KernelIdeal.Hand
open Idealize.ShloMosaic Idealize.ShloMosaic.ValueIdx

/-- Rows 0 … 255: at row `p` of the tile, column `q`, the loaded value plus the head's contribution at position `0 + p`. -/
theorem tile0_apply (x0 : Vec Ideal S1x1x2048x256 .f32) (x1 : Vec Ideal S64x1024 .f32) (vl : Vec Ideal S256x1024 .f32)
    (p : Fin 256) (q : Fin 1024) (r : Fin 2048) (hr : r.val = 0 + p.val) :
    tile0 (F := Ideal) x0 x1 vl (ix2 p q) = vl (ix2 p q) + partialOut x0 x1 r q :=
  tile0_value x0 x1 vl p q r hr

/-- Rows 256 … 511: at row `p` of the tile, column `q`, the loaded value plus the head's contribution at position `256 + p`. -/
theorem tile1_apply (x0 : Vec Ideal S1x1x2048x256 .f32) (x1 : Vec Ideal S64x1024 .f32) (vl : Vec Ideal S256x1024 .f32)
    (p : Fin 256) (q : Fin 1024) (r : Fin 2048) (hr : r.val = 256 + p.val) :
    tile1 (F := Ideal) x0 x1 vl (ix2 p q) = vl (ix2 p q) + partialOut x0 x1 r q :=
  tile1_value x0 x1 vl p q r hr

/-- Rows 512 … 767: at row `p` of the tile, column `q`, the loaded value plus the head's contribution at position `512 + p`. -/
theorem tile2_apply (x0 : Vec Ideal S1x1x2048x256 .f32) (x1 : Vec Ideal S64x1024 .f32) (vl : Vec Ideal S256x1024 .f32)
    (p : Fin 256) (q : Fin 1024) (r : Fin 2048) (hr : r.val = 512 + p.val) :
    tile2 (F := Ideal) x0 x1 vl (ix2 p q) = vl (ix2 p q) + partialOut x0 x1 r q :=
  tile2_value x0 x1 vl p q r hr

/-- Rows 768 … 1023: at row `p` of the tile, column `q`, the loaded value plus the head's contribution at position `768 + p`. -/
theorem tile3_apply (x0 : Vec Ideal S1x1x2048x256 .f32) (x1 : Vec Ideal S64x1024 .f32) (vl : Vec Ideal S256x1024 .f32)
    (p : Fin 256) (q : Fin 1024) (r : Fin 2048) (hr : r.val = 768 + p.val) :
    tile3 (F := Ideal) x0 x1 vl (ix2 p q) = vl (ix2 p q) + partialOut x0 x1 r q :=
  tile3_value x0 x1 vl p q r hr

/-- Rows 1024 … 1279: at row `p` of the tile, column `q`, the loaded value plus the head's contribution at position `1024 + p`. -/
theorem tile4_apply (x0 : Vec Ideal S1x1x2048x256 .f32) (x1 : Vec Ideal S64x1024 .f32) (vl : Vec Ideal S256x1024 .f32)
    (p : Fin 256) (q : Fin 1024) (r : Fin 2048) (hr : r.val = 1024 + p.val) :
    tile4 (F := Ideal) x0 x1 vl (ix2 p q) = vl (ix2 p q) + partialOut x0 x1 r q :=
  tile4_value x0 x1 vl p q r hr

/-- Rows 1280 … 1535: at row `p` of the tile, column `q`, the loaded value plus the head's contribution at position `1280 + p`. -/
theorem tile5_apply (x0 : Vec Ideal S1x1x2048x256 .f32) (x1 : Vec Ideal S64x1024 .f32) (vl : Vec Ideal S256x1024 .f32)
    (p : Fin 256) (q : Fin 1024) (r : Fin 2048) (hr : r.val = 1280 + p.val) :
    tile5 (F := Ideal) x0 x1 vl (ix2 p q) = vl (ix2 p q) + partialOut x0 x1 r q :=
  tile5_value x0 x1 vl p q r hr

/-- Rows 1536 … 1791: at row `p` of the tile, column `q`, the loaded value plus the head's contribution at position `1536 + p`. -/
theorem tile6_apply (x0 : Vec Ideal S1x1x2048x256 .f32) (x1 : Vec Ideal S64x1024 .f32) (vl : Vec Ideal S256x1024 .f32)
    (p : Fin 256) (q : Fin 1024) (r : Fin 2048) (hr : r.val = 1536 + p.val) :
    tile6 (F := Ideal) x0 x1 vl (ix2 p q) = vl (ix2 p q) + partialOut x0 x1 r q :=
  tile6_value x0 x1 vl p q r hr

/-- Rows 1792 … 2047: at row `p` of the tile, column `q`, the loaded value plus the head's contribution at position `1792 + p`. -/
theorem tile7_apply (x0 : Vec Ideal S1x1x2048x256 .f32) (x1 : Vec Ideal S64x1024 .f32) (vl : Vec Ideal S256x1024 .f32)
    (p : Fin 256) (q : Fin 1024) (r : Fin 2048) (hr : r.val = 1792 + p.val) :
    tile7 (F := Ideal) x0 x1 vl (ix2 p q) = vl (ix2 p q) + partialOut x0 x1 r q :=
  tile7_value x0 x1 vl p q r hr

/-- Every tile, by its number: tile `k` at `(p, q)` is the loaded value plus the head's contribution at position `256 k + p`. -/
theorem tile_apply (k : Fin 8) (x0 : Vec Ideal S1x1x2048x256 .f32) (x1 : Vec Ideal S64x1024 .f32) (vl : Vec Ideal S256x1024 .f32)
    (p : Fin 256) (q : Fin 1024) (r : Fin 2048) (hr : r.val = 256 * k.val + p.val) :
    tile (F := Ideal) k x0 x1 vl (ix2 p q) = vl (ix2 p q) + partialOut x0 x1 r q := by
  match k, hr with
  | ⟨0, _⟩, hr => exact tile0_apply x0 x1 vl p q r (by simpa using hr)
  | ⟨1, _⟩, hr => exact tile1_apply x0 x1 vl p q r (by simpa using hr)
  | ⟨2, _⟩, hr => exact tile2_apply x0 x1 vl p q r (by simpa using hr)
  | ⟨3, _⟩, hr => exact tile3_apply x0 x1 vl p q r (by simpa using hr)
  | ⟨4, _⟩, hr => exact tile4_apply x0 x1 vl p q r (by simpa using hr)
  | ⟨5, _⟩, hr => exact tile5_apply x0 x1 vl p q r (by simpa using hr)
  | ⟨6, _⟩, hr => exact tile6_apply x0 x1 vl p q r (by simpa using hr)
  | ⟨7, _⟩, hr => exact tile7_apply x0 x1 vl p q r (by simpa using hr)
  | ⟨n + 8, h⟩, _ => exact absurd h (Nat.not_lt.2 (Nat.le_add_left _ _))

/-- The cleared block is zero everywhere. -/
theorem zerosBlk_apply (i : S1x2048x1024.Idx) : zerosBlk (F := Ideal) i = 0 := zeros_apply i

/-- The closing step: the block with the bias added along the output features. -/
theorem biasBlk_apply (v : Vec Ideal S1x2048x1024 .f32) (x2 : Vec Ideal S1024 .f32) (r : Fin 2048) (q : Fin 1024) :
    biasBlk (F := Ideal) v x2 (ix3 (0 : Fin 1) r q) = v (ix3 (0 : Fin 1) r q) + x2 (ix1 q) := bias_apply v x2 r q

end Cert.KernelIdeal.HandValue

end
-- ==== Proof.R1Value.lean ====
/- The attention kernel's body at a grid point, read at an index: what each of its three cases leaves in the output block.
   A first head leaves the head's contribution to the output projection; a middle head adds its contribution to the
   running sum; the last head adds its contribution and then the bias. -/
import proofs.«100586_j44555990728728_1_alg».proof.Proof.R1Chain
import proofs.«100586_j44555990728728_1_alg».proof.Proof.R1TileValue

set_option maxRecDepth 16384

noncomputable section

namespace Cert.KernelIdeal.HandValue

open Cert.KernelIdeal Cert.KernelIdeal.Gen Cert.KernelIdeal.Hand
open Idealize.ShloMosaic Idealize.ShloMosaic.ValueIdx

/-- The eight tile updates in turn, at position `r`, output feature `q`: what was there plus the head's contribution. The
    position lies in tile `r / 256` at row `r % 256`. -/
theorem chainT_value (x0 : Vec Ideal S1x1x2048x256 .f32) (x1 : Vec Ideal S64x1024 .f32) (Y : Vec Ideal S2048x1024 .f32)
    (r : Fin 2048) (q : Fin 1024) :
    chainT (F := Ideal) x0 x1 Y (ix2 r q) = Y (ix2 r q) + partialOut x0 x1 r q := by
  have hk : r.val / 256 < 8 := by have := r.isLt; omega
  have hp : r.val % 256 < 256 := Nat.mod_lt _ (by decide)
  have hr : r.val = 256 * (⟨r.val / 256, hk⟩ : Fin 8).val + (⟨r.val % 256, hp⟩ : Fin 256).val := by
    show r.val = 256 * (r.val / 256) + r.val % 256
    omega
  rw [chainT_apply x0 x1 Y ⟨r.val / 256, hk⟩ ⟨r.val % 256, hp⟩ q r hr,
    tile_apply ⟨r.val / 256, hk⟩ x0 x1 _ ⟨r.val % 256, hp⟩ q r hr,
    rowsOf_apply Y ⟨r.val / 256, hk⟩ ⟨r.val % 256, hp⟩ q r hr]

/-- A FIRST HEAD: the block is cleared and the head's contribution added. -/
theorem out_A (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : cond1_0 i) (hc1 : ¬cond1_1 i)
    (x0 : Vec Ideal S1x1x2048x256 .f32) (x1 : Vec Ideal S64x1024 .f32) (x2 : Vec Ideal S1024 .f32)
    (r : Fin 2048) (q : Fin 1024) :
    (kernelRun1_A (F := Ideal) c i arg2 harg2 arg3 harg3 arg4 harg4 arg5 harg5 hc0 hc1 x0 x1 x2).1 (ix3 (0 : Fin 1) r q)
      = partialOut x0 x1 r q := by
  refine (sq3_apply _ r q).symm.trans ?_
  rw [run1_A_sq c i arg2 harg2 arg3 harg3 arg4 harg4 arg5 harg5 x0 x1 x2 hc0 hc1, chainT_value, sq3_apply,
    zerosBlk_apply, zero_add]

/-- A MIDDLE HEAD: the head's contribution added to the running sum. -/
theorem out_B (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : ¬cond1_1 i)
    (x0 : Vec Ideal S1x1x2048x256 .f32) (x1 : Vec Ideal S64x1024 .f32) (x2 : Vec Ideal S1024 .f32)
    (xo3 : Vec Ideal S1x2048x1024 .f32) (r : Fin 2048) (q : Fin 1024) :
    (kernelRun1_B (F := Ideal) c i arg2 harg2 arg3 harg3 arg4 harg4 arg5 harg5 hc0 hc1 x0 x1 x2 xo3).1 (ix3 (0 : Fin 1) r q)
      = xo3 (ix3 (0 : Fin 1) r q) + partialOut x0 x1 r q := by
  refine (sq3_apply _ r q).symm.trans ?_
  rw [run1_B_sq c i arg2 harg2 arg3 harg3 arg4 harg4 arg5 harg5 x0 x1 x2 hc0 hc1 xo3, chainT_value, sq3_apply]

/-- THE LAST HEAD: the head's contribution added to the running sum, then the bias. -/
theorem out_C (c : Dev nD) (i : grid1.Coords)
    (arg2 : Memref sig .tc .vmem S1x1x2048x256 .f32) (harg2 : arg2.IsWhole)
    (arg3 : Memref sig .tc .vmem S64x1024 .f32) (harg3 : arg3.IsWhole)
    (arg4 : Memref sig .tc .vmem S1024 .f32) (harg4 : arg4.IsWhole)
    (arg5 : Memref sig .tc .vmem S1x2048x1024 .f32) (harg5 : arg5.IsWhole)
    (hc0 : ¬cond1_0 i) (hc1 : cond1_1 i)
    (x0 : Vec Ideal S1x1x2048x256 .f32) (x1 : Vec Ideal S64x1024 .f32) (x2 : Vec Ideal S1024 .f32)
    (xo3 : Vec Ideal S1x2048x1024 .f32) (r : Fin 2048) (q : Fin 1024) :
    (kernelRun1_C (F := Ideal) c i arg2 harg2 arg3 harg3 arg4 harg4 arg5 harg5 hc0 hc1 x0 x1 x2 xo3).1 (ix3 (0 : Fin 1) r q)
      = (xo3 (ix3 (0 : Fin 1) r q) + partialOut x0 x1 r q) + x2 (ix1 q) := by
  rw [run1_C_val c i arg2 harg2 arg3 harg3 arg4 harg4 arg5 harg5 x0 x1 x2 hc0 hc1 xo3, biasBlk_apply]
  refine congrArg (· + x2 (ix1 q)) ?_
  refine (sq3_apply _ r q).symm.trans ?_
  rw [sq3_unsq3, chainT_value, sq3_apply]

end Cert.KernelIdeal.HandValue

end
-- ==== Proof.R1Blocks.lean ====
/-
  The attention kernel's region, its geometry at the ideal instance: the three input blocks at grid point t are the
  projected block of batch entry t / 16 and head t % 16, that head's 64 rows of the transposed output weight, and the
  whole output bias; the output block is written back after the last head of each batch entry, and those two
  write-backs tile the result array.
-/
import proofs.«100586_j44555990728728_1_alg».proof.Proof.R1Body
import proofs.«100586_j44555990728728_1_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.Shepard
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The blocks at a point: point t is batch entry t / 16 and head t % 16 -/

/-- The printed block-index maps of the attention kernel's windows, decided over the 32 grid points. -/
theorem idx_facts1 : ∀ t : Fin cfg1.N,
    win1_0.index t (0 : Fin 4) = t.val / 16 ∧ win1_0.index t (1 : Fin 4) = t.val % 16
    ∧ win1_0.index t (2 : Fin 4) = 0 ∧ win1_0.index t (3 : Fin 4) = 0
    ∧ win1_1.index t (0 : Fin 2) = t.val % 16 ∧ win1_1.index t (1 : Fin 2) = 0
    ∧ win1_2.index t (0 : Fin 1) = 0
    ∧ win1_3.index t (0 : Fin 3) = t.val / 16 ∧ win1_3.index t (1 : Fin 3) = 0 ∧ win1_3.index t (2 : Fin 3) = 0 :=
  (by decide +kernel : ∀ t : Fin grid1.N, _)

/-- The head's projected block. -/
theorem iblk1_0_apply (c : Dev nD) (t : Fin cfg1.N) (b : Fin 2) (h : Fin 16) (ht : t.val = 16 * b.val + h.val)
    (i : Fin 2048) (cc : Fin 256) :
    iblk1 V c 0 t (ix4 0 0 i cc) = V c main_v2 (ix4 b h i cc) := by
  obtain ⟨e00, e01, e02, e03, -⟩ := idx_facts1 t
  have hh := h.isLt
  unfold iblk1
  rw [View.read_apply]
  show V c main_v2 (((cfg1.win 0).blk t).view.emb (ix4 0 0 i cc)) = V c main_v2 (ix4 b h i cc)
  congr 1
  funext a; apply Fin.ext
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 2048 + 1 * i.val = i.val; omega
  | ⟨3, _⟩ => show win1_0.index t (3 : Fin 4) * 256 + 1 * cc.val = cc.val; omega

/-- The head's 64 rows of the transposed output weight. -/
theorem iblk1_1_apply (c : Dev nD) (t : Fin cfg1.N) (b : Fin 2) (h : Fin 16) (ht : t.val = 16 * b.val + h.val)
    (e : Fin 64) (q : Fin 1024) :
    iblk1 V c 1 t (ix2 e q) = V c main_v1 (ix2 (colOf h e) q) := by
  obtain ⟨-, -, -, -, e10, e11, -⟩ := idx_facts1 t
  have hh := h.isLt
  unfold iblk1
  rw [View.read_apply]
  show V c main_v1 (((cfg1.win 1).blk t).view.emb (ix2 e q)) = V c main_v1 (ix2 (colOf h e) q)
  congr 1
  funext a; apply Fin.ext
  match a with
  | ⟨0, _⟩ => show win1_1.index t (0 : Fin 2) * 64 + 1 * e.val = 64 * h.val + e.val; omega
  | ⟨1, _⟩ => show win1_1.index t (1 : Fin 2) * 1024 + 1 * q.val = q.val; omega

/-- The output bias, whole at every point. -/
theorem iblk1_2_apply (c : Dev nD) (t : Fin cfg1.N) (q : Fin 1024) :
    iblk1 V c 2 t (ix1 q) = V c main_arg4 (ix1 q) := by
  obtain ⟨-, -, -, -, -, -, e20, -⟩ := idx_facts1 t
  unfold iblk1
  rw [View.read_apply]
  show V c main_arg4 (((cfg1.win 2).blk t).view.emb (ix1 q)) = V c main_arg4 (ix1 q)
  congr 1
  funext a; apply Fin.ext
  match a with
  | ⟨0, _⟩ => show win1_2.index t (0 : Fin 1) * 1024 + 1 * q.val = q.val; omega

/-! ## The result array from the running sums at the last head of each batch entry -/

/-- The running sum after point n does not depend on how n is written. -/
theorem outsAt1_congr (c : Dev nD) {n n' : ℕ} (e : n = n') (hn : n < cfg1.N) (hn' : n' < cfg1.N) :
    outsAt1 V c n hn = outsAt1 V c n' hn' := by subst e; rfl

/-- An index of the result array is in point t's block iff each coordinate is in the block's range on its axis. -/
theorem mem_blk1_3 (t : Fin cfg1.N) (i : S2x2048x1024.Idx) :
    i ∈ ((cfg1.win 3).blk t).view.set ↔ ∀ a : Fin 3, win1_3.index t a * S1x2048x1024.size a ≤ (i a).val ∧ (i a).val < win1_3.index t a * S1x2048x1024.size a + S1x2048x1024.size a := by
  show i ∈ ((View.whole main_v3).slice (win1_3.rect t)).set ↔ _
  rw [View.set_slice_whole, Rect.mem_set_unit]
  exact Iff.rfl

/-- The output block is written back after the last head of each batch entry (points 15 and 31), where it holds the
    running sum over the sixteen heads; the two blocks are the two batch entries' halves of the result array. So if
    the running sum after point 16b + 15 is G's block b, the result array ends holding G. -/
theorem final1_of (c : Dev nD) (G : S2x2048x1024.Idx → EReal)
    (hG : ∀ (b : Fin 2) (r : Fin 2048) (q : Fin 1024) (hlt : 16 * b.val + 15 < cfg1.N),
      outsAt1 V c (16 * b.val + 15) hlt (ix3 0 r q) = G (ix3 b r q)) :
    (dat1 V c).arrAt 3 cfg1.N = G := by
  have hN : cfg1.N = 32 := N_1
  refine (dat1 V c).arrAt_eq_of_cover 3 G (fun t hf => ?_) (fun i => ?_)
  · have h15 : t.val % 16 = 15 := (flush1_3 t).mp hf
    have ht : t.val < 32 := lt_of_lt_of_eq t.isLt hN
    obtain ⟨-, -, -, -, -, -, -, e30, e31, e32⟩ := idx_facts1 t
    show (cfg1.win 3).cut (grid1.coords t) ((dat1 V c).after 3 t) = _
    rw [after1_3]
    funext j
    obtain ⟨r, q, rfl⟩ : ∃ (r : Fin 2048) (q : Fin 1024), j = (ix3 (0 : Fin 1) r q : S1x2048x1024.Idx) :=
      ⟨j 1, j 2, by
        funext a; apply Fin.ext
        match a with
        | ⟨0, _⟩ => have h0 : (j 0).val < 1 := (j 0).isLt; show (j 0).val = 0; omega
        | ⟨1, _⟩ => rfl
        | ⟨2, _⟩ => rfl⟩
    show outsAt1 V c t.val t.isLt (ix3 0 r q) = G (((cfg1.win 3).blk t).view.emb (ix3 0 r q))
    have hemb : ((cfg1.win 3).blk t).view.emb (ix3 0 r q) = (ix3 (⟨t.val / 16, by omega⟩ : Fin 2) r q : S2x2048x1024.Idx) := by
      funext a; apply Fin.ext
      match a with
      | ⟨0, _⟩ => show win1_3.index t (0 : Fin 3) * 1 + 1 * 0 = t.val / 16; omega
      | ⟨1, _⟩ => show win1_3.index t (1 : Fin 3) * 2048 + 1 * r.val = r.val; omega
      | ⟨2, _⟩ => show win1_3.index t (2 : Fin 3) * 1024 + 1 * q.val = q.val; omega
    rw [hemb, ← hG ⟨t.val / 16, by omega⟩ r q (by dsimp only; omega)]
    exact congrFun (outsAt1_congr V c (by dsimp only; omega) _ _) _
  · have h0 : (i 0).val < 2 := (i 0).isLt
    have h1 : (i 1).val < 2048 := (i 1).isLt
    have h2 : (i 2).val < 1024 := (i 2).isLt
    refine ⟨⟨16 * (i 0).val + 15, by omega⟩, (flush1_3 _).mpr (by dsimp only; omega), ?_⟩
    rw [mem_blk1_3]
    obtain ⟨-, -, -, -, -, -, -, e30, e31, e32⟩ := idx_facts1 ⟨16 * (i 0).val + 15, by omega⟩
    intro a
    match a with
    | ⟨0, _⟩ => show win1_3.index _ (0 : Fin 3) * 1 ≤ (i 0).val ∧ (i 0).val < win1_3.index _ (0 : Fin 3) * 1 + 1; rw [e30]; dsimp only; omega
    | ⟨1, _⟩ => show win1_3.index _ (1 : Fin 3) * 2048 ≤ (i 1).val ∧ (i 1).val < win1_3.index _ (1 : Fin 3) * 2048 + 2048; rw [e31]; omega
    | ⟨2, _⟩ => show win1_3.index _ (2 : Fin 3) * 1024 ≤ (i 2).val ∧ (i 2).val < win1_3.index _ (2 : Fin 3) * 1024 + 1024; rw [e32]; omega

end Cert.KernelIdeal.HandValue

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibUnitAxes.lean ====
/-
  A matrix `[a, b]` recast with two leading unit axes, `[1, 1, a, b]`, read at coordinates: the row-major position of
  `(u, v, i, j)` in `[1, 1, a, b]` is that of `(i, j)` in `[a, b]`, the unit coordinates being zero.
-/
import Idealize.ShloMosaic.Lib.ValueLayout
import Idealize.ShloMosaic.Lib.ValueIdx

noncomputable section

namespace Cert.LibUnitAxes

open Idealize.ShloMosaic Idealize.ShloMosaic.ValueIdx

variable {α : Type}

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

end Cert.LibUnitAxes

end
-- ==== Proof.R0Pay.lean ====
/-
  The projection kernel's one payload, read at an entry: at position i and column cc of the block it is the product of
  row i of the batch entry's rows with row cc of the head's weight rows, plus the head's bias entry cc. The layout
  steps around the product (unit axes dropped and put back, the weight rows transposed, the bias row broadcast over
  the positions) are read one at a time; the narrowing of the operands is the identity at the ideal values.
-/
import proofs.«100586_j44555990728728_1_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws
import proofs.«100586_j44555990728728_1_alg».proof.Proof.LibMatProduct
import proofs.«100586_j44555990728728_1_alg».proof.Proof.LibUnitAxes

noncomputable section

namespace Cert.KernelIdeal.HandValue

open Cert.KernelIdeal Cert.KernelIdeal.Gen Idealize.ShloMosaic Idealize.ShloMosaic.ValueIdx

/-- A `[1, 1, a]` array recast as the vector `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- The payload at position i, column cc. -/
theorem pay0_apply (v0 : Vec Ideal S1x2048x1024 .f32) (v2 : Vec Ideal S256x1024 .f32) (v3 : Vec Ideal S1x1x256 .f32)
    (i : Fin 2048) (cc : Fin 256) :
    k0_pay1 v0 v2 v3 (ix4 0 0 i cc) = (∑ d : Fin 1024, v0 (ix3 0 i d) * v2 (ix2 cc d)) + v3 (ix3 0 0 cc) := by
  unfold k0_pay1
  dsimp only
  rw [Cert.LibUnitAxes.shapeCast_ab_11ab_apply, addf_apply]
  rw [broadcastTo_1b_ab_apply, shapeCast_a_1a_apply, shapeCast_11a_a_apply]
  refine congrArg (· + v3 (ix3 0 0 cc)) ?_
  refine (Cert.LibMatProduct.matmul_zero_apply dot_S2048x1024_S1024x256_S2048x256_1_0_0_1_n_n none rfl rfl rfl rfl rfl rfl _ _ i cc).trans ?_
  refine Finset.sum_congr rfl fun d _ => ?_
  rw [truncf_apply, shapeCast_1ab_ab_apply, transpose_ix2_apply, truncf_apply]

/-- The same at any index of the block: its two leading coordinates are zero. -/
theorem pay0_at (v0 : Vec Ideal S1x2048x1024 .f32) (v2 : Vec Ideal S256x1024 .f32) (v3 : Vec Ideal S1x1x256 .f32)
    (j : S1x1x2048x256.Idx) :
    k0_pay1 v0 v2 v3 j = (∑ d : Fin 1024, v0 (ix3 0 (j 2) d) * v2 (ix2 (j 3) d)) + v3 (ix3 0 0 (j 3)) := by
  have hj : j = ix4 (0 : Fin 1) (0 : Fin 1) (j 2) (j 3) := by
    funext a; apply Fin.ext
    match a with
    | ⟨0, _⟩ => have h0 : (j 0).val < 1 := (j 0).isLt; show (j 0).val = 0; omega
    | ⟨1, _⟩ => have h1 : (j 1).val < 1 := (j 1).isLt; show (j 1).val = 0; omega
    | ⟨2, _⟩ => rfl
    | ⟨3, _⟩ => rfl
  exact (congrArg (k0_pay1 v0 v2 v3) hj).trans (pay0_apply v0 v2 v3 (j 2) (j 3))

end Cert.KernelIdeal.HandValue

end
-- ==== Proof.R0Value.lean ====
/-
  The projection kernel's region, read as values at the ideal instance: what the body leaves in its output block is
  the payload of the three input blocks; the blocks at grid point t are those of batch entry t / 16 and head t % 16;
  every point writes its block back and the 32 blocks tile the four-axis array, so the region leaves, at
  (b, h, i, cc), the product of X's row (b, i) with the input weight's row 256h + cc plus the head's bias entry cc.
-/
import proofs.«100586_j44555990728728_1_alg».proof.Proof.R0Body
import proofs.«100586_j44555990728728_1_alg».proof.Proof.R0Pay
import proofs.«100586_j44555990728728_1_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand Cert.Shepard
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves is the payload of the three blocks -/

/-- The body's one store covers the block, so the block read back is the store's payload; its loads read the whole
    staging buffers. -/
theorem out0_eq (c : Dev nD) (i : grid0.Coords)
    (arg2 : Memref sig .tc .vmem S1x2048x1024 .f32) (harg2 : arg2.IsWhole) (arg3 : Memref sig .tc .vmem S256x1024 .f32) (harg3 : arg3.IsWhole)
    (arg4 : Memref sig .tc .vmem S1x1x256 .f32) (harg4 : arg4.IsWhole) (arg5 : Memref sig .tc .vmem S1x1x2048x256 .f32) (harg5 : arg5.IsWhole)
    (x0 : Vec Ideal S1x2048x1024 .f32) (x1 : Vec Ideal S256x1024 .f32) (x2 : Vec Ideal S1x1x256 .f32) :
    out0_3 c i arg2 harg2 arg3 harg3 arg4 harg4 arg5 harg5 x0 x1 x2 = k0_pay1 x0 x1 x2 := by
  unfold out0_3
  rw [View.read_writes_eq_canon _ _ _ (cover0_3 c i arg2 harg2 arg3 harg3 arg4 harg4 arg5 harg5 x0 x1 x2)]
  unfold kernelRun0
  dsimp only
  rw [View.canon_unit_zero hz4]
  simp only [View.readAt_eq_ld, harg2.read_unread, harg3.read_unread, harg4.read_unread,
    View.ld_unit_zero (S := S1x2048x1024) hz3, View.ld_unit_zero (S := S256x1024) hz2, View.ld_unit_zero (S := S1x1x256) hz3, shapeCast_self]

theorem outAt0_eq (c : Dev nD) (t : Fin cfg0.N) :
    outAt0 V c t = k0_pay1 (iblk0 V c 0 t) (iblk0 V c 1 t) (iblk0 V c 2 t) := by
  unfold outAt0
  exact out0_eq c _ _ _ _ _ _ _ _ _ _ _ _

/-! ## The blocks at a point: point t is batch entry t / 16 and head t % 16 -/

/-- The printed block-index maps, decided over the 32 grid points. -/
theorem idx_facts0 : ∀ t : Fin cfg0.N,
    win0_0.index t (0 : Fin 3) = t.val / 16 ∧ win0_0.index t (1 : Fin 3) = 0 ∧ win0_0.index t (2 : Fin 3) = 0
    ∧ win0_1.index t (0 : Fin 2) = t.val % 16 ∧ win0_1.index t (1 : Fin 2) = 0
    ∧ win0_2.index t (0 : Fin 3) = t.val % 16 ∧ win0_2.index t (1 : Fin 3) = 0 ∧ win0_2.index t (2 : Fin 3) = 0
    ∧ win0_3.index t (0 : Fin 4) = t.val / 16 ∧ win0_3.index t (1 : Fin 4) = t.val % 16
    ∧ win0_3.index t (2 : Fin 4) = 0 ∧ win0_3.index t (3 : Fin 4) = 0 :=
  (by decide +kernel : ∀ t : Fin grid0.N, _)

/-- The batch entry's rows of X. -/
theorem iblk0_0_apply (c : Dev nD) (t : Fin cfg0.N) (b : Fin 2) (hb : b.val = t.val / 16) (i : Fin 2048) (d : Fin 1024) :
    iblk0 V c 0 t (ix3 0 i d) = V c main_arg0 (ix3 b i d) := by
  obtain ⟨e00, e01, e02, -⟩ := idx_facts0 t
  unfold iblk0
  rw [View.read_apply]
  show V c main_arg0 (((cfg0.win 0).blk t).view.emb (ix3 0 i d)) = V c main_arg0 (ix3 b i d)
  congr 1
  funext a; apply Fin.ext
  match a with
  | ⟨0, _⟩ => show win0_0.index t (0 : Fin 3) * 1 + 1 * 0 = b.val; omega
  | ⟨1, _⟩ => show win0_0.index t (1 : Fin 3) * 2048 + 1 * i.val = i.val; omega
  | ⟨2, _⟩ => show win0_0.index t (2 : Fin 3) * 1024 + 1 * d.val = d.val; omega

/-- The head's rows of the input weight. -/
theorem iblk0_1_apply (c : Dev nD) (t : Fin cfg0.N) (h : Fin 16) (hh : h.val = t.val % 16) (cc : Fin 256) (d : Fin 1024) :
    iblk0 V c 1 t (ix2 cc d) = V c main_arg1 (ix2 (rowOf h cc) d) := by
  obtain ⟨-, -, -, e10, e11, -⟩ := idx_facts0 t
  unfold iblk0
  rw [View.read_apply]
  show V c main_arg1 (((cfg0.win 1).blk t).view.emb (ix2 cc d)) = V c main_arg1 (ix2 (rowOf h cc) d)
  congr 1
  funext a; apply Fin.ext
  match a with
  | ⟨0, _⟩ => show win0_1.index t (0 : Fin 2) * 256 + 1 * cc.val = 256 * h.val + cc.val; omega
  | ⟨1, _⟩ => show win0_1.index t (1 : Fin 2) * 1024 + 1 * d.val = d.val; omega

/-- The head's bias row. -/
theorem iblk0_2_apply (c : Dev nD) (t : Fin cfg0.N) (h : Fin 16) (hh : h.val = t.val % 16) (cc : Fin 256) :
    iblk0 V c 2 t (ix3 0 0 cc) = V c main_v0 (ix3 h 0 cc) := by
  obtain ⟨-, -, -, -, -, e20, e21, e22, -⟩ := idx_facts0 t
  unfold iblk0
  rw [View.read_apply]
  show V c main_v0 (((cfg0.win 2).blk t).view.emb (ix3 0 0 cc)) = V c main_v0 (ix3 h 0 cc)
  congr 1
  funext a; apply Fin.ext
  match a with
  | ⟨0, _⟩ => show win0_2.index t (0 : Fin 3) * 1 + 1 * 0 = h.val; omega
  | ⟨1, _⟩ => show win0_2.index t (1 : Fin 3) * 1 + 1 * 0 = 0; omega
  | ⟨2, _⟩ => show win0_2.index t (2 : Fin 3) * 256 + 1 * cc.val = cc.val; omega

/-- Where the output block sits in the four-axis array. -/
theorem emb0_3 (t : Fin cfg0.N) (b : Fin 2) (hb : b.val = t.val / 16) (h : Fin 16) (hh : h.val = t.val % 16) (i : Fin 2048) (cc : Fin 256) :
    ((cfg0.win 3).blk t).view.emb (ix4 0 0 i cc) = (ix4 b h i cc : S2x16x2048x256.Idx) := by
  obtain ⟨-, -, -, -, -, -, -, -, e30, e31, e32, e33⟩ := idx_facts0 t
  funext a; apply Fin.ext
  match a with
  | ⟨0, _⟩ => show win0_3.index t (0 : Fin 4) * 1 + 1 * 0 = b.val; omega
  | ⟨1, _⟩ => show win0_3.index t (1 : Fin 4) * 1 + 1 * 0 = h.val; omega
  | ⟨2, _⟩ => show win0_3.index t (2 : Fin 4) * 2048 + 1 * i.val = i.val; omega
  | ⟨3, _⟩ => show win0_3.index t (3 : Fin 4) * 256 + 1 * cc.val = cc.val; omega

/-! ## From the blocks to the array -/

/-- The projection's entry for batch entry b, head h, position i, column cc, from the arrays as the region finds them. -/
def projOf (X : S2x2048x1024.Idx → EReal) (W : S4096x1024.Idx → EReal) (B : S16x1x256.Idx → EReal)
    (b : Fin 2) (h : Fin 16) (i : Fin 2048) (cc : Fin 256) : EReal :=
  (∑ d : Fin 1024, X (ix3 b i d) * W (ix2 (rowOf h cc) d)) + B (ix3 h 0 cc)

/-- The same of the arrays as the region finds them: X, the input weight, and the bias recast per head. -/
abbrev projAt (c : Dev nD) (b : Fin 2) (h : Fin 16) (i : Fin 2048) (cc : Fin 256) : EReal :=
  projOf (V c main_arg0) (V c main_arg1) (V c main_v0) b h i cc

/-- The whole four-axis array of those entries. -/
def G0 (c : Dev nD) : S2x16x2048x256.Idx → EReal := fun j => projAt V c (j 0) (j 1) (j 2) (j 3)

/-- What point t writes back is block t of that array. -/
theorem flushed0_eq (c : Dev nD) (t : Fin cfg0.N) :
    (dat0 V c).flushed 3 t = ((cfg0.win 3).blk t).view.read (Elt Ideal) (G0 V c) := by
  have hN : cfg0.N = 32 := N_0
  have ht := t.isLt
  show (cfg0.win 3).cut (grid0.coords t) ((dat0 V c).after 3 t) = _
  rw [after0_3, outAt0_eq]
  funext j
  obtain ⟨i, cc, rfl⟩ : ∃ (i : Fin 2048) (cc : Fin 256), j = (ix4 (0 : Fin 1) (0 : Fin 1) i cc : S1x1x2048x256.Idx) :=
    ⟨j 2, j 3, by
      funext a; apply Fin.ext
      match a with
      | ⟨0, _⟩ => have h0 : (j 0).val < 1 := (j 0).isLt; show (j 0).val = 0; omega
      | ⟨1, _⟩ => have h1 : (j 1).val < 1 := (j 1).isLt; show (j 1).val = 0; omega
      | ⟨2, _⟩ => rfl
      | ⟨3, _⟩ => rfl⟩
  show k0_pay1 (iblk0 V c 0 t) (iblk0 V c 1 t) (iblk0 V c 2 t) (ix4 0 0 i cc) = G0 V c (((cfg0.win 3).blk t).view.emb (ix4 0 0 i cc))
  rw [emb0_3 t ⟨t.val / 16, by omega⟩ rfl ⟨t.val % 16, by omega⟩ rfl i cc]
  refine (pay0_apply _ _ _ i cc).trans ?_
  show _ = projAt V c ⟨t.val / 16, _⟩ ⟨t.val % 16, _⟩ i cc
  unfold projAt projOf
  rw [iblk0_2_apply V c t ⟨t.val % 16, by omega⟩ rfl cc]
  refine congrArg (· + _) (Finset.sum_congr rfl fun d _ => ?_)
  rw [iblk0_0_apply V c t ⟨t.val / 16, by omega⟩ rfl i d, iblk0_1_apply V c t ⟨t.val % 16, by omega⟩ rfl cc d]

/-- An index of the array is in point t's block iff each coordinate is in the block's range on its axis. -/
theorem mem_blk0_3 (t : Fin cfg0.N) (i : S2x16x2048x256.Idx) :
    i ∈ ((cfg0.win 3).blk t).view.set ↔ ∀ a : Fin 4, win0_3.index t a * S1x1x2048x256.size a ≤ (i a).val ∧ (i a).val < win0_3.index t a * S1x1x2048x256.size a + S1x1x2048x256.size a := by
  show i ∈ ((View.whole main_v2).slice (win0_3.rect t)).set ↔ _
  rw [View.set_slice_whole, Rect.mem_set_unit]
  exact Iff.rfl

/-- Every index is in the block of the point of its batch entry and head. -/
theorem cover0 (i : S2x16x2048x256.Idx) :
    ∃ t : Fin cfg0.N, (cfg0.win 3).flush t = true ∧ i ∈ ((cfg0.win 3).blk t).view.set := by
  have hN : cfg0.N = 32 := N_0
  have h0 : (i 0).val < 2 := (i 0).isLt
  have h1 : (i 1).val < 16 := (i 1).isLt
  have h2 : (i 2).val < 2048 := (i 2).isLt
  have h3 : (i 3).val < 256 := (i 3).isLt
  refine ⟨⟨16 * (i 0).val + (i 1).val, by omega⟩, flush0_3 _, ?_⟩
  rw [mem_blk0_3]
  obtain ⟨-, -, -, -, -, -, -, -, e30, e31, e32, e33⟩ := idx_facts0 ⟨16 * (i 0).val + (i 1).val, by omega⟩
  intro a
  match a with
  | ⟨0, _⟩ => show win0_3.index _ (0 : Fin 4) * 1 ≤ (i 0).val ∧ (i 0).val < win0_3.index _ (0 : Fin 4) * 1 + 1; rw [e30]; dsimp only; omega
  | ⟨1, _⟩ => show win0_3.index _ (1 : Fin 4) * 1 ≤ (i 1).val ∧ (i 1).val < win0_3.index _ (1 : Fin 4) * 1 + 1; rw [e31]; dsimp only; omega
  | ⟨2, _⟩ => show win0_3.index _ (2 : Fin 4) * 2048 ≤ (i 2).val ∧ (i 2).val < win0_3.index _ (2 : Fin 4) * 2048 + 2048; rw [e32]; omega
  | ⟨3, _⟩ => show win0_3.index _ (3 : Fin 4) * 256 ≤ (i 3).val ∧ (i 3).val < win0_3.index _ (3 : Fin 4) * 256 + 256; rw [e33]; omega

/-- So the region leaves the four-axis array at the projection, entry by entry. -/
theorem final0 (c : Dev nD) : (dat0 V c).arrAt 3 cfg0.N = G0 V c :=
  (dat0 V c).arrAt_eq_of_cover 3 (G0 V c) (fun t _ => flushed0_eq V c t) cover0

theorem proj_final (c : Dev nD) (b : Fin 2) (h : Fin 16) (i : Fin 2048) (cc : Fin 256) :
    (dat0 V c).arrAt 3 cfg0.N (ix4 b h i cc)
      = projOf (V c main_arg0) (V c main_arg1) (V c main_v0) b h i cc := by
  rw [final0]; rfl

end Cert.KernelIdeal.HandValue

end
-- ==== Proof.HostValues.lean ====
/-
  What the two regions find in the TensorCore's buffers, in terms of the launch memory, at the ideal instance: the
  projection region finds X and the input weight as launched and the input bias recast per head (entry cc of head h's
  row is entry 256h + cc); the attention region finds the output weight transposed, the output bias as launched, and
  the four-axis array the projection region left — the specification's projection, entry by entry.
-/
import proofs.«100586_j44555990728728_1_alg».proof.Proof.Run
import proofs.«100586_j44555990728728_1_alg».proof.Proof.R0Value
import proofs.«100586_j44555990728728_1_alg».proof.Proof.Spec
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand Cert.Shepard
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The projection region's entry: the launch memory after the two host operations -/

/-- X and the input weight are as launched. -/
theorem C1_arg0 (c : Dev nD) : C1 m ρ c main_arg0 = m ((c : Thread nD τ).loc main_arg0) :=
  M1_of m ρ c main_arg0 (by decide)
theorem C1_arg1 (c : Dev nD) : C1 m ρ c main_arg1 = m ((c : Thread nD τ).loc main_arg1) :=
  M1_of m ρ c main_arg1 (by decide)

/-- The bias recast per head: the host's reshape of the launched input bias. -/
theorem C1_v0 (c : Dev nD) :
    (C1 m ρ c main_v0 : S16x1x256.Idx → EReal) = shapeCast S16x1x256 (m ((c : Thread nD τ).loc main_arg2)) shapeCasts_S4096_S16x1x256 := by
  dsimp only [C1, M1, hostOps0]
  after_results
  rfl

/-- Entry cc of head h's bias row is entry 256h + cc of the launched input bias: the reshape is row-major. -/
theorem C1_v0_apply (c : Dev nD) (h : Fin 16) (cc : Fin 256) :
    (C1 m ρ c main_v0 : S16x1x256.Idx → EReal) (ix3 h 0 cc) = m ((c : Thread nD τ).loc main_arg2) (ix1 (rowOf h cc)) := by
  rw [C1_v0]
  refine shapeCast_apply _ _ _ _ ?_
  show (S4096.rowMajor (ix1 (rowOf h cc))).val = (S16x1x256.rowMajor (ix3 h 0 cc)).val
  rw [Shape.rowMajor_val_one, Shape.rowMajor_val_three]
  show 256 * h.val + cc.val = (h.val * 1 + 0) * 256 + cc.val
  omega

/-- The output weight transposed: the host's transpose of the launched output weight. -/
theorem C1_v1 (c : Dev nD) :
    (C1 m ρ c main_v1 : S1024x1024.Idx → EReal)
      = transpose S1024x1024 [1, 0] (m ((c : Thread nD τ).loc main_arg3)) transposes_S1024x1024_S1024x1024_1_0 := by
  dsimp only [C1, M1, hostOps0]
  after_results

/-! ## The attention region's entry -/

/-- The transposed output weight is untouched by the projection region. -/
theorem C2_v1 (c : Dev nD) : C2 m ρ c main_v1 = C1 m ρ c main_v1 := M2_of_ne m ρ c main_v1 (by decide)

theorem C2_v1_apply (c : Dev nD) (r q : Fin 1024) :
    (C2 m ρ c main_v1 : S1024x1024.Idx → EReal) (ix2 r q) = m ((c : Thread nD τ).loc main_arg3) (ix2 q r) := by
  rw [C2_v1, C1_v1]
  exact transpose_ix2_apply _ _ r q

/-- The output bias is as launched. -/
theorem C2_arg4 (c : Dev nD) : C2 m ρ c main_arg4 = m ((c : Thread nD τ).loc main_arg4) :=
  (M2_of_ne m ρ c main_arg4 (by decide)).trans (M1_of m ρ c main_arg4 (by decide))

/-- The projected array is what the projection region's write-backs left. -/
theorem C2_v2 (c : Dev nD) : C2 m ρ c main_v2 = (dat0 (C1 m ρ) c).arrAt 3 cfg0.N := M2_arr m ρ c 3

/-- So the attention region finds, at (b, h, i, cc) of its first window's array, the specification's projection of the
    launched X, input weight and input bias. -/
theorem entry1_block (c : Dev nD) (b : Fin 2) (h : Fin 16) (i : Fin 2048) (cc : Fin 256) :
    (C2 m ρ c main_v2 : S2x16x2048x256.Idx → EReal) (ix4 b h i cc)
      = proj (m ((c : Thread nD τ).loc main_arg0)) (m ((c : Thread nD τ).loc main_arg1)) (m ((c : Thread nD τ).loc main_arg2)) b h i cc := by
  rw [C2_v2]
  refine (proj_final (C1 m ρ) c b h i cc).trans ?_
  unfold projOf proj
  rw [C1_arg0, C1_arg1, C1_v0_apply]

end Cert.KernelIdeal.HandValue

end
-- ==== Proof.LibRunningSum.lean ====
/-
  A running sum with a constant added at the last step.

  A sequence f that starts at the first term p 0, adds the term p n at each later step n < N, and at step N adds the
  term p N and then a constant b, ends at (∑ k ≤ N, p k) + b. Stated in any additive commutative monoid (only
  associativity of + is used), so it holds on the extended reals with no finiteness assumption. This is how an
  accumulator that is cleared at the first grid point, added to at every point and given a bias at the last point
  holds the whole sum plus the bias.
-/
import Mathlib

namespace Cert.LibRunningSum

/-- Before the last step the sequence is the partial sum. -/
theorem partial_sum {M : Type*} [AddCommMonoid M] (f p : ℕ → M) (N : ℕ)
    (h0 : f 0 = p 0) (hstep : ∀ n, n + 1 < N → f (n + 1) = f n + p (n + 1)) :
    ∀ n, n < N → f n = ∑ k ∈ Finset.range (n + 1), p k := by
  intro n
  induction n with
  | zero => intro _; rw [h0, Finset.sum_range_one]
  | succ n ih =>
    intro hn
    rw [hstep n hn, ih (Nat.lt_of_succ_lt hn), Finset.sum_range_succ _ (n + 1)]

/-- With the last step adding its term and then the constant, the sequence ends at the whole sum plus the constant. -/
theorem last_step {M : Type*} [AddCommMonoid M] (f p : ℕ → M) (N : ℕ) (hN : 0 < N) (b : M)
    (h0 : f 0 = p 0) (hstep : ∀ n, n + 1 < N → f (n + 1) = f n + p (n + 1))
    (hlast : f N = (f (N - 1) + p N) + b) :
    f N = (∑ k ∈ Finset.range (N + 1), p k) + b := by
  obtain ⟨n, rfl⟩ : ∃ n, N = n + 1 := ⟨N - 1, by omega⟩
  rw [hlast, Nat.add_sub_cancel, partial_sum f p (n + 1) h0 hstep n (Nat.lt_succ_self n), Finset.sum_range_succ _ (n + 1)]

end Cert.LibRunningSum
-- ==== Proof.KernelValue.lean ====
/-
  The kernel program's result array is the specification's array of its arguments.

  The attention launch visits, for each batch entry, its sixteen heads in order, and keeps the batch entry's output
  block in one buffer across them: head 0 clears it and adds its contribution, every later head adds its own, head
  15 then adds the bias row, and only then is the block copied out. So entry (r, q) of the buffer after head k is
  the running sum of the contributions of heads 0 … k (an induction over the heads, one step per control case of the
  kernel), and after head 15 the whole sum plus the bias. A head's contribution, computed from the blocks its grid
  point is handed — the head's projected block, which the projection launch wrote, and the head's 64 rows of the
  transposed output weight, which the host wrote — is the specification's per-head term. The copied-out blocks,
  one per batch entry, tile the result array.
-/
import proofs.«100586_j44555990728728_1_alg».proof.Proof.R1Value
import proofs.«100586_j44555990728728_1_alg».proof.Proof.R1Blocks
import proofs.«100586_j44555990728728_1_alg».proof.Proof.HostValues
import proofs.«100586_j44555990728728_1_alg».proof.Proof.LibRunningSum

set_option maxRecDepth 16384

noncomputable section

namespace Cert.KernelIdeal.HandValue

open Cert.KernelIdeal Cert.KernelIdeal.Gen Cert.KernelIdeal.Hand Cert.Shepard
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
/-- The attention launch has 32 grid points: 16 heads for each of the 2 batch entries, a batch entry's heads
    consecutive. -/
theorem N32 : cfg1.N = 32 := N_1

/-- The grid point of batch entry b, head k. -/
def pt (b : Fin 2) (k : ℕ) (hk : k < 16) : Fin cfg1.N := ⟨16 * b.val + k, by rw [N32]; have := b.isLt; omega⟩

/-- Head k's contribution to batch entry b's output at (r, q), from the blocks that head's point is handed
    (zero past the last head). -/
def contrib (c : Dev nD) (b : Fin 2) (r : Fin 2048) (q : Fin 1024) (k : ℕ) : EReal :=
  if hk : k < 16 then partialOut (iblk1 V c 0 (pt b k hk)) (iblk1 V c 1 (pt b k hk)) r q else 0

/-- Entry (r, q) of the accumulator after head k of batch entry b. -/
def accAt (c : Dev nD) (b : Fin 2) (r : Fin 2048) (q : Fin 1024) (k : ℕ) : EReal :=
  if hk : k < 16 then outsAt1 V c (pt b k hk).val (pt b k hk).isLt (ValueIdx.ix3 0 r q) else 0

/-- Head 0 clears the accumulator and adds its contribution. -/
theorem acc_zero (c : Dev nD) (b : Fin 2) (r : Fin 2048) (q : Fin 1024) : accAt V c b r q 0 = contrib V c b r q 0 := by
  have h0 : (pt b 0 (by omega)).val % 16 = 0 := by show (16 * b.val + 0) % 16 = 0; omega
  unfold accAt contrib
  rw [dif_pos (by omega : 0 < 16), dif_pos (by omega : 0 < 16), outsAt1_A V c (pt b 0 (by omega)) h0]
  unfold out1_A_3
  exact out_A ..

/-- A middle head adds its contribution to what the head before left. -/
theorem acc_step (c : Dev nD) (b : Fin 2) (r : Fin 2048) (q : Fin 1024) (n : ℕ) (hn : n + 1 < 15) :
    accAt V c b r q (n + 1) = accAt V c b r q n + contrib V c b r q (n + 1) := by
  have hk : n + 1 < 16 := by omega
  have h0 : ¬(pt b (n + 1) hk).val % 16 = 0 := by show ¬(16 * b.val + (n + 1)) % 16 = 0; omega
  have h1 : ¬(pt b (n + 1) hk).val % 16 = 15 := by show ¬(16 * b.val + (n + 1)) % 16 = 15; omega
  unfold accAt contrib
  rw [dif_pos hk, dif_pos (by omega : n < 16), dif_pos hk, outsAt1_B V c (pt b (n + 1) hk) h0 h1]
  unfold out1_B_3
  exact out_B ..

/-- The last head adds its contribution and then the bias row. -/
theorem acc_last (c : Dev nD) (b : Fin 2) (r : Fin 2048) (q : Fin 1024) :
    accAt V c b r q 15 = (accAt V c b r q 14 + contrib V c b r q 15) + iblk1 V c 2 (pt b 15 (by omega)) (ValueIdx.ix1 q) := by
  have h1 : (pt b 15 (by omega)).val % 16 = 15 := by show (16 * b.val + 15) % 16 = 15; omega
  unfold accAt contrib
  rw [dif_pos (by omega : 15 < 16), dif_pos (by omega : 14 < 16), dif_pos (by omega : 15 < 16), outsAt1_C V c (pt b 15 (by omega)) h1]
  unfold out1_C_3
  exact out_C ..

/-- So after the last head the accumulator holds the sum of the sixteen heads' contributions plus the bias. -/
theorem acc_total (c : Dev nD) (b : Fin 2) (r : Fin 2048) (q : Fin 1024) :
    accAt V c b r q 15 = (∑ k ∈ Finset.range 16, contrib V c b r q k) + iblk1 V c 2 (pt b 15 (by omega)) (ValueIdx.ix1 q) :=
  Cert.LibRunningSum.last_step (accAt V c b r q) (contrib V c b r q) 15 (by omega) _
    (acc_zero V c b r q) (acc_step V c b r q) (acc_last V c b r q)

/-! ## At the attention launch's entry contents -/

variable (m : (ℓ : Loc nD τ sig) → Buf (Elt Ideal) ℓ) (ρ : Dev nD → PrngReg)

/-- Head h's contribution, from the blocks its point is handed, is the specification's per-head term of the
    launch arrays: the head's block is the projection, the weight rows are the output weight's columns 64h … 64h+63. -/
theorem contrib_eq (c : Dev nD) (b : Fin 2) (r : Fin 2048) (q : Fin 1024) (h : Fin 16) :
    contrib (C2 m ρ) c b r q h.val
      = headOut (fun i cc => proj (m ((c : Thread nD τ).loc main_arg0)) (m ((c : Thread nD τ).loc main_arg1)) (m ((c : Thread nD τ).loc main_arg2)) b h i cc)
          (m ((c : Thread nD τ).loc main_arg3)) h r q := by
  unfold contrib
  rw [dif_pos h.isLt]
  unfold partialOut headOut
  have ht : (pt b h.val h.isLt).val = 16 * b.val + h.val := rfl
  have hP : blkP (iblk1 (C2 m ρ) c 0 (pt b h.val h.isLt))
      = fun i cc => proj (m ((c : Thread nD τ).loc main_arg0)) (m ((c : Thread nD τ).loc main_arg1)) (m ((c : Thread nD τ).loc main_arg2)) b h i cc :=
    funext fun i => funext fun cc => (iblk1_0_apply (C2 m ρ) c _ b h ht i cc).trans (entry1_block m ρ c b h i cc)
  rw [hP]
  refine Finset.sum_congr rfl fun e _ => ?_
  rw [iblk1_1_apply (C2 m ρ) c _ b h ht e q]
  exact congrArg _ (C2_v1_apply m ρ c (colOf h e) q)

/-- The bias row the last head adds is the launch's bias array. -/
theorem bias_eq (c : Dev nD) (t : Fin cfg1.N) (q : Fin 1024) :
    iblk1 (C2 m ρ) c 2 t (ValueIdx.ix1 q) = m ((c : Thread nD τ).loc main_arg4) (ValueIdx.ix1 q) :=
  (iblk1_2_apply (C2 m ρ) c t q).trans (congrFun (C2_arg4 m ρ c) (ValueIdx.ix1 q))

/-- The result array after the run. -/
theorem kernel_value (c : Dev nD) :
    (dat1 (C2 m ρ) c).arrAt 3 cfg1.N
      = Y (m ((c : Thread nD τ).loc main_arg0)) (m ((c : Thread nD τ).loc main_arg1)) (m ((c : Thread nD τ).loc main_arg2))
          (m ((c : Thread nD τ).loc main_arg3)) (m ((c : Thread nD τ).loc main_arg4)) :=
  final1_of (C2 m ρ) c _ fun b r q hlt => by
    have e := acc_total (C2 m ρ) c b r q
    unfold accAt at e
    rw [dif_pos (by omega : 15 < 16)] at e
    rw [Y_ix3]
    unfold Yat
    refine e.trans ?_
    rw [Finset.sum_range (contrib (C2 m ρ) c b r q)]
    congr 1
    · exact Finset.sum_congr rfl fun h _ => contrib_eq m ρ c b r q h
    · exact bias_eq m ρ c _ q

end Cert.KernelIdeal.HandValue

end
-- ==== Proof.RefProj.lean ====
/-
  The reference's input projection, read at batch entry b, head h, position t and column c, is the specification's.
-/
import proofs.«100586_j44555990728728_1_alg».proof.Proof.Gen.ReferenceIdeal.Read
import proofs.«100586_j44555990728728_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Shepard

variable (x0 : (⟨S2x2048x1024, .f32⟩ : BufTy).Contents (Elt Ideal)) (x1 : (⟨S4096x1024, .f32⟩ : BufTy).Contents (Elt Ideal))
  (x2 : (⟨S4096, .f32⟩ : BufTy).Contents (Elt Ideal))

/-- Position (b, h, t, c) of the transposed four-axis array is position (b, t, 256h + c) of the projection: the reshape
    splits the last axis of length 4096 = 16 · 256 row-major, the transpose exchanges the head and the position. -/
theorem idx_split (b : Fin 2) (h : Fin 16) (t : Fin 2048) (c : Fin 256) :
    idx_main_v4 (idx_main_v5 (ix4 b h t c)) = ix3 b t (rowOf h c) := by
  have hb := b.isLt; have hh := h.isLt; have ht := t.isLt; have hc := c.isLt
  funext a; apply Fin.ext
  match a with
  | ⟨0, _⟩ => show ((((b.val * 2048 + t.val) * 16 + h.val) * 256 + c.val) / 8388608 = b.val); omega
  | ⟨1, _⟩ => show ((((b.val * 2048 + t.val) * 16 + h.val) * 256 + c.val) / 4096 % 2048 = t.val); omega
  | ⟨2, _⟩ => show ((((b.val * 2048 + t.val) * 16 + h.val) * 256 + c.val) % 4096 = 256 * h.val + c.val); omega

theorem l0 (b : Fin 2) (t : Fin 2048) (r : Fin 4096) (k : Fin 1024) : lidx_main_v0 (ix3 b t r) k = ix3 b t k := by
  funext a; apply Fin.ext; match a with | ⟨0, _⟩ => rfl | ⟨1, _⟩ => rfl | ⟨2, _⟩ => rfl
theorem r0 (b : Fin 2) (t : Fin 2048) (r : Fin 4096) (k : Fin 1024) : ridx_main_v0 (ix3 b t r) k = ix2 r k := by
  funext a; apply Fin.ext; match a with | ⟨0, _⟩ => rfl | ⟨1, _⟩ => rfl
theorem i12' (b : Fin 2) (t : Fin 2048) (r : Fin 4096) : idx_main_v1 (idx_main_v2 (ix3 b t r)) = ix1 r := by
  funext a; apply Fin.ext; match a with | ⟨0, _⟩ => rfl

/-- The projection stage at batch entry b, head h, position t, column c is the specification's projection. -/
theorem proj_eq (b : Fin 2) (h : Fin 16) (t : Fin 2048) (c : Fin 256) :
    val_main_v5 (F := Ideal) x0 x1 x2 (ix4 b h t c) = proj x0 x1 x2 b h t c := by
  rw [val_main_v5_apply, val_main_v4_apply, idx_split, val_main_v3_apply, val_main_v0_apply, val_main_v2_apply,
    val_main_v1_apply, i12']
  simp only [l0, r0]
  rfl

end Cert.ReferenceIdeal.RefValue

end
-- ==== Proof.RefHead.lean ====
/-
  The reference's per-head chain (operations 6 to 38), read at batch entry b and head h, is the specification's head: the four column groups, the squared norms and inner products, the distances, the inverse-square weights, the normaliser, the weighted values and the gate.
-/
import proofs.«100586_j44555990728728_1_alg».proof.Proof.RefProj

noncomputable section

namespace Cert.ReferenceIdeal.RefValue

open Cert.ReferenceIdeal Cert.ReferenceIdeal.Gen Cert.ReferenceIdeal.Read Idealize.ShloMosaic Idealize.ShloMosaic.ValueIdx Cert.Shepard

variable (x0 : (⟨S2x2048x1024, .f32⟩ : BufTy).Contents (Elt Ideal)) (x1 : (⟨S4096x1024, .f32⟩ : BufTy).Contents (Elt Ideal))
  (x2 : (⟨S4096, .f32⟩ : BufTy).Contents (Elt Ideal))

/-- Head h's projected block of batch entry b: 2048 positions by 256 columns. -/
abbrev blk (b : Fin 2) (h : Fin 16) : Fin 2048 → Fin 256 → EReal := fun i c => proj x0 x1 x2 b h i c

/-- Two indices of rank 3 (rank 4) whose coordinates agree axis by axis are equal. -/
macro "idx3" : tactic =>
  `(tactic| (funext a; apply Fin.ext; match a with | ⟨0, _⟩ => rfl | ⟨1, _⟩ => rfl | ⟨2, _⟩ => rfl))
macro "idx4" : tactic =>
  `(tactic| (funext a; apply Fin.ext; match a with | ⟨0, _⟩ => rfl | ⟨1, _⟩ => rfl | ⟨2, _⟩ => rfl | ⟨3, _⟩ => rfl))

/-! ### Where each layout operation reads -/

theorem i6 (b : Fin 2) (h : Fin 16) (t : Fin 2048) (e : Fin 64) :
    idx_main_v6 (ix4 b h t e) = ix4 b h t (grp 0 (by omega) e) := by
  funext a; apply Fin.ext
  match a with
  | ⟨0, _⟩ => rfl | ⟨1, _⟩ => rfl | ⟨2, _⟩ => rfl
  | ⟨3, _⟩ => show e.val = 0 + e.val; omega
theorem i7 (b : Fin 2) (h : Fin 16) (t : Fin 2048) (e : Fin 64) :
    idx_main_v7 (ix4 b h t e) = ix4 b h t (grp 64 (by omega) e) := by idx4
theorem i8 (b : Fin 2) (h : Fin 16) (t : Fin 2048) (e : Fin 64) :
    idx_main_v8 (ix4 b h t e) = ix4 b h t (grp 128 (by omega) e) := by idx4
theorem i9 (b : Fin 2) (h : Fin 16) (t : Fin 2048) (e : Fin 64) :
    idx_main_v9 (ix4 b h t e) = ix4 b h t (grp 192 (by omega) e) := by idx4
theorem i11 (b : Fin 2) (h : Fin 16) (t : Fin 2048) (k : Fin 64) :
    idx_main_v11 (ix3 b h t) k = ix4 b h t k := by idx4
theorem i14 (b : Fin 2) (h : Fin 16) (t : Fin 2048) (k : Fin 64) :
    idx_main_v14 (ix3 b h t) k = ix4 b h t k := by idx4
theorem i12 (b : Fin 2) (h : Fin 16) (t : Fin 2048) (z : Fin 1) :
    idx_main_v12 (ix4 b h t z) = ix3 b h t := by idx3
theorem i15 (b : Fin 2) (h : Fin 16) (z : Fin 1) (j : Fin 2048) :
    idx_main_v15 (ix4 b h z j) = ix3 b h j := by idx3
theorem l16 (b : Fin 2) (h : Fin 16) (i j : Fin 2048) (k : Fin 64) :
    lidx_main_v16 (ix4 b h i j) k = ix4 b h i k := by idx4
theorem r16 (b : Fin 2) (h : Fin 16) (i j : Fin 2048) (k : Fin 64) :
    ridx_main_v16 (ix4 b h i j) k = ix4 b h j k := by idx4
theorem i17 (b : Fin 2) (h : Fin 16) (i j : Fin 2048) :
    idx_main_v17 (ix4 b h i j) = ix4 b h i (0 : Fin 1) := by idx4
theorem i18 (b : Fin 2) (h : Fin 16) (i j : Fin 2048) :
    idx_main_v18 (ix4 b h i j) = ix4 b h (0 : Fin 1) j := by idx4
theorem i31 (b : Fin 2) (h : Fin 16) (i : Fin 2048) (k : Fin 2048) :
    idx_main_v31 (ix3 b h i) k = ix4 b h i k := by idx4
theorem i32 (b : Fin 2) (h : Fin 16) (i : Fin 2048) (z : Fin 1) :
    idx_main_v32 (ix4 b h i z) = ix3 b h i := by idx3
theorem i35 (b : Fin 2) (h : Fin 16) (i j : Fin 2048) :
    idx_main_v35 (ix4 b h i j) = ix4 b h i (0 : Fin 1) := by idx4
theorem l37 (b : Fin 2) (h : Fin 16) (i : Fin 2048) (e : Fin 64) (k : Fin 2048) :
    lidx_main_v37 (ix4 b h i e) k = ix4 b h i k := by idx4
theorem r37 (b : Fin 2) (h : Fin 16) (i : Fin 2048) (e : Fin 64) (k : Fin 2048) :
    ridx_main_v37 (ix4 b h i e) k = ix4 b h k e := by idx4

/-! ### The four column groups -/

theorem q_eq (b : Fin 2) (h : Fin 16) (t : Fin 2048) (e : Fin 64) :
    val_main_v6 (F := Ideal) x0 x1 x2 (ix4 b h t e) = qOf (blk x0 x1 x2 b h) t e := by
  rw [val_main_v6_apply, i6, proj_eq]; rfl
theorem k_eq (b : Fin 2) (h : Fin 16) (t : Fin 2048) (e : Fin 64) :
    val_main_v7 (F := Ideal) x0 x1 x2 (ix4 b h t e) = kOf (blk x0 x1 x2 b h) t e := by
  rw [val_main_v7_apply, i7, proj_eq]; rfl
theorem v_eq (b : Fin 2) (h : Fin 16) (t : Fin 2048) (e : Fin 64) :
    val_main_v8 (F := Ideal) x0 x1 x2 (ix4 b h t e) = vOf (blk x0 x1 x2 b h) t e := by
  rw [val_main_v8_apply, i8, proj_eq]; rfl
theorem g_eq (b : Fin 2) (h : Fin 16) (t : Fin 2048) (e : Fin 64) :
    val_main_v9 (F := Ideal) x0 x1 x2 (ix4 b h t e) = gOf (blk x0 x1 x2 b h) t e := by
  rw [val_main_v9_apply, i9, proj_eq]; rfl

/-! ### Squared norms and inner products -/

theorem q2_eq (b : Fin 2) (h : Fin 16) (t : Fin 2048) :
    val_main_v11 (F := Ideal) x0 x1 x2 (ix3 b h t) = q2 (blk x0 x1 x2 b h) t := by
  rw [val_main_v11_apply, val_main_cst_apply, Ideal.ofBits_def, Ideal.ofBits_zero_f32, zero_add]
  refine Finset.sum_congr rfl fun k _ => ?_
  rw [i11, val_main_v10_apply, q_eq]; rfl
theorem k2_eq (b : Fin 2) (h : Fin 16) (t : Fin 2048) :
    val_main_v14 (F := Ideal) x0 x1 x2 (ix3 b h t) = k2 (blk x0 x1 x2 b h) t := by
  rw [val_main_v14_apply, val_main_cst_0_apply, Ideal.ofBits_def, Ideal.ofBits_zero_f32, zero_add]
  refine Finset.sum_congr rfl fun k _ => ?_
  rw [i14, val_main_v13_apply, k_eq]; rfl
theorem qk_eq (b : Fin 2) (h : Fin 16) (i j : Fin 2048) :
    val_main_v16 (F := Ideal) x0 x1 x2 (ix4 b h i j) = qk (blk x0 x1 x2 b h) i j := by
  rw [val_main_v16_apply]
  refine Finset.sum_congr rfl fun k _ => ?_
  rw [l16, r16, q_eq, k_eq]

/-! ### Distances, weights, normaliser -/

theorem wt_eq (b : Fin 2) (h : Fin 16) (i j : Fin 2048) :
    val_main_v30 (F := Ideal) x0 x1 x2 (ix4 b h i j) = wt (blk x0 x1 x2 b h) i j := by
  rw [val_main_v30_apply, val_main_v29_apply, val_main_cst_4_apply, val_main_v28_apply, val_main_v27_apply,
    val_main_v26_apply, val_main_cst_3_apply, val_main_v25_apply, val_main_v24_apply, val_main_v23_apply,
    val_main_cst_2_apply, val_main_v22_apply, val_main_v21_apply, val_main_v20_apply, val_main_cst_1_apply,
    val_main_v19_apply, val_main_v17_apply, val_main_v18_apply, i17, i18, val_main_v12_apply, val_main_v15_apply,
    i12, i15, q2_eq, k2_eq, qk_eq]
  rfl
theorem den_eq (b : Fin 2) (h : Fin 16) (i : Fin 2048) (z : Fin 1) :
    val_main_v34 (F := Ideal) x0 x1 x2 (ix4 b h i z) = den (blk x0 x1 x2 b h) i := by
  rw [val_main_v34_apply, val_main_v33_apply, val_main_cst_6_apply, val_main_v32_apply, i32, val_main_v31_apply,
    val_main_cst_5_apply, Ideal.ofBits_def, Ideal.ofBits_def, Ideal.ofBits_zero_f32, zero_add]
  show eps + _ = eps + _
  refine congrArg (eps + ·) (Finset.sum_congr rfl fun k _ => ?_)
  rw [i31, wt_eq]

/-! ### The normalised weights applied to the values, and the gate -/

theorem att_eq (b : Fin 2) (h : Fin 16) (i : Fin 2048) (e : Fin 64) :
    val_main_v37 (F := Ideal) x0 x1 x2 (ix4 b h i e) = att (blk x0 x1 x2 b h) i e := by
  rw [val_main_v37_apply]
  refine Finset.sum_congr rfl fun k _ => ?_
  rw [l37, r37, val_main_v36_apply, val_main_v35_apply, i35, den_eq, wt_eq, v_eq]
  rfl
theorem gated_eq (b : Fin 2) (h : Fin 16) (t : Fin 2048) (e : Fin 64) :
    val_main_v38 (F := Ideal) x0 x1 x2 (ix4 b h t e) = gated (blk x0 x1 x2 b h) t e := by
  rw [val_main_v38_apply, g_eq, att_eq]; rfl

end Cert.ReferenceIdeal.RefValue

end
-- ==== Proof.LibBlockSum.lean ====
/-
  A sum over `a · b` positions cut into `a` consecutive blocks of `b`.

  The positions `0 … a·b − 1` are the pairs (block `k`, entry `j` of the block) at `b · k + j`; a sum over all positions is
  the sum over the blocks of the sums inside each block. Stated in any commutative additive monoid: only
  commutativity and associativity of `+` are used, so it holds on the extended reals with no finiteness assumption.
  This is the law by which a contraction accumulated block by block equals the whole contraction.
-/
import Mathlib

namespace Cert.LibBlockSum

/-- The position of entry `j` of block `k`, among `a` consecutive blocks of `b` positions each. -/
def pos {a b : ℕ} (k : Fin a) (j : Fin b) : Fin (a * b) := finProdFinEquiv (k, j)

/-- It is `b · k + j` (written `j + b · k`). -/
theorem pos_val {a b : ℕ} (k : Fin a) (j : Fin b) : (pos k j).val = j.val + b * k.val := rfl

/-- A sum over `Fin (a * b)` is the sum over the `a` blocks `k` of the sums over each block's `b` entries. -/
theorem sum_blocks {M : Type*} [AddCommMonoid M] {a b : ℕ} (f : Fin (a * b) → M) :
    ∑ h : Fin (a * b), f h = ∑ k : Fin a, ∑ j : Fin b, f (pos k j) :=
  (Fintype.sum_equiv finProdFinEquiv (fun p : Fin a × Fin b => f (pos p.1 p.2)) f (fun _ => rfl)).symm.trans
    (Fintype.sum_prod_type _)

end Cert.LibBlockSum
-- ==== Proof.RefValue.lean ====
/-
  The reference's result array, read through its generated run one operation at a time, is the specification's array.
-/
import proofs.«100586_j44555990728728_1_alg».proof.Proof.Gen.ReferenceIdeal.Read
import proofs.«100586_j44555990728728_1_alg».proof.Proof.Spec
import proofs.«100586_j44555990728728_1_alg».proof.Proof.RefHead
import proofs.«100586_j44555990728728_1_alg».proof.Proof.LibBlockSum

noncomputable section

namespace Cert.ReferenceIdeal.RefValue

open Cert.ReferenceIdeal Cert.ReferenceIdeal.Gen Cert.ReferenceIdeal.Read Idealize.ShloMosaic Idealize.ShloMosaic.ValueIdx Cert.Shepard

variable (x0 : (⟨S2x2048x1024, .f32⟩ : BufTy).Contents (Elt Ideal)) (x1 : (⟨S4096x1024, .f32⟩ : BufTy).Contents (Elt Ideal))
  (x2 : (⟨S4096, .f32⟩ : BufTy).Contents (Elt Ideal)) (x3 : (⟨S1024x1024, .f32⟩ : BufTy).Contents (Elt Ideal))
  (x4 : (⟨S1024, .f32⟩ : BufTy).Contents (Elt Ideal))

/-! ### Heads merged back: position (b, t, 64h + e) of the merged array is head h's gated feature e at position t -/

theorem i39 (b : Fin 2) (t : Fin 2048) (h : Fin 16) (e : Fin 64) : idx_main_v39 (ix4 b t h e) = ix4 b h t e := by idx4

/-- The reshape joins the last two axes row-major: 64h + e splits back into head h and feature e. -/
theorem i40 (b : Fin 2) (t : Fin 2048) (h : Fin 16) (e : Fin 64) :
    idx_main_v40 (ix3 b t (colOf h e)) = ix4 b t h e := by
  have hb := b.isLt; have hh := h.isLt; have ht := t.isLt; have he := e.isLt
  funext a; apply Fin.ext
  match a with
  | ⟨0, _⟩ => show ((b.val * 2048 + t.val) * 1024 + (64 * h.val + e.val)) / 2097152 = b.val; omega
  | ⟨1, _⟩ => show ((b.val * 2048 + t.val) * 1024 + (64 * h.val + e.val)) / 1024 % 2048 = t.val; omega
  | ⟨2, _⟩ => show ((b.val * 2048 + t.val) * 1024 + (64 * h.val + e.val)) / 64 % 16 = h.val; omega
  | ⟨3, _⟩ => show ((b.val * 2048 + t.val) * 1024 + (64 * h.val + e.val)) % 64 = e.val; omega

theorem merged_eq (b : Fin 2) (t : Fin 2048) (h : Fin 16) (e : Fin 64) :
    val_main_v40 (F := Ideal) x0 x1 x2 (ix3 b t (colOf h e)) = gated (blk x0 x1 x2 b h) t e := by
  rw [val_main_v40_apply, i40, val_main_v39_apply, i39, gated_eq]

/-! ### The output projection -/

theorem l41 (b : Fin 2) (t : Fin 2048) (d k : Fin 1024) : lidx_main_v41 (ix3 b t d) k = ix3 b t k := by idx3
theorem r41 (b : Fin 2) (t : Fin 2048) (d k : Fin 1024) : ridx_main_v41 (ix3 b t d) k = ix2 d k := by
  funext a; apply Fin.ext; match a with | ⟨0, _⟩ => rfl | ⟨1, _⟩ => rfl
theorem i43 (b : Fin 2) (t : Fin 2048) (d : Fin 1024) : idx_main_v42 (idx_main_v43 (ix3 b t d)) = ix1 d := by
  funext a; apply Fin.ext; match a with | ⟨0, _⟩ => rfl

/-- Entry e of block h among 16 consecutive blocks of 64 columns is column 64h + e. -/
theorem pos_eq_colOf (h : Fin 16) (e : Fin 64) : (Cert.LibBlockSum.pos h e : Fin (16 * 64)) = colOf h e :=
  Fin.ext (by rw [Cert.LibBlockSum.pos_val, colOf_val]; omega)

/-- The result at batch entry b, position t, output feature d: the contraction over the 1024 merged columns, cut into the
    16 heads' blocks of 64, is the sum over the heads of each head's contribution; then the bias. -/
theorem out_eq (b : Fin 2) (t : Fin 2048) (d : Fin 1024) :
    val_main_v44 (F := Ideal) x0 x1 x2 x3 x4 (ix3 b t d) = Yat x0 x1 x2 x3 x4 b t d := by
  rw [val_main_v44_apply, val_main_v41_apply, val_main_v43_apply, val_main_v42_apply, i43]
  simp only [l41, r41]
  show (∑ k : Fin 1024, val_main_v40 (F := Ideal) x0 x1 x2 (ix3 b t k) * x3 (ix2 d k)) + x4 (ix1 d) = _
  refine congrArg (· + x4 (ix1 d)) ?_
  refine (Cert.LibBlockSum.sum_blocks (a := 16) (b := 64)
    (fun k : Fin 1024 => val_main_v40 (F := Ideal) x0 x1 x2 (ix3 b t k) * x3 (ix2 d k))).trans ?_
  refine Finset.sum_congr rfl fun h _ => ?_
  refine Finset.sum_congr rfl fun e _ => ?_
  show val_main_v40 (F := Ideal) x0 x1 x2 (ix3 b t (Cert.LibBlockSum.pos h e)) * x3 (ix2 d (Cert.LibBlockSum.pos h e)) = _
  rw [pos_eq_colOf, merged_eq]

/-- The reference's result array is the specification's array. -/
theorem result_eq :
    val_main_v44 (F := Ideal) x0 x1 x2 x3 x4 = Y x0 x1 x2 x3 x4 :=
  funext fun i => (congrArg (val_main_v44 (F := Ideal) x0 x1 x2 x3 x4) (eq_ix3 i)).trans (out_eq x0 x1 x2 x3 x4 (i 0) (i 1) (i 2))

end Cert.ReferenceIdeal.RefValue

end
-- ==== Proof.Algebraic.lean ====
/-
  The two idealized programs end with equal results.

  Run from memories that agree on the five argument arrays, the kernel program's result array ends at the
  specification's array of its arguments (the projection kernel's blocks are the projection; the attention kernel's
  accumulator, summed over the heads, with the bias, is the gated attention output), and the reference's result
  array ends at the same array of the same arguments (its operations read one at a time). The common value is the
  specification's array of the kernel program's arguments.
-/
import proofs.«100586_j44555990728728_1_alg».proof.Defs
import proofs.«100586_j44555990728728_1_alg».proof.Proof.KernelValue
import proofs.«100586_j44555990728728_1_alg».proof.Proof.RefValue
import proofs.«100586_j44555990728728_1_alg».proof.Proof.Gen.KernelIdeal
import proofs.«100586_j44555990728728_1_alg».proof.Proof.Gen.ReferenceIdeal
import proofs.«100586_j44555990728728_1_alg».proof.Proof.Gen.Pre_finite_inputs

noncomputable section

namespace Cert.Proof.Claims

open Idealize.ShloMosaic Idealize.ShloMosaic.TcCoe Idealize.SL.Sem

theorem algebraic : Cert.algebraic_KernelIdeal_ReferenceIdeal := by
  intro m ρ m' ρ' _ hagree
  refine ⟨fun c => Cert.Shepard.Y
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.HandValue.kernel_value m ρ c), (h c).2⟩)
      (Cert.KernelIdeal.Hand.run_all (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v44_eq, Cert.ReferenceIdeal.RefValue.result_eq,
      (hagree c).1, (hagree c).2.1, (hagree c).2.2.1, (hagree c).2.2.2.1, (hagree c).2.2.2.2]

end Cert.Proof.Claims

end
-- ==== Proof.lean ====
/-
  A projection kernel and a gated attention kernel with Shepard (inverse squared distance) weights against their
  jnp reference.

  The kernel program is two launches: the first projects every batch entry's rows onto each head's 256 columns
  (queries, keys, values, gates), one grid point per (batch entry, head); the second, again one point per (batch
  entry, head), turns a head's block into its gated attention output, multiplies by the head's rows of the
  transposed output weight and accumulates the product over the heads into the batch entry's output block, adding
  the bias at the last head. The reference computes the same quantities head by head with whole-array operations.
  At the extended reals every operation of the two is the same function of the same operands in the same order,
  except the last contraction, which the kernel takes head by head and the reference at once: a sum over 16 · 64
  positions cut into 16 blocks of 64. No finiteness is needed, so the precondition is never opened.

  The claim's five conjuncts: the three frames and the (empty) idealization claim, then the equality of the results.
-/
import proofs.«100586_j44555990728728_1_alg».proof.Defs
import proofs.«100586_j44555990728728_1_alg».proof.Proof.Claims
import proofs.«100586_j44555990728728_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
